-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x6 : Shape := ⟨2, ![100000, 6]⟩
abbrev S2x600000 : Shape := ⟨2, ![2, 600000]⟩
abbrev S128x6 : Shape := ⟨2, ![128, 6]⟩
abbrev S128 : Shape := ⟨1, ![128]⟩
abbrev S128x128 : Shape := ⟨2, ![128, 128]⟩
abbrev S1x128 : Shape := ⟨2, ![1, 128]⟩
abbrev S1 : Shape := ⟨1, ![1]⟩
abbrev S_ : Shape := ⟨0, ![]⟩

class Facts : Prop where
  bcast_S_S100000x6 : S_.BroadcastsInDim S100000x6 (![] : Fin 0 → Fin S100000x6.rank)
  reducesTo_S100000x6_S_d0_1 : S100000x6.ReducesTo [0, 1] S_
  h_S_ : 0 < S_.numel
  bcast_S_S128x6 : S_.BroadcastsInDim S128x6 (![] : Fin 0 → Fin S128x6.rank)
  reducesTo_S128x6_S_d0_1 : S128x6.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S1x128 .f32) (main_arg13 : FVec F S1 .f32) (main_arg14 : FVec F S1x128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S1x128 .f32 := Host.absf main_arg12
  let main_cst_20 : FVec F S_ .f32 := constant S_ .f32 0x7F800000#32
  let main_v55 : FVec F S1x128 .f32 := broadcastInDim S1x128 ![] bcast_S_S1x128 main_cst_20
  let main_v56 : IVec S1x128 1 := cmpf .olt main_v54 main_v55
  let main_c_21 : IVec S_ 1 := constantI S_ 1 1#1
  let main_v57 : IVec S_ 1 := (fun x v => Host.reduce IntOp.andi x v reducesTo_S1x128_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S1x128 .f32 := Host.absf main_arg14
  let main_cst_24 : FVec F S_ .f32 := constant S_ .f32 0x7F800000#32
  let main_v65 : FVec F S1x128 .f32 := broadcastInDim S1x128 ![] bcast_S_S1x128 main_cst_24
  let main_v66 : IVec S1x128 1 := cmpf .olt main_v64 main_v65
  let main_c_25 : IVec S_ 1 := constantI S_ 1 1#1
  let main_v67 : IVec S_ 1 := (fun x v => Host.reduce IntOp.andi x v reducesTo_S1x128_S_d0_1 h_S_) main_v66 main_c_25
  fn_part4 (F := F) main_v63 main_v67

def fn_part2 {F : FTy → Type} [FloatOps F] (main_arg8 : FVec F S128 .f32) (main_arg9 : FVec F S128x128 .f32) (main_arg10 : FVec F S128 .f32) (main_arg11 : FVec F S128 .f32) (main_arg12 : FVec F S1x128 .f32) (main_arg13 : FVec F S1 .f32) (main_arg14 : FVec F S1x128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_v48 main_v49 main_v50

def fn_part1 {F : FTy → Type} [FloatOps F] (main_arg5 : FVec F S128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S1x128 .f32) (main_arg13 : FVec F S1 .f32) (main_arg14 : FVec F S1x128 .f32) (main_v13 : IVec S_ 1) (main_v16 : IVec S128x6 1) : IVec S_ 1 :=
  let main_c_5 : IVec S_ 1 := constantI S_ 1 1#1
  let main_v17 : IVec S_ 1 := (fun x v => Host.reduce IntOp.andi x v reducesTo_S128x6_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x6 .f32) (main_arg1 : IVec S2x600000 32) (main_arg2 : FVec F S128x6 .f32) (main_arg3 : FVec F S128 .f32) (main_arg4 : FVec F S128x6 .f32) (main_arg5 : FVec F S128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S1x128 .f32) (main_arg13 : FVec F S1 .f32) (main_arg14 : FVec F S1x128 .f32) : IVec S_ 1 :=
  let main_v0 : FVec F S100000x6 .f32 := Host.absf main_arg0
  let main_cst : FVec F S_ .f32 := constant S_ .f32 0x7F800000#32
  let main_v1 : FVec F S100000x6 .f32 := broadcastInDim S100000x6 ![] bcast_S_S100000x6 main_cst
  let main_v2 : IVec S100000x6 1 := cmpf .olt main_v0 main_v1
  let main_c : IVec S_ 1 := constantI S_ 1 1#1
  let main_v3 : IVec S_ 1 := (fun x v => Host.reduce IntOp.andi x v reducesTo_S100000x6_S_d0_1 h_S_) main_v2 main_c
  let main_v4 : FVec F S128x6 .f32 := Host.absf main_arg2
  let main_cst_0 : FVec F S_ .f32 := constant S_ .f32 0x7F800000#32
  let main_v5 : FVec F S128x6 .f32 := broadcastInDim S128x6 ![] bcast_S_S128x6 main_cst_0
  let main_v6 : IVec S128x6 1 := cmpf .olt main_v4 main_v5
  let main_c_1 : IVec S_ 1 := constantI S_ 1 1#1
  let main_v7 : IVec S_ 1 := (fun x v => Host.reduce IntOp.andi x v reducesTo_S128x6_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x6 .f32 := Host.absf main_arg4
  let main_cst_4 : FVec F S_ .f32 := constant S_ .f32 0x7F800000#32
  let main_v15 : FVec F S128x6 .f32 := broadcastInDim S128x6 ![] bcast_S_S128x6 main_cst_4
  let main_v16 : IVec S128x6 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x6 : Shape := ⟨2, ![100000, 6]⟩
abbrev S2x600000 : Shape := ⟨2, ![2, 600000]⟩
abbrev S128x6 : Shape := ⟨2, ![128, 6]⟩
abbrev S128 : Shape := ⟨1, ![128]⟩
abbrev S128x128 : Shape := ⟨2, ![128, 128]⟩
abbrev S1x128 : Shape := ⟨2, ![1, 128]⟩
abbrev S1 : Shape := ⟨1, ![1]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S600000x6 : Shape := ⟨2, ![600000, 6]⟩
abbrev S100000x1 : Shape := ⟨2, ![100000, 1]⟩
abbrev S100000x128 : Shape := ⟨2, ![100000, 128]⟩
abbrev S5000x6 : Shape := ⟨2, ![5000, 6]⟩
abbrev S5000x128 : Shape := ⟨2, ![5000, 128]⟩
abbrev S6x128 : Shape := ⟨2, ![6, 128]⟩
abbrev S600000x128 : Shape := ⟨2, ![600000, 128]⟩
abbrev S1x1 : Shape := ⟨2, ![1, 1]⟩
abbrev S5000x1 : Shape := ⟨2, ![5000, 1]⟩
abbrev S128x1 : Shape := ⟨2, ![128, 1]⟩

abbrev nBuf : Space → Nat
  | .hbm => 118
  | .vmem => 47
  | .smem => 0
  | _ => 0

abbrev bufTy : (tb : Table) → Fin (tcTables nBuf tb) → BufTy
  | .hbm, ⟨0, _⟩ => ⟨S100000x6, .f32⟩
  | .hbm, ⟨1, _⟩ => ⟨S2x600000, .i32⟩
  | .hbm, ⟨2, _⟩ => ⟨S128x6, .f32⟩
  | .hbm, ⟨3, _⟩ => ⟨S128, .f32⟩
  | .hbm, ⟨4, _⟩ => ⟨S128x6, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S1x128, .f32⟩
  | .hbm, ⟨13, _⟩ => ⟨S1, .f32⟩
  | .hbm, ⟨14, _⟩ => ⟨S1x128, .f32⟩
  | .hbm, ⟨15, _⟩ => ⟨S1x600000, .i32⟩
  | .hbm, ⟨16, _⟩ => ⟨S600000, .i32⟩
  | .hbm, ⟨17, _⟩ => ⟨S1x600000, .i32⟩
  | .hbm, ⟨18, _⟩ => ⟨S600000, .i32⟩
  | .hbm, ⟨19, _⟩ => ⟨S_, .f32⟩
  | .hbm, ⟨20, _⟩ => ⟨S600000, .f32⟩
  | .hbm, ⟨21, _⟩ => ⟨S_, .f32⟩
  | .hbm, ⟨22, _⟩ => ⟨S100000, .f32⟩
  | .hbm, ⟨23, _⟩ => ⟨S600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S600000, .i32⟩
  | .hbm, ⟨33, _⟩ => ⟨S600000, .i1⟩
  | .hbm, ⟨34, _⟩ => ⟨S_, .i32⟩
  | .hbm, ⟨35, _⟩ => ⟨S600000, .i32⟩
  | .hbm, ⟨36, _⟩ => ⟨S600000, .i32⟩
  | .hbm, ⟨37, _⟩ => ⟨S600000, .i32⟩
  | .hbm, ⟨38, _⟩ => ⟨S600000x1, .i32⟩
  | .hbm, ⟨39, _⟩ => ⟨S600000x6, .f32⟩
  | .hbm, ⟨40, _⟩ => ⟨S_, .f32⟩
  | .hbm, ⟨41, _⟩ => ⟨S100000x6, .f32⟩
  | .hbm, ⟨42, _⟩ => ⟨S600000x1, .i32⟩
  | .hbm, ⟨43, _⟩ => ⟨S100000x6, .f32⟩
  | .hbm, ⟨44, _⟩ => ⟨S100000x1, .f32⟩
  | .hbm, ⟨45, _⟩ => ⟨S100000x6, .f32⟩
  | .hbm, ⟨46, _⟩ => ⟨S100000x6, .f32⟩
  | .hbm, ⟨47, _⟩ => ⟨S1x128, .f32⟩
  | .hbm, ⟨48, _⟩ => ⟨S100000x128, .f32⟩
  | .hbm, ⟨49, _⟩ => ⟨S1x128, .f32⟩
  | .hbm, ⟨50, _⟩ => ⟨S1x128, .f32⟩
  | .hbm, ⟨51, _⟩ => ⟨S_, .f32⟩
  | .hbm, ⟨52, _⟩ => ⟨S1x128, .f32⟩
  | .hbm, ⟨53, _⟩ => ⟨S1x128, .f32⟩
  | .hbm, ⟨54, _⟩ => ⟨S_, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S_, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S100000x128, .f32⟩
  | .hbm, ⟨65, _⟩ => ⟨S_, .i32⟩
  | .hbm, ⟨66, _⟩ => ⟨S600000, .i32⟩
  | .hbm, ⟨67, _⟩ => ⟨S600000, .i1⟩
  | .hbm, ⟨68, _⟩ => ⟨S_, .i32⟩
  | .hbm, ⟨69, _⟩ => ⟨S600000, .i32⟩
  | .hbm, ⟨70, _⟩ => ⟨S600000, .i32⟩
  | .hbm, ⟨71, _⟩ => ⟨S600000, .i32⟩
  | .hbm, ⟨72, _⟩ => ⟨S600000x1, .i32⟩
  | .hbm, ⟨73, _⟩ => ⟨S600000x128, .f32⟩
  | .hbm, ⟨74, _⟩ => ⟨S_, .f32⟩
  | .hbm, ⟨75, _⟩ => ⟨S100000x128, .f32⟩
  | .hbm, ⟨76, _⟩ => ⟨S600000x1, .i32⟩
  | .hbm, ⟨77, _⟩ => ⟨S100000x128, .f32⟩
  | .hbm, ⟨78, _⟩ => ⟨S100000x1, .f32⟩
  | .hbm, ⟨79, _⟩ => ⟨S100000x128, .f32⟩
  | .hbm, ⟨80, _⟩ => ⟨S100000x128, .f32⟩
  | .hbm, ⟨81, _⟩ => ⟨S1x128, .f32⟩
  | .hbm, ⟨82, _⟩ => ⟨S100000x128, .f32⟩
  | .hbm, ⟨83, _⟩ => ⟨S1x128, .f32⟩
  | .hbm, ⟨84, _⟩ => ⟨S1x128, .f32⟩
  | .hbm, ⟨85, _⟩ => ⟨S_, .f32⟩
  | .hbm, ⟨86, _⟩ => ⟨S1x128, .f32⟩
  | .hbm, ⟨87, _⟩ => ⟨S1x128, .f32⟩
  | .hbm, ⟨88, _⟩ => ⟨S_, .f32⟩
  | .hbm, ⟨89, _⟩ => ⟨S1x128, .f32⟩
  | .hbm, ⟨90, _⟩ => ⟨S1x128, .f32⟩
  | .hbm, ⟨91, _⟩ => ⟨S1x128, .f32⟩
  | .hbm, ⟨92, _⟩ => ⟨S1x128, .f32⟩
  | .hbm, ⟨93, _⟩ => ⟨S_, .f32⟩
  | .hbm, ⟨94, _⟩ => ⟨S1x128, .f32⟩
  | .hbm, ⟨95, _⟩ => ⟨S1x128, .f32⟩
  | .hbm, ⟨96, _⟩ => ⟨S1x128, .f32⟩
  | .hbm, ⟨97, _⟩ => ⟨S1x128, .f32⟩
  | .hbm, ⟨98, _⟩ => ⟨S100000x128, .f32⟩
  | .hbm, ⟨99, _⟩ => ⟨S_, .i32⟩
  | .hbm, ⟨100, _⟩ => ⟨S600000, .i32⟩
  | .hbm, ⟨101, _⟩ => ⟨S600000, .i1⟩
  | .hbm, ⟨102, _⟩ => ⟨S_, .i32⟩
  | .hbm, ⟨103, _⟩ => ⟨S600000, .i32⟩
  | .hbm, ⟨104, _⟩ => ⟨S600000, .i32⟩
  | .hbm, ⟨105, _⟩ => ⟨S600000, .i32⟩
  | .hbm, ⟨106, _⟩ => ⟨S600000x1, .i32⟩
  | .hbm, ⟨107, _⟩ => ⟨S600000x128, .f32⟩
  | .hbm, ⟨108, _⟩ => ⟨S_, .f32⟩
  | .hbm, ⟨109, _⟩ => ⟨S100000x128, .f32⟩
  | .hbm, ⟨110, _⟩ => ⟨S600000x1, .i32⟩
  | .hbm, ⟨111, _⟩ => ⟨S100000x128, .f32⟩
  | .hbm, ⟨112, _⟩ => ⟨S100000x1, .f32⟩
  | .hbm, ⟨113, _⟩ => ⟨S100000x128, .f32⟩
  | .hbm, ⟨114, _⟩ => ⟨S100000x128, .f32⟩
  | .hbm, ⟨115, _⟩ => ⟨S1x1, .f32⟩
  | .hbm, ⟨116, _⟩ => ⟨S100000x1, .f32⟩
  | .hbm, ⟨117, _⟩ => ⟨S100000, .f32⟩
  | .local _ .vmem, ⟨0, _⟩ => ⟨S5000x6, .f32⟩
  | .local _ .vmem, ⟨1, _⟩ => ⟨S5000x6, .f32⟩
  | .local _ .vmem, ⟨2, _⟩ => ⟨S5000x6, .f32⟩
  | .local _ .vmem, ⟨3, _⟩ => ⟨S5000x6, .f32⟩
  | .local _ .vmem, ⟨4, _⟩ => ⟨S128x6, .f32⟩
  | .local _ .vmem, ⟨5, _⟩ => ⟨S1x128, .f32⟩
  | .local _ .vmem, ⟨6, _⟩ => ⟨S128x6, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S128x128, .f32⟩
  | .local _ .vmem, ⟨24, _⟩ => ⟨S1x128, .f32⟩
  | .local _ .vmem, ⟨25, _⟩ => ⟨S128x128, .f32⟩
  | .local _ .vmem, ⟨26, _⟩ => ⟨S5000x128, .f32⟩
  | .local _ .vmem, ⟨27, _⟩ => ⟨S5000x128, .f32⟩
  | .local _ .vmem, ⟨28, _⟩ => ⟨S1x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S1x128, .f32⟩
  | .local _ .vmem, ⟨43, _⟩ => ⟨S1x1, .f32⟩
  | .local _ .vmem, ⟨44, _⟩ => ⟨S1x128, .f32⟩
  | .local _ .vmem, ⟨45, _⟩ => ⟨S5000x1, .f32⟩
  | .local _ .vmem, ⟨46, _⟩ => ⟨S5000x1, .f32⟩
  | _, _ => ⟨S100000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_c : Ref sig .tc := ⟨.hbm, 31, rfl⟩
abbrev main_v12 : Ref sig .tc := ⟨.hbm, 32, rfl⟩
abbrev main_v13 : Ref sig .tc := ⟨.hbm, 33, rfl⟩
abbrev main_c_3 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26_0 : Ref sig .tc := ⟨.hbm, 48, rfl⟩
abbrev main_v26_1 : Ref sig .tc := ⟨.hbm, 49, rfl⟩
abbrev main_v26_2 : Ref sig .tc := ⟨.hbm, 50, rfl⟩
abbrev main_cst_5 : Ref sig .tc := ⟨.hbm, 51, rfl⟩
abbrev main_v27 : Ref sig .tc := ⟨.hbm, 52, rfl⟩
abbrev main_v28 : Ref sig .tc := ⟨.hbm, 53, rfl⟩
abbrev main_cst_6 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_7 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_c_8 : Ref sig .tc := ⟨.hbm, 65, rfl⟩
abbrev main_v38 : Ref sig .tc := ⟨.hbm, 66, rfl⟩
abbrev main_v39 : Ref sig .tc := ⟨.hbm, 67, rfl⟩
abbrev main_c_9 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_10 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52_0 : Ref sig .tc := ⟨.hbm, 82, rfl⟩
abbrev main_v52_1 : Ref sig .tc := ⟨.hbm, 83, rfl⟩
abbrev main_v52_2 : Ref sig .tc := ⟨.hbm, 84, rfl⟩
abbrev main_cst_11 : Ref sig .tc := ⟨.hbm, 85, rfl⟩
abbrev main_v53 : Ref sig .tc := ⟨.hbm, 86, rfl⟩
abbrev main_v54 : Ref sig .tc := ⟨.hbm, 87, rfl⟩
abbrev main_cst_12 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_13 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_c_14 : Ref sig .tc := ⟨.hbm, 99, rfl⟩
abbrev main_v64 : Ref sig .tc := ⟨.hbm, 100, rfl⟩
abbrev main_v65 : Ref sig .tc := ⟨.hbm, 101, rfl⟩
abbrev main_c_15 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_cst_16 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg7_0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg5_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg5_0 : Ref sig .tc := ⟨.vmem, 45, rfl⟩
abbrev cc4_stg5_1 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27
abbrev cc2_sem6_0 : DmaSem sig := 28
abbrev cc2_sem7_0 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem5_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem3_0 : DmaSem sig := 43
abbrev cc4_sem4_0 : DmaSem sig := 44
abbrev cc4_sem5_0 : DmaSem sig := 45
abbrev cc4_sem5_1 : DmaSem sig := 46

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x6 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x6 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S_S100000x6 : S_.BroadcastsInDim S100000x6 (![] : Fin 0 → Fin S100000x6.rank)
  bcast_S100000_S100000x1_0 : S100000.BroadcastsInDim S100000x1 (![0] : Fin 1 → Fin S100000x1.rank)
  bcast_S100000x1_S100000x6_0_1 : S100000x1.BroadcastsInDim S100000x6 (![0, 1] : Fin 2 → Fin S100000x6.rank)
  shapeCasts_S128_S1x128 : S128.ShapeCasts S1x128
  inb_S1x128_S1x128_0_0 : ∀ a, (![0, 0] : Fin 2 → Nat) a + S1x128.size a ≤ S1x128.size a
  h_S1x128 : 0 < S1x128.numel
  inb_S5000x6_S5000x6_0_0 : ∀ a, (![0, 0] : Fin 2 → Nat) a + S5000x6.size a ≤ S5000x6.size a
  h_S5000x6 : 0 < S5000x6.numel
  shapeCasts_S5000x6_S5000x6 : S5000x6.ShapeCasts S5000x6
  bitsLt_bf16_f32 : FTy.bits .bf16 < FTy.bits .f32
  inb_S128x6_S128x6_0_0 : ∀ a, (![0, 0] : Fin 2 → Nat) a + S128x6.size a ≤ S128x6.size a
  h_S128x6 : 0 < S128x6.numel
  transposes_S128x6_p1_0_S6x128 : S128x6.Transposes [1, 0] S6x128
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  reduces_S5000x128_S128 : S5000x128.Reduces [0] S128
  bcast_S_S1x128 : S_.BroadcastsInDim S1x128 (![] : Fin 0 → Fin S1x128.rank)
  shapeCasts_S5000x128_S5000x128 : S5000x128.ShapeCasts S5000x128
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  shapeCasts_S1_S1x1 : S1.ShapeCasts S1x1
  transposes_S1x128_p1_0_S128x1 : S1x128.Transposes [1, 0] S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S100000x1_S100000 : S100000x1.ShapeCasts S100000
  scatter_S100000_S600000x1_S600000_n_0_0_1_wf : ScatterDims.WF S100000 S600000x1 S600000 [] [0] [0] 1
  gather_S100000x6_S600000x1_S600000x6_1_0_n_n_0_1_16_wf : GatherDims.WF S100000x6 S600000x1 S600000x6 [1] [0] [] [0] [] 1 ![1, 6]
  scatter_S100000x6_S600000x1_S600000x6_1_0_0_1_wf : ScatterDims.WF S100000x6 S600000x1 S600000x6 [1] [0] [0] 1
  dot_S5000x6_S6x128_S5000x128_1_0_0_1_n_n_wf : DotDims.WF S5000x6 S6x128 S5000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x6.size a ≤ S100000x6.size a
  hwx0_0 : ∀ i : grid0.Coords, EltTy.bits .f32 = 32 ∨ (Rect.block (s := S100000x6) S5000x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x6.size a ≤ S100000x6.size a
  hwx0_1 : ∀ i : grid0.Coords, EltTy.bits .f32 = 32 ∨ (Rect.block (s := S100000x6) S5000x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x6.size a ≤ S128x6.size a
  hwx0_2 : ∀ i : grid0.Coords, EltTy.bits .f32 = 32 ∨ (Rect.block (s := S128x6) S128x6.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x6.size a ≤ S128x6.size a
  hwx0_4 : ∀ i : grid0.Coords, EltTy.bits .f32 = 32 ∨ (Rect.block (s := S128x6) S128x6.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x1.size a ≤ S1x1.size a
  hwx4_3 : ∀ i : grid4.Coords, EltTy.bits .f32 = 32 ∨ (Rect.block (s := S1x1) S1x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x1.size a ≤ S100000x1.size a
  hwx4_5 : ∀ i : grid4.Coords, EltTy.bits .f32 = 32 ∨ (Rect.block (s := S100000x1) S5000x1.size (cc4_transform_5 i) (hinb4_5 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x6_S600000x1_S600000x6_1_0_n_n_0_1_16 : GatherDims S100000x6 S600000x1 S600000x6 where
  offsetDims := [1]
  collapsedSliceDims := [0]
  operandBatchingDims := []
  startIndicesBatchingDims := []
  startIndexMap := [0]
  indexVectorDim := 1
  sliceSizes := ![1, 6]
  wf := gather_S100000x6_S600000x1_S600000x6_1_0_n_n_0_1_16_wf
def scatter_S100000x6_S600000x1_S600000x6_1_0_0_1 : ScatterDims S100000x6 S600000x1 S600000x6 where
  updateWindowDims := [1]
  insertedWindowDims := [0]
  scatterDimsToOperandDims := [0]
  indexVectorDim := 1
  wf := scatter_S100000x6_S600000x1_S600000x6_1_0_0_1_wf
def dot_S5000x6_S6x128_S5000x128_1_0_0_1_n_n : DotDims S5000x6 S6x128 S5000x128 where
  lhsContracting := [1]
  rhsContracting := [0]
  lhsNonContracting := [0]
  rhsNonContracting := [1]
  lhsBatch := []
  rhsBatch := []
  wf := dot_S5000x6_S6x128_S5000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v24) S5000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x6.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x6.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v26_1) S1x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26_2) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v26_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v50) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52_0) S5000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v52_1) S1x128.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v52_2) S1x128.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v52_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v61) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v62) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v63) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v76) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v63) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg12) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v77) S1x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg14) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v78) S5000x1.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x6 : Shape := ⟨2, ![100000, 6]⟩
abbrev S2x600000 : Shape := ⟨2, ![2, 600000]⟩
abbrev S128x6 : Shape := ⟨2, ![128, 6]⟩
abbrev S128 : Shape := ⟨1, ![128]⟩
abbrev S128x128 : Shape := ⟨2, ![128, 128]⟩
abbrev S1x128 : Shape := ⟨2, ![1, 128]⟩
abbrev S1 : Shape := ⟨1, ![1]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S600000x6 : Shape := ⟨2, ![600000, 6]⟩
abbrev S100000x1 : Shape := ⟨2, ![100000, 1]⟩
abbrev S6x128 : Shape := ⟨2, ![6, 128]⟩
abbrev S100000x128 : Shape := ⟨2, ![100000, 128]⟩
abbrev S600000x128 : Shape := ⟨2, ![600000, 128]⟩
abbrev S128x1 : Shape := ⟨2, ![128, 1]⟩
abbrev S1x1 : Shape := ⟨2, ![1, 1]⟩

abbrev nBuf : Space → Nat
  | .hbm => 178
  | .vmem => 0
  | .smem => 0
  | _ => 0

abbrev hbmTy0_0 (i : Nat) : BufTy := match i % 128 with
  | 0 => ⟨S100000x6, .f32⟩
  | 1 => ⟨S2x600000, .i32⟩
  | 2 => ⟨S128x6, .f32⟩
  | 3 => ⟨S128, .f32⟩
  | 4 => ⟨S128x6, .f32⟩
  | 5 => ⟨S128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128, .f32⟩
  | 12 => ⟨S1x128, .f32⟩
  | 13 => ⟨S1, .f32⟩
  | 14 => ⟨S1x128, .f32⟩
  | 15 => ⟨S1x600000, .i32⟩
  | 16 => ⟨S600000, .i32⟩
  | 17 => ⟨S1x600000, .i32⟩
  | 18 => ⟨S600000, .i32⟩
  | 19 => ⟨S_, .f32⟩
  | 20 => ⟨S600000, .f32⟩
  | 21 => ⟨S_, .f32⟩
  | 22 => ⟨S100000, .f32⟩
  | 23 => ⟨S600000x1, .i32⟩
  | 24 => ⟨S100000, .f32⟩
  | 25 => ⟨S_, .f32⟩
  | 26 => ⟨S100000, .f32⟩
  | 27 => ⟨S100000, .f32⟩
  | 28 => ⟨S_, .f32⟩
  | 29 => ⟨S100000, .f32⟩
  | 30 => ⟨S100000, .f32⟩
  | 31 => ⟨S_, .i32⟩
  | 32 => ⟨S600000, .i32⟩
  | 33 => ⟨S600000, .i1⟩
  | 34 => ⟨S_, .i32⟩
  | 35 => ⟨S600000, .i32⟩
  | 36 => ⟨S600000, .i32⟩
  | 37 => ⟨S600000, .i32⟩
  | 38 => ⟨S600000x1, .i32⟩
  | 39 => ⟨S600000x6, .f32⟩
  | 40 => ⟨S_, .f32⟩
  | 41 => ⟨S100000x6, .f32⟩
  | 42 => ⟨S600000x1, .i32⟩
  | 43 => ⟨S100000x6, .f32⟩
  | 44 => ⟨S100000x1, .f32⟩
  | 45 => ⟨S100000x6, .f32⟩
  | 46 => ⟨S100000x6, .f32⟩
  | 47 => ⟨S6x128, .f32⟩
  | 48 => ⟨S100000x128, .f32⟩
  | 49 => ⟨S1x128, .f32⟩
  | 50 => ⟨S100000x128, .f32⟩
  | 51 => ⟨S100000x128, .f32⟩
  | 52 => ⟨S6x128, .f32⟩
  | 53 => ⟨S100000x128, .f32⟩
  | 54 => ⟨S100000x128, .f32⟩
  | 55 => ⟨S_, .f32⟩
  | 56 => ⟨S128, .f32⟩
  | 57 => ⟨S_, .f32⟩
  | 58 => ⟨S128, .f32⟩
  | 59 => ⟨S128, .f32⟩
  | 60 => ⟨S1x128, .f32⟩
  | 61 => ⟨S100000x128, .f32⟩
  | 62 => ⟨S100000x128, .f32⟩
  | 63 => ⟨S100000x128, .f32⟩
  | 64 => ⟨S_, .f32⟩
  | 65 => ⟨S128, .f32⟩
  | 66 => ⟨S_, .f32⟩
  | 67 => ⟨S128, .f32⟩
  | 68 => ⟨S128, .f32⟩
  | 69 => ⟨S1x128, .f32⟩
  | 70 => ⟨S100000x128, .f32⟩
  | 71 => ⟨S100000x128, .f32⟩
  | 72 => ⟨S_, .f32⟩
  | 73 => ⟨S128, .f32⟩
  | 74 => ⟨S128, .f32⟩
  | 75 => ⟨S128, .f32⟩
  | 76 => ⟨S1x128, .f32⟩
  | 77 => ⟨S100000x128, .f32⟩
  | 78 => ⟨S100000x128, .f32⟩
  | 79 => ⟨S1x128, .f32⟩
  | 80 => ⟨S100000x128, .f32⟩
  | 81 => ⟨S100000x128, .f32⟩
  | 82 => ⟨S1x128, .f32⟩
  | 83 => ⟨S100000x128, .f32⟩
  | 84 => ⟨S100000x128, .f32⟩
  | 85 => ⟨S_, .f32⟩
  | 86 => ⟨S100000x128, .f32⟩
  | 87 => ⟨S100000x128, .f32⟩
  | 88 => ⟨S_, .i32⟩
  | 89 => ⟨S600000, .i32⟩
  | 90 => ⟨S600000, .i1⟩
  | 91 => ⟨S_, .i32⟩
  | 92 => ⟨S600000, .i32⟩
  | 93 => ⟨S600000, .i32⟩
  | 94 => ⟨S600000, .i32⟩
  | 95 => ⟨S600000x1, .i32⟩
  | 96 => ⟨S600000x128, .f32⟩
  | 97 => ⟨S_, .f32⟩
  | 98 => ⟨S100000x128, .f32⟩
  | 99 => ⟨S600000x1, .i32⟩
  | 100 => ⟨S100000x128, .f32⟩
  | 101 => ⟨S100000x1, .f32⟩
  | 102 => ⟨S100000x128, .f32⟩
  | 103 => ⟨S100000x128, .f32⟩
  | 104 => ⟨S128x128, .f32⟩
  | 105 => ⟨S100000x128, .f32⟩
  | 106 => ⟨S1x128, .f32⟩
  | 107 => ⟨S100000x128, .f32⟩
  | 108 => ⟨S100000x128, .f32⟩
  | 109 => ⟨S128x128, .f32⟩
  | 110 => ⟨S100000x128, .f32⟩
  | 111 => ⟨S100000x128, .f32⟩
  | 112 => ⟨S_, .f32⟩
  | 113 => ⟨S128, .f32⟩
  | 114 => ⟨S_, .f32⟩
  | 115 => ⟨S128, .f32⟩
  | 116 => ⟨S128, .f32⟩
  | 117 => ⟨S1x128, .f32⟩
  | 118 => ⟨S100000x128, .f32⟩
  | 119 => ⟨S100000x128, .f32⟩
  | 120 => ⟨S100000x128, .f32⟩
  | 121 => ⟨S_, .f32⟩
  | 122 => ⟨S128, .f32⟩
  | 123 => ⟨S_, .f32⟩
  | 124 => ⟨S128, .f32⟩
  | 125 => ⟨S128, .f32⟩
  | 126 => ⟨S1x128, .f32⟩
  | 127 => ⟨S100000x128, .f32⟩
  | _ => ⟨S100000x6, .f32⟩

abbrev hbmTy0_1 (i : Nat) : BufTy := match i % 128 with
  | 0 => ⟨S100000x128, .f32⟩
  | 1 => ⟨S_, .f32⟩
  | 2 => ⟨S128, .f32⟩
  | 3 => ⟨S128, .f32⟩
  | 4 => ⟨S128, .f32⟩
  | 5 => ⟨S1x128, .f32⟩
  | 6 => ⟨S100000x128, .f32⟩
  | 7 => ⟨S100000x128, .f32⟩
  | 8 => ⟨S1x128, .f32⟩
  | 9 => ⟨S100000x128, .f32⟩
  | 10 => ⟨S100000x128, .f32⟩
  | 11 => ⟨S1x128, .f32⟩
  | 12 => ⟨S100000x128, .f32⟩
  | 13 => ⟨S100000x128, .f32⟩
  | 14 => ⟨S_, .f32⟩
  | 15 => ⟨S100000x128, .f32⟩
  | 16 => ⟨S100000x128, .f32⟩
  | 17 => ⟨S_, .i32⟩
  | 18 => ⟨S600000, .i32⟩
  | 19 => ⟨S600000, .i1⟩
  | 20 => ⟨S_, .i32⟩
  | 21 => ⟨S600000, .i32⟩
  | 22 => ⟨S600000, .i32⟩
  | 23 => ⟨S600000, .i32⟩
  | 24 => ⟨S600000x1, .i32⟩
  | 25 => ⟨S600000x128, .f32⟩
  | 26 => ⟨S_, .f32⟩
  | 27 => ⟨S100000x128, .f32⟩
  | 28 => ⟨S600000x1, .i32⟩
  | 29 => ⟨S100000x128, .f32⟩
  | 30 => ⟨S100000x1, .f32⟩
  | 31 => ⟨S100000x128, .f32⟩
  | 32 => ⟨S100000x128, .f32⟩
  | 33 => ⟨S128x1, .f32⟩
  | 34 => ⟨S100000x1, .f32⟩
  | 35 => ⟨S1x1, .f32⟩
  | 36 => ⟨S100000x1, .f32⟩
  | 37 => ⟨S100000x1, .f32⟩
  | 38 => ⟨S128x1, .f32⟩
  | 39 => ⟨S100000x1, .f32⟩
  | 40 => ⟨S100000x1, .f32⟩
  | 41 => ⟨S100000x1, .f32⟩
  | 42 => ⟨S100000x1, .f32⟩
  | 43 => ⟨S_, .f32⟩
  | 44 => ⟨S100000x1, .f32⟩
  | 45 => ⟨S100000x1, .f32⟩
  | 46 => ⟨S_, .f32⟩
  | 47 => ⟨S100000x1, .f32⟩
  | 48 => ⟨S100000x1, .f32⟩
  | 49 => ⟨S100000, .f32⟩
  | _ => ⟨S100000x6, .f32⟩

abbrev hbmTy (i : Nat) : BufTy := match i / 128 with
  | 0 => hbmTy0_0 i
  | 1 => hbmTy0_1 i
  | _ => ⟨S100000x6, .f32⟩

abbrev bufTy : (tb : Table) → Fin (tcTables nBuf tb) → BufTy
  | .hbm, ⟨i, _⟩ => hbmTy i
  | _, _ => ⟨S100000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_c : Ref sig .tc := ⟨.hbm, 31, rfl⟩
abbrev main_v12 : Ref sig .tc := ⟨.hbm, 32, rfl⟩
abbrev main_v13 : Ref sig .tc := ⟨.hbm, 33, rfl⟩
abbrev main_c_3 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_5 : Ref sig .tc := ⟨.hbm, 55, rfl⟩
abbrev main_v33 : Ref sig .tc := ⟨.hbm, 56, rfl⟩
abbrev main_cst_6 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_9 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_call0_cst : Ref sig .tc := ⟨.hbm, 85, rfl⟩
abbrev main_call0_v0 : Ref sig .tc := ⟨.hbm, 86, rfl⟩
abbrev main_v58 : Ref sig .tc := ⟨.hbm, 87, rfl⟩
abbrev main_c_10 : Ref sig .tc := ⟨.hbm, 88, rfl⟩
abbrev main_v59 : Ref sig .tc := ⟨.hbm, 89, rfl⟩
abbrev main_v60 : Ref sig .tc := ⟨.hbm, 90, rfl⟩
abbrev main_c_11 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_12 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_13 : Ref sig .tc := ⟨.hbm, 112, rfl⟩
abbrev main_v80 : Ref sig .tc := ⟨.hbm, 113, rfl⟩
abbrev main_cst_14 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_15 : Ref sig .tc := ⟨.hbm, 121, rfl⟩
abbrev main_v87 : Ref sig .tc := ⟨.hbm, 122, rfl⟩
abbrev main_cst_16 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_17 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_call1_cst : Ref sig .tc := ⟨.hbm, 142, rfl⟩
abbrev main_call1_v0 : Ref sig .tc := ⟨.hbm, 143, rfl⟩
abbrev main_v105 : Ref sig .tc := ⟨.hbm, 144, rfl⟩
abbrev main_c_18 : Ref sig .tc := ⟨.hbm, 145, rfl⟩
abbrev main_v106 : Ref sig .tc := ⟨.hbm, 146, rfl⟩
abbrev main_v107 : Ref sig .tc := ⟨.hbm, 147, rfl⟩
abbrev main_c_19 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_cst_20 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_cst_21 : Ref sig .tc := ⟨.hbm, 171, rfl⟩
abbrev main_v129 : Ref sig .tc := ⟨.hbm, 172, rfl⟩
abbrev main_v130 : Ref sig .tc := ⟨.hbm, 173, rfl⟩
abbrev main_cst_22 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S_S100000x6 : S_.BroadcastsInDim S100000x6 (![] : Fin 0 → Fin S100000x6.rank)
  bcast_S100000_S100000x1_0 : S100000.BroadcastsInDim S100000x1 (![0] : Fin 1 → Fin S100000x1.rank)
  bcast_S100000x1_S100000x6_0_1 : S100000x1.BroadcastsInDim S100000x6 (![0, 1] : Fin 2 → Fin S100000x6.rank)
  transposes_S128x6_S6x128_1_0 : S128x6.Transposes [1, 0] S6x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  transposes_S1x128_S128x1_1_0 : S1x128.Transposes [1, 0] S128x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  shapeCasts_S100000x1_S100000 : S100000x1.ShapeCasts S100000
  scatter_S100000_S600000x1_S600000_n_0_0_1_wf : ScatterDims.WF S100000 S600000x1 S600000 [] [0] [0] 1
  gather_S100000x6_S600000x1_S600000x6_1_0_n_n_0_1_16_wf : GatherDims.WF S100000x6 S600000x1 S600000x6 [1] [0] [] [0] [] 1 ![1, 6]
  scatter_S100000x6_S600000x1_S600000x6_1_0_0_1_wf : ScatterDims.WF S100000x6 S600000x1 S600000x6 [1] [0] [0] 1
  dot_S100000x6_S6x128_S100000x128_1_0_0_1_n_n_wf : DotDims.WF S100000x6 S6x128 S100000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x6_S600000x1_S600000x6_1_0_n_n_0_1_16 : GatherDims S100000x6 S600000x1 S600000x6 where
  offsetDims := [1]
  collapsedSliceDims := [0]
  operandBatchingDims := []
  startIndicesBatchingDims := []
  startIndexMap := [0]
  indexVectorDim := 1
  sliceSizes := ![1, 6]
  wf := gather_S100000x6_S600000x1_S600000x6_1_0_n_n_0_1_16_wf
def scatter_S100000x6_S600000x1_S600000x6_1_0_0_1 : ScatterDims S100000x6 S600000x1 S600000x6 where
  updateWindowDims := [1]
  insertedWindowDims := [0]
  scatterDimsToOperandDims := [0]
  indexVectorDim := 1
  wf := scatter_S100000x6_S600000x1_S600000x6_1_0_0_1_wf
def dot_S100000x6_S6x128_S100000x128_1_0_0_1_n_n : DotDims S100000x6 S6x128 S100000x128 where
  lhsContracting := [1]
  rhsContracting := [0]
  lhsNonContracting := [0]
  rhsNonContracting := [1]
  lhsBatch := []
  rhsBatch := []
  wf := dot_S100000x6_S6x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KernelRun.lean ====
/-
  The kernel program's run, with its result array named.

  The program is five launches among six stretches of host operations. Every weakly fair execution terminates without
  a fault, the fifteen argument arrays end as they began, and the result array ends holding what the last stretch
  writes over the contents the last launch leaves (`W11`, the fold of the buffers' contents through the segments).
  The statement is the frame's own with the result array's final contents added to it; the launch term is the
  frame's.
-/
import proofs.«101248_j40450001994225_2_alg».proof.Proof.Gen.KernelIdeal.Frame

set_option maxRecDepth 16384

noncomputable section

namespace Cert.Sage.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and every argument array as launched. -/
theorem run_named : θ_run defs (onTc (τ := τ) (main (F := F))) ⟨m, fun _ => 0, ρ⟩ (fun r => ∀ c : Dev nD,
      r.2.mem ((c.tc : Thread nD τ).loc main_v79) = W11 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v79 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c)⟩)

end Cert.Sage.KernelRun

end
-- ==== Proof.Spec.lean ====
/-
  The mathematics of one graph-convolution network with batch statistics, as functions of tables of extended reals.

  A table with a rows and b columns is a function on the index set of the shape [a, b]; an entry is read at
  `ix2 r q`. One layer's linear part at row r and column q is
      (Σ_j M(r,j)·Wl(q,j) + Σ_j X(r,j)·Wr(q,j)) + b(q),
  the two weight tables being read transposed (row q of a weight table is output column q). The batch statistics of a
  table are taken down its rows, column by column: the mean is the column sum divided by the row count (here the float
  word of 100000), and the variance comes in two arrangements — the mean of squares less the squared mean, cut off
  below at 0, and the mean of the squared deviations from the mean. Over real entries the two are one number; over
  the extended reals they differ as soon as an entry is infinite, which is why the comparison is made on real tables.
  Normalisation, scale, shift and the cut-off at 0 are `bnAt`; the last layer ends in 1 / (1 + e^(-x)).
-/
import Idealize.ShloMosaic.PureOps.Ideal
import Idealize.ShloMosaic.Lib.ValueIdx

noncomputable section

open scoped BigOperators

namespace Cert.Sage

open Idealize.ShloMosaic Idealize.ShloMosaic.ValueIdx

/-- A table of extended reals with `a` rows and `b` columns. -/
abbrev Tab (a b : ℕ) : Type := (⟨2, ![a, b]⟩ : Shape).Idx → EReal

/-- The float word of the row count 100000. -/
abbrev rowCount : EReal := Ideal.ofBits .f32 0x47C35000#32
/-- The float word of the stabiliser added to a variance (the float nearest 1e-5). -/
abbrev stab : EReal := Ideal.ofBits .f32 0x3727C5AC#32

variable {n k c : ℕ}

/-- One layer's linear part at row `r`, column `q`: both products summed, then the bias. -/
def linAt (M X : Tab n k) (Wl Wr : Tab c k) (b : Fin c → EReal) (r : Fin n) (q : Fin c) : EReal :=
  ((∑ j : Fin k, M (ix2 r j) * Wl (ix2 q j)) + ∑ j : Fin k, X (ix2 r j) * Wr (ix2 q j)) + b q

/-- The linear part as a table. -/
def lin (M X : Tab n k) (Wl Wr : Tab c k) (b : Fin c → EReal) : Tab n c :=
  fun i => linAt M X Wl Wr b (i 0) (i 1)

/-- The sum of column `q` down the rows. -/
def colSum (H : Tab n c) (q : Fin c) : EReal := ∑ r : Fin n, H (ix2 r q)

/-- The sum of the squares of column `q` down the rows. -/
def colSumSq (H : Tab n c) (q : Fin c) : EReal := ∑ r : Fin n, H (ix2 r q) * H (ix2 r q)

/-- The mean of column `q`. -/
def meanAt (H : Tab n c) (q : Fin c) : EReal := Ideal.div (colSum H q) rowCount

/-- The variance of column `q` as the mean of squares less the squared mean, cut off below at 0. -/
def varK (H : Tab n c) (q : Fin c) : EReal :=
  max (Ideal.div (colSumSq H q) rowCount - meanAt H q * meanAt H q) 0

/-- The variance of column `q` as the mean of the squared deviations from the mean. -/
def varR (H : Tab n c) (q : Fin c) : EReal :=
  Ideal.div (∑ r : Fin n, (H (ix2 r q) - meanAt H q) * (H (ix2 r q) - meanAt H q)) rowCount

/-- Normalise, scale, shift, cut off at 0: one entry. -/
def bnAt (h mean var γ β : EReal) : EReal :=
  max ((((h - mean) * Ideal.rsqrt (var + stab)) * γ) + β) 0

/-- The same over a table, the four statistics and parameters given as one-row tables. -/
def bnTab (H : Tab n c) (mean var γ β : Tab 1 c) : Tab n c :=
  fun i => bnAt (H i) (mean (ix2 0 (i 1))) (var (ix2 0 (i 1))) (γ (ix2 0 (i 1))) (β (ix2 0 (i 1)))

/-- Batch normalisation and cut-off of a table under a given variance arrangement `v`. -/
def bn (v : Tab n c → Fin c → EReal) (H : Tab n c) (γ β : Fin c → EReal) : Tab n c :=
  fun i => bnAt (H i) (meanAt H (i 1)) (v H (i 1)) (γ (i 1)) (β (i 1))

/-- The logistic function spelled out. -/
def sig (x : EReal) : EReal := Ideal.div 1 (1 + Ideal.exp (-x))

theorem lin_apply (M X : Tab n k) (Wl Wr : Tab c k) (b : Fin c → EReal) (r : Fin n) (q : Fin c) :
    lin M X Wl Wr b (ix2 r q) = linAt M X Wl Wr b r q := rfl

theorem bn_apply (v : Tab n c → Fin c → EReal) (H : Tab n c) (γ β : Fin c → EReal) (r : Fin n) (q : Fin c) :
    bn v H γ β (ix2 r q) = bnAt (H (ix2 r q)) (meanAt H q) (v H q) (γ q) (β q) := rfl

theorem sig_eq_logistic (x : EReal) : sig x = Ideal.logistic x := rfl

end Cert.Sage

end
-- ==== Proof.Net.lean ====
/-
  The whole network as a function of its fifteen argument arrays, over the shapes and dimension records of the
  printed program.

  The neighbourhood mean of a feature table is taken on the host by both programs with the same operations: the
  source and target rows of the edge list are cut out of the 2 x 600000 index array, a negative source index is wrapped
  by adding the row count, the source rows are gathered, added into a zero table at their target rows, and each row
  is multiplied by the reciprocal of its in-degree floored at 1 (the in-degree being ones added into zeros at the
  target rows). These stretches are kept closed here (`srcCol`, `dstCol`, `invDeg`, `agg6`, `agg128`): what matters
  of them is only that both programs apply the same function, and that it keeps real tables real.
  A layer is the linear part of `Spec` on (neighbourhood mean, features); layers 0 and 1 are followed by batch
  normalisation with a cut-off at 0, under a variance arrangement `v` that is the network's one parameter; layer 2
  by the logistic function. `netK` takes the "mean of squares less squared mean" variance, `netR` the "mean of squared
  deviations" one.
-/
import proofs.«101248_j40450001994225_2_alg».proof.KernelIdeal
import proofs.«101248_j40450001994225_2_alg».proof.Proof.Spec

noncomputable section

open scoped BigOperators

namespace Cert.Sage

open Idealize.ShloMosaic Idealize.ShloMosaic.ValueIdx Cert.KernelIdeal

variable [Cert.KernelIdeal.Facts₀]
open Cert.KernelIdeal.Facts₀

/-- The edge list's row of source positions. -/
def srcVec (E : IVec S2x600000 32) : IVec S600000 32 :=
  shapeCast _ (extractStridedSlice S1x600000 ![0, 0] E slices_S2x600000_S1x600000_0_0) shapeCasts_S1x600000_S600000

/-- The edge list's row of target positions. -/
def dstVec (E : IVec S2x600000 32) : IVec S600000 32 :=
  shapeCast _ (extractStridedSlice S1x600000 ![1, 0] E slices_S2x600000_S1x600000_1_0) shapeCasts_S1x600000_S600000

/-- The target positions as a column. -/
def dstCol (E : IVec S2x600000 32) : IVec S600000x1 32 :=
  broadcastInDim S600000x1 ![0] bcast_S600000_S600000x1_0 (dstVec E)

/-- The source positions, a negative one wrapped by the row count, as a column. -/
def srcCol (E : IVec S2x600000 32) : IVec S600000x1 32 :=
  broadcastInDim S600000x1 ![0] bcast_S600000_S600000x1_0
    (select (cmpi .slt (srcVec E) (broadcastInDim S600000 ![] bcast_S_S600000 (constantI S_ 32 0#32)))
      (addi (srcVec E) (broadcastInDim S600000 ![] bcast_S_S600000 (constantI S_ 32 100000#32))) (srcVec E))

/-- The reciprocal of each row's in-degree floored at 1. -/
def invDeg (E : IVec S2x600000 32) : FVec Ideal S100000 .f32 :=
  Host.divf (F := Ideal) (broadcastInDim S100000 ![] bcast_S_S100000 (constant (F := Ideal) S_ .f32 0x3F800000#32))
    (maximumf
      (Host.scatterAdd (F := Ideal) scatter_S100000_S600000x1_S600000_n_0_0_1
        (broadcastInDim S100000 ![] bcast_S_S100000 (constant (F := Ideal) S_ .f32 0x00000000#32)) (dstCol E)
        (broadcastInDim S600000 ![] bcast_S_S600000 (constant (F := Ideal) S_ .f32 0x3F800000#32)))
      (broadcastInDim S100000 ![] bcast_S_S100000 (constant (F := Ideal) S_ .f32 0x3F800000#32)))

/-- The neighbourhood mean of a table of 6 columns. -/
def agg6 (E : IVec S2x600000 32) (X : FVec Ideal S100000x6 .f32) : FVec Ideal S100000x6 .f32 :=
  mulf
    (Host.scatterAdd (F := Ideal) scatter_S100000x6_S600000x1_S600000x6_1_0_0_1
      (broadcastInDim S100000x6 ![] bcast_S_S100000x6 (constant (F := Ideal) S_ .f32 0x00000000#32)) (dstCol E)
      (Host.gather gather_S100000x6_S600000x1_S600000x6_1_0_n_n_0_1_16 X (srcCol E)))
    (broadcastInDim S100000x6 ![0, 1] bcast_S100000x1_S100000x6_0_1
      (broadcastInDim S100000x1 ![0] bcast_S100000_S100000x1_0 (invDeg E)))

/-- The neighbourhood mean of a table of 128 columns. -/
def agg128 (E : IVec S2x600000 32) (X : FVec Ideal S100000x128 .f32) : FVec Ideal S100000x128 .f32 :=
  mulf
    (Host.scatterAdd (F := Ideal) scatter_S100000x128_S600000x1_S600000x128_1_0_0_1
      (broadcastInDim S100000x128 ![] bcast_S_S100000x128 (constant (F := Ideal) S_ .f32 0x00000000#32)) (dstCol E)
      (Host.gather gather_S100000x128_S600000x1_S600000x128_1_0_n_n_0_1_1128 X (srcCol E)))
    (broadcastInDim S100000x128 ![0, 1] bcast_S100000x1_S100000x128_0_1
      (broadcastInDim S100000x1 ![0] bcast_S100000_S100000x1_0 (invDeg E)))

/-- A vector of `c` entries read by its coordinate. -/
def vec {c : ℕ} (b : (⟨1, ![c]⟩ : Shape).Idx → EReal) : Fin c → EReal := fun q => b (ix1 q)

section network

variable (v : Tab 100000 128 → Fin 128 → EReal)
variable (x : FVec Ideal S100000x6 .f32) (E : IVec S2x600000 32)
  (wl0 : FVec Ideal S128x6 .f32) (b0 : FVec Ideal S128 .f32) (wr0 : FVec Ideal S128x6 .f32)
  (g0 be0 : FVec Ideal S128 .f32)
  (wl1 : FVec Ideal S128x128 .f32) (b1 : FVec Ideal S128 .f32) (wr1 : FVec Ideal S128x128 .f32)
  (g1 be1 : FVec Ideal S128 .f32)
  (wl2 : FVec Ideal S1x128 .f32) (b2 : FVec Ideal S1 .f32) (wr2 : FVec Ideal S1x128 .f32)

/-- Layer 0 before normalisation. -/
def lin0 : Tab 100000 128 := lin (agg6 E x) x wl0 wr0 (vec b0)
/-- Layer 0's output. -/
def hid0 : Tab 100000 128 := bn v (lin0 x E wl0 b0 wr0) (vec g0) (vec be0)
/-- Layer 1 before normalisation. -/
def lin1 : Tab 100000 128 :=
  lin (agg128 E (hid0 v x E wl0 b0 wr0 g0 be0)) (hid0 v x E wl0 b0 wr0 g0 be0) wl1 wr1 (vec b1)
/-- Layer 1's output. -/
def hid1 : Tab 100000 128 := bn v (lin1 v x E wl0 b0 wr0 g0 be0 wl1 b1 wr1) (vec g1) (vec be1)
/-- Layer 2 before the logistic function: one column. -/
def lin2 : Tab 100000 1 :=
  lin (agg128 E (hid1 v x E wl0 b0 wr0 g0 be0 wl1 b1 wr1 g1 be1)) (hid1 v x E wl0 b0 wr0 g0 be0 wl1 b1 wr1 g1 be1)
    wl2 wr2 (vec b2)
/-- The network's result: one number per row. -/
def net : FVec Ideal S100000 .f32 :=
  fun i => sig (lin2 v x E wl0 b0 wr0 g0 be0 wl1 b1 wr1 g1 be1 wl2 b2 wr2 (ix2 (i 0) 0))

end network

/-- The network with the variance taken as the mean of squares less the squared mean, cut off at 0. -/
abbrev netK := @net _ varK
/-- The network with the variance taken as the mean of the squared deviations. -/
abbrev netR := @net _ varR

end Cert.Sage

end
-- ==== Proof.RefIndex.lean ====
/-
  Comparing two indices of a table coordinate by coordinate.

  An index of a shape of rank two is a function on the two axes; two such functions agree as soon as they agree on
  axis 0 and on axis 1, and each of those comparisons is between two numbers that compute. The same holds at rank
  one (one axis) and rank zero (no axis at all).
-/
import Mathlib.Data.Fin.Basic

namespace Cert.Sage.Ref

/-- Close an equation between two indices by comparing their coordinates, axis by axis. -/
macro "idx_eq" : tactic =>
  `(tactic|
    (funext a
     refine Fin.ext ?_
     first
       | (match a with | ⟨0, _⟩ => rfl | ⟨1, _⟩ => rfl)
       | (match a with | ⟨0, _⟩ => rfl)
       | exact a.elim0))

end Cert.Sage.Ref
-- ==== Proof.RefLayer0.lean ====
/-
  The reference's first layer, read entry by entry.

  The reference computes layer 0 as a chain of whole-table operations: the neighbourhood mean of the input features,
  two products with transposed weight tables, a bias row spread down the rows, then the batch statistics (column
  sums divided by the row count, the deviations from the column mean squared and summed), the normalisation, scale
  and shift rows spread down the rows, and a cut-off at 0. Each operation is read at row r and column q; what comes
  out is the linear part of the specification followed by its batch normalisation with the variance taken as the
  mean of the squared deviations. The reference adds the bias before the second product and the specification after
  it: sums of extended reals may be regrouped freely, so the two agree without any finiteness.
-/
import proofs.«101248_j40450001994225_2_alg».proof.Proof.Gen.ReferenceIdeal.Read
import proofs.«101248_j40450001994225_2_alg».proof.Proof.Net
import proofs.«101248_j40450001994225_2_alg».proof.Proof.RefIndex

noncomputable section

open scoped BigOperators

namespace Cert.Sage.Ref

open Idealize.ShloMosaic Idealize.ShloMosaic.ValueIdx Cert.ReferenceIdeal Cert.ReferenceIdeal.Read

variable [Cert.KernelIdeal.Facts₀]

variable (x0 : (⟨S100000x6, .f32⟩ : BufTy).Contents (Elt Ideal)) (x1 : (⟨S2x600000, .i32⟩ : BufTy).Contents (Elt Ideal))
  (x2 : (⟨S128x6, .f32⟩ : BufTy).Contents (Elt Ideal)) (x3 : (⟨S128, .f32⟩ : BufTy).Contents (Elt Ideal))
  (x4 : (⟨S128x6, .f32⟩ : BufTy).Contents (Elt Ideal)) (x5 x6 : (⟨S128, .f32⟩ : BufTy).Contents (Elt Ideal))

/-! ## The linear part -/

/-- The reference's neighbourhood mean of the input features is the shared one: the same operations in the same order. -/
theorem agg0_eq : val_main_v24 (F := Ideal) x0 x1 = Cert.Sage.agg6 x1 x0 := rfl

/-- The product of the neighbourhood mean with the first weight table, at row r and column q: the weight table is
    read transposed, so column q of the product pairs row r of the mean with row q of the weights. -/
theorem dotl0_at (r : Fin 100000) (q : Fin 128) :
    val_main_v26 (F := Ideal) x0 x1 x2 (ix2 r q) = ∑ j : Fin 6, Cert.Sage.agg6 x1 x0 (ix2 r j) * x2 (ix2 q j) := by
  rw [val_main_v26_apply]
  refine Finset.sum_congr rfl fun k _ => ?_
  rw [val_main_v25_apply, agg0_eq]
  exact congrArg₂ (· * ·) (congrArg (Cert.Sage.agg6 x1 x0) (by idx_eq)) (congrArg x2 (by idx_eq))

/-- The product of the features with the second weight table, at row r and column q. -/
theorem dotr0_at (r : Fin 100000) (q : Fin 128) :
    val_main_v31 (F := Ideal) x0 x4 (ix2 r q) = ∑ j : Fin 6, x0 (ix2 r j) * x4 (ix2 q j) := by
  rw [val_main_v31_apply]
  refine Finset.sum_congr rfl fun k _ => ?_
  rw [val_main_v30_apply]
  exact congrArg₂ (· * ·) (congrArg x0 (by idx_eq)) (congrArg x4 (by idx_eq))

/-- The bias row spread down the rows reads the bias at the column. -/
theorem bias0_at (r : Fin 100000) (q : Fin 128) : val_main_v28 (F := Ideal) x3 (ix2 r q) = x3 (ix1 q) := by
  rw [val_main_v28_apply, val_main_v27_apply]
  exact congrArg x3 (by idx_eq)

/-- Layer 0 before normalisation is the specification's linear part of (neighbourhood mean, features). -/
theorem lin0_eq : val_main_v32 (F := Ideal) x0 x1 x2 x3 x4 = Cert.Sage.lin0 x0 x1 x2 x3 x4 := by
  funext i
  obtain ⟨r, q, rfl⟩ : ∃ (r : Fin 100000) (q : Fin 128), i = ix2 r q := ⟨i 0, i 1, eq_ix2 i⟩
  rw [val_main_v32_apply, val_main_v29_apply, dotl0_at, dotr0_at, bias0_at]
  simp only [Ideal.addf_def]
  rw [add_right_comm]
  rfl

/-! ## The batch statistics -/

/-- The column sum: the initial value is the zero word, so only the sum down the rows is left. -/
theorem colsum0_at (q : Fin 128) :
    val_main_v33 (F := Ideal) x0 x1 x2 x3 x4 (ix1 q)
      = ∑ k : Fin 100000, val_main_v32 (F := Ideal) x0 x1 x2 x3 x4 (ix2 k q) := by
  rw [val_main_v33_apply, val_main_cst_5_apply, Ideal.ofBits_def, Ideal.ofBits_zero_f32, zero_add]
  exact Finset.sum_congr rfl fun k _ => congrArg _ (by idx_eq)

/-- The column mean. -/
theorem mean0_at (q : Fin 128) :
    val_main_v35 (F := Ideal) x0 x1 x2 x3 x4 (ix1 q)
      = Cert.Sage.meanAt (n := 100000) (c := 128) (val_main_v32 (F := Ideal) x0 x1 x2 x3 x4) q := by
  rw [val_main_v35_apply, val_main_v34_apply, val_main_cst_6_apply, colsum0_at]
  rfl

/-- The mean row spread down the rows (the copy the deviations for the variance are taken from). -/
theorem meanrow0_at (r : Fin 100000) (q : Fin 128) :
    val_main_v37 (F := Ideal) x0 x1 x2 x3 x4 (ix2 r q) = val_main_v35 (F := Ideal) x0 x1 x2 x3 x4 (ix1 q) := by
  rw [val_main_v37_apply, val_main_v36_apply]
  exact congrArg _ (by idx_eq)

/-- The mean row spread down the rows (the copy the normalised entry is centred by). -/
theorem meanrow0'_at (r : Fin 100000) (q : Fin 128) :
    val_main_v44 (F := Ideal) x0 x1 x2 x3 x4 (ix2 r q) = val_main_v35 (F := Ideal) x0 x1 x2 x3 x4 (ix1 q) := by
  rw [val_main_v44_apply, val_main_v43_apply]
  exact congrArg _ (by idx_eq)

/-- The sum of the squared deviations from the column mean. -/
theorem sqsum0_at (q : Fin 128) :
    val_main_v40 (F := Ideal) x0 x1 x2 x3 x4 (ix1 q)
      = ∑ k : Fin 100000,
          (val_main_v32 (F := Ideal) x0 x1 x2 x3 x4 (ix2 k q)
              - Cert.Sage.meanAt (n := 100000) (c := 128) (val_main_v32 (F := Ideal) x0 x1 x2 x3 x4) q)
            * (val_main_v32 (F := Ideal) x0 x1 x2 x3 x4 (ix2 k q)
              - Cert.Sage.meanAt (n := 100000) (c := 128) (val_main_v32 (F := Ideal) x0 x1 x2 x3 x4) q) := by
  rw [val_main_v40_apply, val_main_cst_7_apply, Ideal.ofBits_def, Ideal.ofBits_zero_f32, zero_add]
  refine Finset.sum_congr rfl fun k _ => ?_
  rw [show idx_main_v40 (ix1 q) k = ix2 k q from by idx_eq, val_main_v39_apply, val_main_v38_apply, meanrow0_at,
    mean0_at]
  rfl

/-- The variance as the mean of the squared deviations. -/
theorem var0_at (q : Fin 128) :
    val_main_v42 (F := Ideal) x0 x1 x2 x3 x4 (ix1 q)
      = Cert.Sage.varR (n := 100000) (c := 128) (val_main_v32 (F := Ideal) x0 x1 x2 x3 x4) q := by
  rw [val_main_v42_apply, val_main_v41_apply, val_main_cst_8_apply, sqsum0_at]
  rfl

/-- The reciprocal square root of the stabilised variance. -/
theorem rsq0_at (q : Fin 128) :
    val_main_v48 (F := Ideal) x0 x1 x2 x3 x4 (ix1 q)
      = Ideal.rsqrt (Cert.Sage.varR (n := 100000) (c := 128) (val_main_v32 (F := Ideal) x0 x1 x2 x3 x4) q
          + Cert.Sage.stab) := by
  rw [val_main_v48_apply, val_main_v47_apply, val_main_v46_apply, val_main_cst_9_apply, var0_at]
  rfl

/-- That row spread down the rows. -/
theorem rsqrow0_at (r : Fin 100000) (q : Fin 128) :
    val_main_v50 (F := Ideal) x0 x1 x2 x3 x4 (ix2 r q) = val_main_v48 (F := Ideal) x0 x1 x2 x3 x4 (ix1 q) := by
  rw [val_main_v50_apply, val_main_v49_apply]
  exact congrArg _ (by idx_eq)

/-- The scale row spread down the rows. -/
theorem scale0_at (r : Fin 100000) (q : Fin 128) : val_main_v53 (F := Ideal) x5 (ix2 r q) = x5 (ix1 q) := by
  rw [val_main_v53_apply, val_main_v52_apply]
  exact congrArg x5 (by idx_eq)

/-- The shift row spread down the rows. -/
theorem shift0_at (r : Fin 100000) (q : Fin 128) : val_main_v56 (F := Ideal) x6 (ix2 r q) = x6 (ix1 q) := by
  rw [val_main_v56_apply, val_main_v55_apply]
  exact congrArg x6 (by idx_eq)

/-- The table the cut-off compares with is zero everywhere. -/
theorem floor0_at (i : S100000x128.Idx) : val_main_call0_v0 (F := Ideal) i = 0 := by
  rw [val_main_call0_v0_apply, val_main_call0_cst_apply, Ideal.ofBits_def, Ideal.ofBits_zero_f32]

/-- Layer 0's output is the specification's: batch normalisation of the linear part, the variance taken as the mean
    of the squared deviations, cut off at 0. -/
theorem hid0_eq :
    val_main_v58 (F := Ideal) x0 x1 x2 x3 x4 x5 x6 = Cert.Sage.hid0 Cert.Sage.varR x0 x1 x2 x3 x4 x5 x6 := by
  funext i
  obtain ⟨r, q, rfl⟩ : ∃ (r : Fin 100000) (q : Fin 128), i = ix2 r q := ⟨i 0, i 1, eq_ix2 i⟩
  rw [val_main_v58_apply, floor0_at, val_main_v57_apply, shift0_at, val_main_v54_apply, scale0_at, val_main_v51_apply,
    rsqrow0_at, rsq0_at, val_main_v45_apply, meanrow0'_at, mean0_at, lin0_eq]
  rfl

end Cert.Sage.Ref

end
-- ==== Proof.RefLayer1.lean ====
/-
  The reference's second layer, read entry by entry.

  The same chain of whole-table operations as in the first layer, now on the first layer's output: its neighbourhood
  mean, two products with transposed 128 x 128 weight tables, the bias row, the batch statistics, the normalisation,
  scale, shift and the cut-off at 0. Read at row r and column q it is the specification's linear part of
  (neighbourhood mean of the first layer's output, that output) followed by the batch normalisation with the variance
  taken as the mean of the squared deviations.
-/
import proofs.«101248_j40450001994225_2_alg».proof.Proof.Gen.ReferenceIdeal.Read
import proofs.«101248_j40450001994225_2_alg».proof.Proof.Net
import proofs.«101248_j40450001994225_2_alg».proof.Proof.RefIndex
import proofs.«101248_j40450001994225_2_alg».proof.Proof.RefLayer0

noncomputable section

open scoped BigOperators

namespace Cert.Sage.Ref

open Idealize.ShloMosaic Idealize.ShloMosaic.ValueIdx Cert.ReferenceIdeal Cert.ReferenceIdeal.Read

variable [Cert.KernelIdeal.Facts₀]

variable (x0 : (⟨S100000x6, .f32⟩ : BufTy).Contents (Elt Ideal)) (x1 : (⟨S2x600000, .i32⟩ : BufTy).Contents (Elt Ideal))
  (x2 : (⟨S128x6, .f32⟩ : BufTy).Contents (Elt Ideal)) (x3 : (⟨S128, .f32⟩ : BufTy).Contents (Elt Ideal))
  (x4 : (⟨S128x6, .f32⟩ : BufTy).Contents (Elt Ideal)) (x5 x6 : (⟨S128, .f32⟩ : BufTy).Contents (Elt Ideal))
  (x7 : (⟨S128x128, .f32⟩ : BufTy).Contents (Elt Ideal)) (x8 : (⟨S128, .f32⟩ : BufTy).Contents (Elt Ideal))
  (x9 : (⟨S128x128, .f32⟩ : BufTy).Contents (Elt Ideal)) (x10 x11 : (⟨S128, .f32⟩ : BufTy).Contents (Elt Ideal))

/-! ## The linear part -/

/-- The reference's neighbourhood mean of the first layer's output is the shared one. -/
theorem agg1_eq :
    val_main_v71 (F := Ideal) x0 x1 x2 x3 x4 x5 x6
      = Cert.Sage.agg128 x1 (val_main_v58 (F := Ideal) x0 x1 x2 x3 x4 x5 x6) := rfl

/-- The product of the neighbourhood mean with the first weight table, read transposed, at row r and column q. -/
theorem dotl1_at (r : Fin 100000) (q : Fin 128) :
    val_main_v73 (F := Ideal) x0 x1 x2 x3 x4 x5 x6 x7 (ix2 r q)
      = ∑ j : Fin 128,
          Cert.Sage.agg128 x1 (val_main_v58 (F := Ideal) x0 x1 x2 x3 x4 x5 x6) (ix2 r j) * x7 (ix2 q j) := by
  rw [val_main_v73_apply]
  refine Finset.sum_congr rfl fun k _ => ?_
  rw [val_main_v72_apply, agg1_eq]
  exact congrArg₂ (· * ·)
    (congrArg (Cert.Sage.agg128 x1 (val_main_v58 (F := Ideal) x0 x1 x2 x3 x4 x5 x6)) (by idx_eq))
    (congrArg x7 (by idx_eq))

/-- The product of the first layer's output with the second weight table, at row r and column q. -/
theorem dotr1_at (r : Fin 100000) (q : Fin 128) :
    val_main_v78 (F := Ideal) x0 x1 x2 x3 x4 x5 x6 x9 (ix2 r q)
      = ∑ j : Fin 128, val_main_v58 (F := Ideal) x0 x1 x2 x3 x4 x5 x6 (ix2 r j) * x9 (ix2 q j) := by
  rw [val_main_v78_apply]
  refine Finset.sum_congr rfl fun k _ => ?_
  rw [val_main_v77_apply]
  exact congrArg₂ (· * ·) (congrArg (val_main_v58 (F := Ideal) x0 x1 x2 x3 x4 x5 x6) (by idx_eq))
    (congrArg x9 (by idx_eq))

/-- The bias row spread down the rows reads the bias at the column. -/
theorem bias1_at (r : Fin 100000) (q : Fin 128) : val_main_v75 (F := Ideal) x8 (ix2 r q) = x8 (ix1 q) := by
  rw [val_main_v75_apply, val_main_v74_apply]
  exact congrArg x8 (by idx_eq)

/-- Layer 1 before normalisation is the specification's linear part. -/
theorem lin1_eq :
    val_main_v79 (F := Ideal) x0 x1 x2 x3 x4 x5 x6 x7 x8 x9
      = Cert.Sage.lin1 Cert.Sage.varR x0 x1 x2 x3 x4 x5 x6 x7 x8 x9 := by
  funext i
  obtain ⟨r, q, rfl⟩ : ∃ (r : Fin 100000) (q : Fin 128), i = ix2 r q := ⟨i 0, i 1, eq_ix2 i⟩
  rw [val_main_v79_apply, val_main_v76_apply, dotl1_at, dotr1_at, bias1_at, hid0_eq]
  simp only [Ideal.addf_def]
  rw [add_right_comm]
  rfl

/-! ## The batch statistics -/

/-- The column sum. -/
theorem colsum1_at (q : Fin 128) :
    val_main_v80 (F := Ideal) x0 x1 x2 x3 x4 x5 x6 x7 x8 x9 (ix1 q)
      = ∑ k : Fin 100000, val_main_v79 (F := Ideal) x0 x1 x2 x3 x4 x5 x6 x7 x8 x9 (ix2 k q) := by
  rw [val_main_v80_apply, val_main_cst_13_apply, Ideal.ofBits_def, Ideal.ofBits_zero_f32, zero_add]
  exact Finset.sum_congr rfl fun k _ => congrArg _ (by idx_eq)

/-- The column mean. -/
theorem mean1_at (q : Fin 128) :
    val_main_v82 (F := Ideal) x0 x1 x2 x3 x4 x5 x6 x7 x8 x9 (ix1 q)
      = Cert.Sage.meanAt (n := 100000) (c := 128) (val_main_v79 (F := Ideal) x0 x1 x2 x3 x4 x5 x6 x7 x8 x9) q := by
  rw [val_main_v82_apply, val_main_v81_apply, val_main_cst_14_apply, colsum1_at]
  rfl

/-- The mean row spread down the rows (the copy the deviations for the variance are taken from). -/
theorem meanrow1_at (r : Fin 100000) (q : Fin 128) :
    val_main_v84 (F := Ideal) x0 x1 x2 x3 x4 x5 x6 x7 x8 x9 (ix2 r q)
      = val_main_v82 (F := Ideal) x0 x1 x2 x3 x4 x5 x6 x7 x8 x9 (ix1 q) := by
  rw [val_main_v84_apply, val_main_v83_apply]
  exact congrArg _ (by idx_eq)

/-- The mean row spread down the rows (the copy the normalised entry is centred by). -/
theorem meanrow1'_at (r : Fin 100000) (q : Fin 128) :
    val_main_v91 (F := Ideal) x0 x1 x2 x3 x4 x5 x6 x7 x8 x9 (ix2 r q)
      = val_main_v82 (F := Ideal) x0 x1 x2 x3 x4 x5 x6 x7 x8 x9 (ix1 q) := by
  rw [val_main_v91_apply, val_main_v90_apply]
  exact congrArg _ (by idx_eq)

/-- The sum of the squared deviations from the column mean. -/
theorem sqsum1_at (q : Fin 128) :
    val_main_v87 (F := Ideal) x0 x1 x2 x3 x4 x5 x6 x7 x8 x9 (ix1 q)
      = ∑ k : Fin 100000,
          (val_main_v79 (F := Ideal) x0 x1 x2 x3 x4 x5 x6 x7 x8 x9 (ix2 k q)
              - Cert.Sage.meanAt (n := 100000) (c := 128) (val_main_v79 (F := Ideal) x0 x1 x2 x3 x4 x5 x6 x7 x8 x9) q)
            * (val_main_v79 (F := Ideal) x0 x1 x2 x3 x4 x5 x6 x7 x8 x9 (ix2 k q)
              - Cert.Sage.meanAt (n := 100000) (c := 128) (val_main_v79 (F := Ideal) x0 x1 x2 x3 x4 x5 x6 x7 x8 x9) q) := by
  rw [val_main_v87_apply, val_main_cst_15_apply, Ideal.ofBits_def, Ideal.ofBits_zero_f32, zero_add]
  refine Finset.sum_congr rfl fun k _ => ?_
  rw [show idx_main_v87 (ix1 q) k = ix2 k q from by idx_eq, val_main_v86_apply, val_main_v85_apply, meanrow1_at,
    mean1_at]
  rfl

/-- The variance as the mean of the squared deviations. -/
theorem var1_at (q : Fin 128) :
    val_main_v89 (F := Ideal) x0 x1 x2 x3 x4 x5 x6 x7 x8 x9 (ix1 q)
      = Cert.Sage.varR (n := 100000) (c := 128) (val_main_v79 (F := Ideal) x0 x1 x2 x3 x4 x5 x6 x7 x8 x9) q := by
  rw [val_main_v89_apply, val_main_v88_apply, val_main_cst_16_apply, sqsum1_at]
  rfl

/-- The reciprocal square root of the stabilised variance. -/
theorem rsq1_at (q : Fin 128) :
    val_main_v95 (F := Ideal) x0 x1 x2 x3 x4 x5 x6 x7 x8 x9 (ix1 q)
      = Ideal.rsqrt
          (Cert.Sage.varR (n := 100000) (c := 128) (val_main_v79 (F := Ideal) x0 x1 x2 x3 x4 x5 x6 x7 x8 x9) q
            + Cert.Sage.stab) := by
  rw [val_main_v95_apply, val_main_v94_apply, val_main_v93_apply, val_main_cst_17_apply, var1_at]
  rfl

/-- That row spread down the rows. -/
theorem rsqrow1_at (r : Fin 100000) (q : Fin 128) :
    val_main_v97 (F := Ideal) x0 x1 x2 x3 x4 x5 x6 x7 x8 x9 (ix2 r q)
      = val_main_v95 (F := Ideal) x0 x1 x2 x3 x4 x5 x6 x7 x8 x9 (ix1 q) := by
  rw [val_main_v97_apply, val_main_v96_apply]
  exact congrArg _ (by idx_eq)

/-- The scale row spread down the rows. -/
theorem scale1_at (r : Fin 100000) (q : Fin 128) : val_main_v100 (F := Ideal) x10 (ix2 r q) = x10 (ix1 q) := by
  rw [val_main_v100_apply, val_main_v99_apply]
  exact congrArg x10 (by idx_eq)

/-- The shift row spread down the rows. -/
theorem shift1_at (r : Fin 100000) (q : Fin 128) : val_main_v103 (F := Ideal) x11 (ix2 r q) = x11 (ix1 q) := by
  rw [val_main_v103_apply, val_main_v102_apply]
  exact congrArg x11 (by idx_eq)

/-- The table the cut-off compares with is zero everywhere. -/
theorem floor1_at (i : S100000x128.Idx) : val_main_call1_v0 (F := Ideal) i = 0 := by
  rw [val_main_call1_v0_apply, val_main_call1_cst_apply, Ideal.ofBits_def, Ideal.ofBits_zero_f32]

/-- Layer 1's output is the specification's. -/
theorem hid1_eq :
    val_main_v105 (F := Ideal) x0 x1 x2 x3 x4 x5 x6 x7 x8 x9 x10 x11
      = Cert.Sage.hid1 Cert.Sage.varR x0 x1 x2 x3 x4 x5 x6 x7 x8 x9 x10 x11 := by
  funext i
  obtain ⟨r, q, rfl⟩ : ∃ (r : Fin 100000) (q : Fin 128), i = ix2 r q := ⟨i 0, i 1, eq_ix2 i⟩
  rw [val_main_v105_apply, floor1_at, val_main_v104_apply, shift1_at, val_main_v101_apply, scale1_at,
    val_main_v98_apply, rsqrow1_at, rsq1_at, val_main_v92_apply, meanrow1'_at, mean1_at, lin1_eq]
  rfl

end Cert.Sage.Ref

end
-- ==== Proof.RefValue.lean ====
/-
  The reference's last layer and its result.

  The last layer has one output column: the neighbourhood mean of the second layer's output and that output are each
  multiplied with a one-row weight table read transposed, the one bias is added, and the logistic function
  1 / (1 + e^(-x)) is applied; the column is then laid out as a vector, one number per row. Read at row r this is
  the specification's network with the variance of both batch normalisations taken as the mean of the squared
  deviations. The word the reference writes for 1 denotes the extended real 1.
-/
import proofs.«101248_j40450001994225_2_alg».proof.Proof.Gen.ReferenceIdeal.Read
import proofs.«101248_j40450001994225_2_alg».proof.Proof.Net
import Idealize.ShloMosaic.Lib.IdealHost
import proofs.«101248_j40450001994225_2_alg».proof.Proof.RefIndex
import proofs.«101248_j40450001994225_2_alg».proof.Proof.RefLayer1

noncomputable section

open scoped BigOperators

namespace Cert.Sage.Ref

open Cert.ReferenceIdeal Cert.ReferenceIdeal.Gen Idealize.ShloMosaic Idealize.ShloMosaic.TcCoe Idealize.SL.Sem
  Idealize.ShloMosaic.StableHlo Idealize.ShloMosaic.ValueIdx Cert.ReferenceIdeal.Read

variable [Cert.KernelIdeal.Facts₀]

variable (x0 : (⟨S100000x6, .f32⟩ : BufTy).Contents (Elt Ideal)) (x1 : (⟨S2x600000, .i32⟩ : BufTy).Contents (Elt Ideal))
  (x2 : (⟨S128x6, .f32⟩ : BufTy).Contents (Elt Ideal)) (x3 : (⟨S128, .f32⟩ : BufTy).Contents (Elt Ideal))
  (x4 : (⟨S128x6, .f32⟩ : BufTy).Contents (Elt Ideal)) (x5 x6 : (⟨S128, .f32⟩ : BufTy).Contents (Elt Ideal))
  (x7 : (⟨S128x128, .f32⟩ : BufTy).Contents (Elt Ideal)) (x8 : (⟨S128, .f32⟩ : BufTy).Contents (Elt Ideal))
  (x9 : (⟨S128x128, .f32⟩ : BufTy).Contents (Elt Ideal)) (x10 x11 : (⟨S128, .f32⟩ : BufTy).Contents (Elt Ideal))
  (x12 : (⟨S1x128, .f32⟩ : BufTy).Contents (Elt Ideal)) (x13 : (⟨S1, .f32⟩ : BufTy).Contents (Elt Ideal))
  (x14 : (⟨S1x128, .f32⟩ : BufTy).Contents (Elt Ideal))

/-! ## The linear part, at the one column -/

/-- The reference's neighbourhood mean of the second layer's output is the shared one. -/
theorem agg2_eq :
    val_main_v118 (F := Ideal) x0 x1 x2 x3 x4 x5 x6 x7 x8 x9 x10 x11
      = Cert.Sage.agg128 x1 (val_main_v105 (F := Ideal) x0 x1 x2 x3 x4 x5 x6 x7 x8 x9 x10 x11) := rfl

/-- The product of the neighbourhood mean with the first weight row, at row r. -/
theorem dotl2_at (r : Fin 100000) :
    val_main_v120 (F := Ideal) x0 x1 x2 x3 x4 x5 x6 x7 x8 x9 x10 x11 x12 (ix2 r (0 : Fin 1))
      = ∑ j : Fin 128,
          Cert.Sage.agg128 x1 (val_main_v105 (F := Ideal) x0 x1 x2 x3 x4 x5 x6 x7 x8 x9 x10 x11) (ix2 r j)
            * x12 (ix2 (0 : Fin 1) j) := by
  rw [val_main_v120_apply]
  refine Finset.sum_congr rfl fun k _ => ?_
  rw [val_main_v119_apply, agg2_eq]
  exact congrArg₂ (· * ·)
    (congrArg (Cert.Sage.agg128 x1 (val_main_v105 (F := Ideal) x0 x1 x2 x3 x4 x5 x6 x7 x8 x9 x10 x11)) (by idx_eq))
    (congrArg x12 (by idx_eq))

/-- The product of the second layer's output with the second weight row, at row r. -/
theorem dotr2_at (r : Fin 100000) :
    val_main_v125 (F := Ideal) x0 x1 x2 x3 x4 x5 x6 x7 x8 x9 x10 x11 x14 (ix2 r (0 : Fin 1))
      = ∑ j : Fin 128,
          val_main_v105 (F := Ideal) x0 x1 x2 x3 x4 x5 x6 x7 x8 x9 x10 x11 (ix2 r j) * x14 (ix2 (0 : Fin 1) j) := by
  rw [val_main_v125_apply]
  refine Finset.sum_congr rfl fun k _ => ?_
  rw [val_main_v124_apply]
  exact congrArg₂ (· * ·)
    (congrArg (val_main_v105 (F := Ideal) x0 x1 x2 x3 x4 x5 x6 x7 x8 x9 x10 x11) (by idx_eq))
    (congrArg x14 (by idx_eq))

/-- The one bias spread down the rows. -/
theorem bias2_at (r : Fin 100000) :
    val_main_v122 (F := Ideal) x13 (ix2 r (0 : Fin 1)) = x13 (ix1 (0 : Fin 1)) := by
  rw [val_main_v122_apply, val_main_v121_apply]
  exact congrArg x13 (by idx_eq)

/-- Layer 2 before the logistic function, at row r, is the specification's linear part there. -/
theorem lin2_at (r : Fin 100000) :
    val_main_v126 (F := Ideal) x0 x1 x2 x3 x4 x5 x6 x7 x8 x9 x10 x11 x12 x13 x14 (ix2 r (0 : Fin 1))
      = Cert.Sage.lin2 Cert.Sage.varR x0 x1 x2 x3 x4 x5 x6 x7 x8 x9 x10 x11 x12 x13 x14 (ix2 r (0 : Fin 1)) := by
  rw [val_main_v126_apply, val_main_v123_apply, dotl2_at, dotr2_at, bias2_at, hid1_eq]
  simp only [Ideal.addf_def]
  rw [add_right_comm]
  rfl

/-! ## The result -/

/-- Laying the one column out as a vector reads row r of the column at position r. -/
theorem column_index (r : Fin 100000) : idx_main_v133 (ix1 r) = ix2 r (0 : Fin 1) := by
  funext a
  refine Fin.ext ?_
  match a with
  | ⟨0, _⟩ => exact Nat.div_one _
  | ⟨1, _⟩ => rfl

/-- The reference's result as a function of its fifteen arguments is the specification's network with the variance
    taken as the mean of the squared deviations. -/
theorem net_eq :
    val_main_v133 (F := Ideal) x0 x1 x2 x3 x4 x5 x6 x7 x8 x9 x10 x11 x12 x13 x14
      = Cert.Sage.netR x0 x1 x2 x3 x4 x5 x6 x7 x8 x9 x10 x11 x12 x13 x14 := by
  funext i
  obtain ⟨r, rfl⟩ : ∃ r : Fin 100000, i = ix1 r := ⟨i 0, eq_ix1 i⟩
  rw [val_main_v133_apply, val_main_v132_apply, val_main_v131_apply, val_main_cst_22_apply, val_main_v130_apply,
    val_main_v129_apply, val_main_cst_21_apply, val_main_v128_apply, val_main_v127_apply, column_index, lin2_at,
    Ideal.ofBits_def, Ideal.ofBits_one_f32]
  simp only [Ideal.hostDivf_def, Ideal.addf_def, Ideal.hostUnary_exp_def, Ideal.hostNegf_def, Ideal.negf_def]
  rfl

/-- The reference's run ends with the specification's network of the argument arrays in its result. -/
theorem res_out0_eq (m : (ℓ : Loc nD τ Cert.ReferenceIdeal.sig) → Buf (Elt Ideal) ℓ) (c : Dev nD) :
    Cert.ReferenceIdeal.Value.res_out0 (F := Ideal) m c
      = Cert.Sage.netR (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13))
          (m ((c.tc : Thread nD τ).loc main_arg14)) := by
  show Cert.ReferenceIdeal.Value.res_main_v133 m c = _
  rw [val_main_v133_eq]
  exact net_eq _ _ _ _ _ _ _ _ _ _ _ _ _ _ _

end Cert.Sage.Ref

end
-- ==== Proof.Reals.lean ====
/-
  Extended reals that are real numbers: the predicate the batch statistics need, and what keeps it.
-/
import Idealize.ShloMosaic.PureOps.Ideal

noncomputable section

namespace Cert.Sage

open Idealize.ShloMosaic
open scoped BigOperators

/-- An extended real is a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

theorem isReal_iff {x : EReal} : IsReal x ↔ x ≠ ⊥ ∧ x ≠ ⊤ := by
  constructor
  · intro h; exact ⟨h.ne_bot, h.ne_top⟩
  · rintro ⟨hb, ht⟩
    induction x with
    | bot => exact absurd rfl hb
    | top => exact absurd rfl ht
    | coe r => exact ⟨r, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.neg {x : EReal} (hx : IsReal x) : IsReal (-x) := by
  obtain ⟨a, rfl⟩ := hx
  exact ⟨-a, (EReal.coe_neg a).symm⟩

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

theorem IsReal.max_zero {x : EReal} (hx : IsReal x) : IsReal (Max.max x 0) := hx.max isReal_zero

/-- A finite sum of real numbers is a real number. -/
theorem isReal_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of a real by a nonzero real is a real. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := by rintro rfl; exact h0 rfl
  rw [Ideal.div_coe hb]
  exact (isReal_coe a).mul (isReal_coe _)

/-- The quotient of reals, named. -/
theorem div_coe_coe (a : ℝ) {b : ℝ} (hb : b ≠ 0) : Ideal.div (a : EReal) (b : EReal) = ((a / b : ℝ) : EReal) := by
  rw [Ideal.div_coe hb, ← EReal.coe_mul, mul_one_div]

/-- The reciprocal square root of a positive real is a real. -/
theorem rsqrt_coe_pos {r : ℝ} (h : 0 < r) : Ideal.rsqrt (r : EReal) = (((Real.sqrt r)⁻¹ : ℝ) : EReal) := by
  rw [Ideal.rsqrt_coe, if_neg (not_lt.mpr h.le), if_neg h.ne']

theorem isReal_rsqrt {x : EReal} (hx : IsReal x) (h : 0 < x) : IsReal (Ideal.rsqrt x) := by
  obtain ⟨r, rfl⟩ := hx
  have hr : 0 < r := by exact_mod_cast h
  rw [rsqrt_coe_pos hr]; exact isReal_coe _

theorem IsReal.exp {x : EReal} (hx : IsReal x) : IsReal (Ideal.exp x) := by
  obtain ⟨r, rfl⟩ := hx
  exact ⟨Real.exp r, rfl⟩

theorem IsReal.logistic {x : EReal} (hx : IsReal x) : IsReal (Ideal.logistic x) := by
  obtain ⟨r, rfl⟩ := hx
  rw [Ideal.logistic_coe]; exact isReal_coe _

end Cert.Sage

end
-- ==== Proof.Consts.lean ====
/-
  The float constants of the batch norm, as the extended reals their patterns denote: the row count 100000, the
  variance offset (a positive real), one, zero and +∞.
-/
import Idealize.ShloMosaic.PureOps.Ideal
import proofs.«101248_j40450001994225_2_alg».proof.Proof.Reals

noncomputable section

namespace Cert.Sage

open Idealize.ShloMosaic

/-- The pattern of `+0.0` denotes `0`. -/
theorem ofBits_zero : Ideal.ofBits .f32 0x00000000#32 = 0 := by
  simp [Ideal.ofBits, Ideal.ieee]

/-- The pattern of `1.0` denotes `1`. -/
theorem ofBits_one : Ideal.ofBits .f32 0x3F800000#32 = 1 := by
  simp [Ideal.ofBits, Ideal.ieee, -EReal.coe_mul]; norm_num

/-- The pattern of `100000.0` denotes the real `100000`. -/
theorem ofBits_rows : Ideal.ofBits .f32 0x47C35000#32 = ((100000 : ℝ) : EReal) := by
  simp [Ideal.ofBits, Ideal.ieee, -EReal.coe_mul]; norm_num

/-- The variance offset: the real the pattern `0x3727C5AC` denotes (about `1e-5`). -/
def eps : ℝ := 10995116 * (2 : ℝ) ^ (-40 : ℤ)

theorem eps_pos : 0 < eps := by unfold eps; positivity

/-- The pattern `0x3727C5AC` denotes the positive real `eps`. -/
theorem ofBits_eps : Ideal.ofBits .f32 0x3727C5AC#32 = ((eps : ℝ) : EReal) := by
  unfold eps
  simp [Ideal.ofBits, Ideal.ieee, -EReal.coe_mul]

/-- The pattern of `+∞` denotes `⊤`. -/
theorem ofBits_inf : Ideal.ofBits .f32 0x7F800000#32 = ⊤ := by
  simp [Ideal.ofBits, Ideal.ieee]

theorem isReal_ofBits_zero : IsReal (Ideal.ofBits .f32 0x00000000#32) := by rw [ofBits_zero]; exact isReal_zero
theorem isReal_ofBits_one : IsReal (Ideal.ofBits .f32 0x3F800000#32) := by rw [ofBits_one]; exact isReal_one
theorem isReal_ofBits_rows : IsReal (Ideal.ofBits .f32 0x47C35000#32) := by rw [ofBits_rows]; exact isReal_coe _
theorem isReal_ofBits_eps : IsReal (Ideal.ofBits .f32 0x3727C5AC#32) := by rw [ofBits_eps]; exact isReal_coe _

end Cert.Sage

end
-- ==== Proof.BatchStats.lean ====
/-
  The two arrangements of a batch variance are one number on real data.

  For real numbers h_i, i in a finite index set of N elements, with mean m = (Σ h_i) / N:
      Σ (h_i - m)² = Σ h_i² - 2 m Σ h_i + N m² = Σ h_i² - (Σ h_i)² / N,
  so the mean of the squared deviations is the mean of squares less the squared mean; being a mean of squares it is
  not negative, so cutting it off below at 0 changes nothing. Over the extended reals the statement is the same
  once every h_i is a real number: all the sums, quotients and products are then coercions of the real ones.
-/
import proofs.«101248_j40450001994225_2_alg».proof.Proof.Reals

noncomputable section

namespace Cert.Sage

open Idealize.ShloMosaic
open scoped BigOperators

/-- The sum of squared deviations from the mean, expanded. -/
theorem sum_sq_dev {ι : Type*} [Fintype ι] (f : ι → ℝ) (N : ℝ) (hN : N ≠ 0) (hcard : (Fintype.card ι : ℝ) = N) :
    (∑ i, (f i - (∑ i, f i) / N) * (f i - (∑ i, f i) / N)) / N
      = (∑ i, f i * f i) / N - (∑ i, f i) / N * ((∑ i, f i) / N) := by
  set S := ∑ i, f i with hS
  set m := S / N with hm
  have h1 : ∑ i, (f i - m) * (f i - m) = (∑ i, f i * f i) - 2 * m * S + N * (m * m) := by
    have : ∀ i, (f i - m) * (f i - m) = f i * f i - 2 * m * f i + m * m := fun i => by ring
    simp only [this]
    rw [Finset.sum_add_distrib, Finset.sum_sub_distrib, ← Finset.mul_sum, Finset.sum_const, Finset.card_univ,
      nsmul_eq_mul, hcard]
  rw [h1, hm]
  field_simp
  ring

/-- The mean of squared deviations is not negative. -/
theorem sum_sq_dev_nonneg {ι : Type*} [Fintype ι] (f : ι → ℝ) (m N : ℝ) (hN : 0 < N) :
    0 ≤ (∑ i, (f i - m) * (f i - m)) / N :=
  div_nonneg (Finset.sum_nonneg fun i _ => mul_self_nonneg _) hN.le

/-- The variance identity over the reals: the cut-off mean of squares less the squared mean is the mean of the squared
    deviations, for an index set of `N` elements. -/
theorem real_var_identity {ι : Type*} [Fintype ι] (f : ι → ℝ) (N : ℝ) (hN : N ≠ 0) (hcard : (Fintype.card ι : ℝ) = N) :
    max ((∑ i, f i * f i) / N - (∑ i, f i) / N * ((∑ i, f i) / N)) 0
      = (∑ i, (f i - (∑ i, f i) / N) * (f i - (∑ i, f i) / N)) / N := by
  have hpos : 0 < N := by
    rcases lt_or_gt_of_ne hN with h | h
    · exact absurd (hcard ▸ (Nat.cast_nonneg _ : (0 : ℝ) ≤ (Fintype.card ι : ℝ))) (not_le.mpr h)
    · exact h
  rw [← sum_sq_dev f N hN hcard]
  exact max_eq_left (sum_sq_dev_nonneg f _ N hpos)

/-- The variance identity over the extended reals, on real data: for `h` real at every index of a finite set of `N`
    elements (`N` a real number, not zero). -/
theorem var_identity {ι : Type*} [Fintype ι] (h : ι → EReal) (hh : ∀ i, IsReal (h i)) (N : ℝ) (hN : N ≠ 0)
    (hcard : (Fintype.card ι : ℝ) = N) :
    max (Ideal.div (∑ i, h i * h i) (N : EReal)
          - Ideal.div (∑ i, h i) (N : EReal) * Ideal.div (∑ i, h i) (N : EReal)) 0
      = Ideal.div (∑ i, (h i - Ideal.div (∑ i, h i) (N : EReal)) * (h i - Ideal.div (∑ i, h i) (N : EReal)))
          (N : EReal) := by
  choose f hf using hh
  obtain rfl : h = fun i => (f i : EReal) := funext hf
  simp only [← EReal.coe_mul, ← coe_sum, div_coe_coe _ hN, ← EReal.coe_sub]
  rw [← real_var_identity f N hN hcard]
  rcases max_choice ((∑ i, f i * f i) / N - (∑ i, f i) / N * ((∑ i, f i) / N)) 0 with hm | hm
  · rw [hm]; exact max_eq_left (by exact_mod_cast (hm ▸ le_max_right _ _ : (0 : ℝ) ≤ _))
  · rw [hm]; exact max_eq_right (by exact_mod_cast (hm ▸ le_max_left _ _ : _ ≤ (0 : ℝ)))

/-- The mean of a real family over a nonzero real count is real. -/
theorem isReal_mean {ι : Type*} [Fintype ι] (h : ι → EReal) (hh : ∀ i, IsReal (h i)) (N : ℝ) (hN : N ≠ 0) :
    IsReal (Ideal.div (∑ i, h i) (N : EReal)) :=
  (isReal_sum _ _ fun i _ => hh i).div (isReal_coe N) (by exact_mod_cast hN)

/-- The mean of squared deviations of a real family is a real that is not negative. -/
theorem varR_real_nonneg {ι : Type*} [Fintype ι] (h : ι → EReal) (hh : ∀ i, IsReal (h i)) (m : EReal) (hm : IsReal m)
    (N : ℝ) (hN : 0 < N) :
    ∃ v : ℝ, 0 ≤ v ∧ Ideal.div (∑ i, (h i - m) * (h i - m)) (N : EReal) = (v : EReal) := by
  choose f hf using hh
  obtain rfl : h = fun i => (f i : EReal) := funext hf
  obtain ⟨μ, rfl⟩ := hm
  refine ⟨(∑ i, (f i - μ) * (f i - μ)) / N, sum_sq_dev_nonneg f μ N hN, ?_⟩
  simp only [← EReal.coe_mul, ← coe_sum, div_coe_coe _ hN.ne', ← EReal.coe_sub]

end Cert.Sage

end
-- ==== Proof.HostReal.lean ====
/-
  Tables of real numbers, and the host and elementwise operations that keep them: a table all of whose entries are
  real numbers stays so under an elementwise sum, product, maximum or quotient by entries that are not zero, under
  a re-indexing (a broadcast, a gather: every result entry is an operand entry), and under an accumulating
  scatter (every result entry is an operand entry plus a finite sum of update entries, whichever they are).
-/
import Idealize.ShloMosaic.PureOps.Ideal.Laws
import Idealize.ShloMosaic.Lib.ValueIdx
import proofs.«101248_j40450001994225_2_alg».proof.Proof.Reals

noncomputable section

namespace Cert.Sage

open Idealize.ShloMosaic
open scoped BigOperators

/-- Every entry of a table of extended reals is a real number. -/
def AllReal {s : Shape} (T : s.Idx → EReal) : Prop := ∀ i, IsReal (T i)

variable {s t : Shape} {φ : FTy}

/-- A constant table whose word denotes a real is real. -/
theorem allReal_constant (b : BitVec φ.bits) (h : IsReal (Ideal.ofBits φ b)) :
    AllReal (constant (F := Ideal) s φ b) := fun _ => h

/-- A broadcast reads the operand at an index: real when the operand is. -/
theorem allReal_broadcastInDim (dims : Fin s.rank → Fin t.rank) (h : s.BroadcastsInDim t dims) (x : s.Idx → EReal)
    (hx : AllReal x) : AllReal (broadcastInDim t dims h x) := fun _ => hx _

/-- A gather reads the operand at an index: real when the operand is. -/
theorem allReal_gather {si : Shape} {w : Nat} (d : GatherDims s si t) (x : s.Idx → EReal) (idx : IVec si w)
    (hx : AllReal x) : AllReal (Host.gather d x idx) := fun _ => hx _

/-- An accumulating scatter of real updates into a real table is real: each entry is the operand's plus a finite
    sum of updates. -/
theorem allReal_scatterAdd {si su : Shape} {w : Nat} (d : ScatterDims s si su) (x : FVec Ideal s φ) (idx : IVec si w)
    (upd : FVec Ideal su φ) (hx : AllReal x) (hu : AllReal upd) :
    AllReal (Host.scatterAdd (F := Ideal) d x idx upd) := fun i => by
  show IsReal (x i + ∑ j ∈ Finset.univ.filter (fun j => d.resultIdx? j idx = some i), upd j)
  exact (hx i).add (isReal_sum _ _ fun j _ => hu j)

theorem allReal_mulf (x y : FVec Ideal s φ) (hx : AllReal x) (hy : AllReal y) : AllReal (mulf x y) :=
  fun i => (hx i).mul (hy i)

theorem allReal_maximumf (x y : FVec Ideal s φ) (hx : AllReal x) (hy : AllReal y) : AllReal (maximumf x y) :=
  fun i => (hx i).max (hy i)

/-- The host's quotient by entries that are real and not zero. -/
theorem allReal_hostDivf (x y : FVec Ideal s φ) (hx : AllReal x) (hy : AllReal y) (h0 : ∀ i, y i ≠ 0) :
    AllReal (Host.divf x y) := fun i => (hx i).div (hy i) (h0 i)

/-- A maximum with one is not zero. -/
theorem max_one_ne_zero (a : EReal) : max a 1 ≠ 0 :=
  (lt_of_lt_of_le zero_lt_one (le_max_right a 1)).ne'

end Cert.Sage

end
-- ==== Proof.LayerReal.lean ====
/-
  One layer on real tables: the linear part of real tables is real; on a real table of 100000 rows the two variance
  arrangements are one number, a real that is not negative; so the normalised, scaled, shifted and cut-off table is the
  same under both, and real.
-/
import proofs.«101248_j40450001994225_2_alg».proof.Proof.Spec
import proofs.«101248_j40450001994225_2_alg».proof.Proof.Consts
import proofs.«101248_j40450001994225_2_alg».proof.Proof.BatchStats
import proofs.«101248_j40450001994225_2_alg».proof.Proof.HostReal

noncomputable section

namespace Cert.Sage

open Idealize.ShloMosaic Idealize.ShloMosaic.ValueIdx
open scoped BigOperators

variable {n k c : ℕ}

/-- The row count is the real 100000. -/
theorem rowCount_eq : rowCount = ((100000 : ℝ) : EReal) := ofBits_rows

/-- The stabiliser is the positive real `eps`. -/
theorem stab_eq : stab = ((eps : ℝ) : EReal) := ofBits_eps

/-- The linear part of real tables at one entry is real. -/
theorem linAt_real (M X : Tab n k) (Wl Wr : Tab c k) (b : Fin c → EReal) (hM : AllReal M) (hX : AllReal X)
    (hWl : AllReal Wl) (hWr : AllReal Wr) (hb : ∀ q, IsReal (b q)) (r : Fin n) (q : Fin c) :
    IsReal (linAt M X Wl Wr b r q) :=
  ((isReal_sum _ _ fun j _ => (hM _).mul (hWl _)).add (isReal_sum _ _ fun j _ => (hX _).mul (hWr _))).add (hb q)

/-- The linear part of real tables is a real table. -/
theorem lin_real (M X : Tab n k) (Wl Wr : Tab c k) (b : Fin c → EReal) (hM : AllReal M) (hX : AllReal X)
    (hWl : AllReal Wl) (hWr : AllReal Wr) (hb : ∀ q, IsReal (b q)) : AllReal (lin M X Wl Wr b) :=
  fun i => linAt_real M X Wl Wr b hM hX hWl hWr hb (i 0) (i 1)

/-- The column mean of a real table is real. -/
theorem meanAt_real (H : Tab n c) (hH : AllReal H) (q : Fin c) : IsReal (meanAt H q) := by
  unfold meanAt colSum
  rw [rowCount_eq]
  exact isReal_mean _ (fun r => hH _) _ (by norm_num)

/-- On a real table of 100000 rows the two variance arrangements agree. -/
theorem varK_eq_varR (H : Tab 100000 c) (hH : AllReal H) (q : Fin c) : varK H q = varR H q := by
  unfold varK varR meanAt colSum colSumSq
  rw [rowCount_eq]
  exact var_identity (fun r : Fin 100000 => H (ix2 r q)) (fun r => hH _) 100000 (by norm_num)
    (by rw [Fintype.card_fin]; norm_num)

/-- The mean of squared deviations of a real table is a real that is not negative. -/
theorem varR_real_nonneg' (H : Tab n c) (hH : AllReal H) (q : Fin c) :
    ∃ v : ℝ, 0 ≤ v ∧ varR H q = (v : EReal) := by
  unfold varR
  rw [rowCount_eq]
  exact varR_real_nonneg (fun r : Fin n => H (ix2 r q)) (fun r => hH _) _ (meanAt_real H hH q) 100000 (by norm_num)

/-- One normalised entry is real: real entry, mean, scale and shift, and a variance that is a real not negative
    (the stabiliser makes the square root's argument positive). -/
theorem bnAt_real {h mean var γ β : EReal} (hh : IsReal h) (hm : IsReal mean) (hv : ∃ v : ℝ, 0 ≤ v ∧ var = (v : EReal))
    (hγ : IsReal γ) (hβ : IsReal β) : IsReal (bnAt h mean var γ β) := by
  obtain ⟨v, hv0, rfl⟩ := hv
  unfold bnAt
  rw [stab_eq, ← EReal.coe_add, rsqrt_coe_pos (add_pos_of_nonneg_of_pos hv0 eps_pos)]
  exact (((((hh.sub hm).mul (isReal_coe _)).mul hγ).add hβ)).max_zero

/-- Batch normalisation of a real table under the mean of squared deviations is real. -/
theorem bn_varR_real (H : Tab n c) (γ β : Fin c → EReal) (hH : AllReal H) (hγ : ∀ q, IsReal (γ q))
    (hβ : ∀ q, IsReal (β q)) : AllReal (bn varR H γ β) :=
  fun i => bnAt_real (hH i) (meanAt_real H hH (i 1)) (varR_real_nonneg' H hH (i 1)) (hγ _) (hβ _)

/-- On a real table of 100000 rows batch normalisation is the same under both variance arrangements. -/
theorem bn_varK_eq_varR (H : Tab 100000 c) (γ β : Fin c → EReal) (hH : AllReal H) :
    bn varK H γ β = bn varR H γ β := by
  funext i
  unfold bn
  rw [varK_eq_varR H hH (i 1)]

/-- Batch normalisation of a real table of 100000 rows under the cut-off arrangement is real. -/
theorem bn_varK_real (H : Tab 100000 c) (γ β : Fin c → EReal) (hH : AllReal H) (hγ : ∀ q, IsReal (γ q))
    (hβ : ∀ q, IsReal (β q)) : AllReal (bn varK H γ β) := by
  rw [bn_varK_eq_varR H γ β hH]; exact bn_varR_real H γ β hH hγ hβ

/-- The same over one-row tables of statistics and parameters: real entries, and variances real and not negative. -/
theorem bnTab_real (H : Tab n c) (mean var γ β : Tab 1 c) (hH : AllReal H) (hm : AllReal mean)
    (hv : ∀ i, ∃ v : ℝ, 0 ≤ v ∧ var i = (v : EReal)) (hγ : AllReal γ) (hβ : AllReal β) :
    AllReal (bnTab H mean var γ β) :=
  fun i => bnAt_real (hH i) (hm _) (hv _) (hγ _) (hβ _)

/-- The logistic function of a real is real. -/
theorem sig_real {x : EReal} (hx : IsReal x) : IsReal (sig x) := by
  rw [sig_eq_logistic]; exact hx.logistic

end Cert.Sage

end
-- ==== Proof.AggReal.lean ====
/-
  The host's neighbourhood mean keeps real tables real. The in-degree is a sum of ones added into zeros, a real number;
  floored at 1 it is not zero, so its reciprocal is real; the neighbourhood sum is gathered rows added into zeros,
  real when the table is; and the mean is their product.
-/
import proofs.«101248_j40450001994225_2_alg».proof.Proof.Net
import proofs.«101248_j40450001994225_2_alg».proof.Proof.HostReal
import proofs.«101248_j40450001994225_2_alg».proof.Proof.Consts

noncomputable section

namespace Cert.Sage

open Idealize.ShloMosaic Idealize.ShloMosaic.ValueIdx Cert.KernelIdeal

variable [Cert.KernelIdeal.Facts₀]
open Cert.KernelIdeal.Facts₀

/-- The reciprocal of the floored in-degree is real at every row. -/
theorem invDeg_real (E : IVec S2x600000 32) : AllReal (invDeg E) := by
  unfold invDeg
  refine allReal_hostDivf _ _ ?_ ?_ ?_
  · exact allReal_broadcastInDim _ _ _ (allReal_constant _ isReal_ofBits_one)
  · exact allReal_maximumf _ _
      (allReal_scatterAdd _ _ _ _ (allReal_broadcastInDim _ _ _ (allReal_constant _ isReal_ofBits_zero))
        (allReal_broadcastInDim _ _ _ (allReal_constant _ isReal_ofBits_one)))
      (allReal_broadcastInDim _ _ _ (allReal_constant _ isReal_ofBits_one))
  · intro i
    change max _ (Ideal.ofBits .f32 0x3F800000#32) ≠ 0
    rw [ofBits_one]
    exact max_one_ne_zero _

/-- The neighbourhood mean of a real table of 6 columns is real. -/
theorem agg6_real (E : IVec S2x600000 32) (X : FVec Ideal S100000x6 .f32) (hX : AllReal X) : AllReal (agg6 E X) := by
  unfold agg6
  exact allReal_mulf _ _
    (allReal_scatterAdd _ _ _ _ (allReal_broadcastInDim _ _ _ (allReal_constant _ isReal_ofBits_zero))
      (allReal_gather _ _ _ hX))
    (allReal_broadcastInDim _ _ _ (allReal_broadcastInDim _ _ _ (invDeg_real E)))

/-- The neighbourhood mean of a real table of 128 columns is real. -/
theorem agg128_real (E : IVec S2x600000 32) (X : FVec Ideal S100000x128 .f32) (hX : AllReal X) :
    AllReal (agg128 E X) := by
  unfold agg128
  exact allReal_mulf _ _
    (allReal_scatterAdd _ _ _ _ (allReal_broadcastInDim _ _ _ (allReal_constant _ isReal_ofBits_zero))
      (allReal_gather _ _ _ hX))
    (allReal_broadcastInDim _ _ _ (allReal_broadcastInDim _ _ _ (invDeg_real E)))

end Cert.Sage

end
-- ==== Proof.Bridge.lean ====
/-
  The network under the two variance arrangements is one function on real arguments.

  Layer 0's linear part does not involve the variance; on real arguments it is a real table (the neighbourhood mean
  keeps real tables real), so its batch normalisation is the same under both arrangements, and real. Hence layer 1's
  linear part is the same table under both, and real; its batch normalisation is the same again; and so are layer 2
  and the result.
-/
import proofs.«101248_j40450001994225_2_alg».proof.Proof.Net
import proofs.«101248_j40450001994225_2_alg».proof.Proof.LayerReal
import proofs.«101248_j40450001994225_2_alg».proof.Proof.AggReal

noncomputable section

namespace Cert.Sage

open Idealize.ShloMosaic Idealize.ShloMosaic.ValueIdx Cert.KernelIdeal

variable [Cert.KernelIdeal.Facts₀]
open Cert.KernelIdeal.Facts₀

/-- A real vector read by its coordinate is real. -/
theorem vec_real {c : ℕ} (b : (⟨1, ![c]⟩ : Shape).Idx → EReal) (hb : AllReal b) (q : Fin c) : IsReal (vec b q) := hb _

section network

variable (x : FVec Ideal S100000x6 .f32) (E : IVec S2x600000 32)
  (wl0 : FVec Ideal S128x6 .f32) (b0 : FVec Ideal S128 .f32) (wr0 : FVec Ideal S128x6 .f32)
  (g0 be0 : FVec Ideal S128 .f32)
  (wl1 : FVec Ideal S128x128 .f32) (b1 : FVec Ideal S128 .f32) (wr1 : FVec Ideal S128x128 .f32)
  (g1 be1 : FVec Ideal S128 .f32)
  (wl2 : FVec Ideal S1x128 .f32) (b2 : FVec Ideal S1 .f32) (wr2 : FVec Ideal S1x128 .f32)

/-- Layer 0's linear part is real on real arguments. -/
theorem lin0_real (hx : AllReal x) (hwl0 : AllReal wl0) (hb0 : AllReal b0) (hwr0 : AllReal wr0) :
    AllReal (lin0 x E wl0 b0 wr0) :=
  lin_real _ _ _ _ _ (agg6_real E x hx) hx hwl0 hwr0 (vec_real b0 hb0)

/-- Layer 0's output is the same under both variance arrangements. -/
theorem hid0_eq (hx : AllReal x) (hwl0 : AllReal wl0) (hb0 : AllReal b0) (hwr0 : AllReal wr0) :
    hid0 varK x E wl0 b0 wr0 g0 be0 = hid0 varR x E wl0 b0 wr0 g0 be0 :=
  bn_varK_eq_varR _ _ _ (lin0_real x E wl0 b0 wr0 hx hwl0 hb0 hwr0)

/-- Layer 0's output is real on real arguments. -/
theorem hid0_real (hx : AllReal x) (hwl0 : AllReal wl0) (hb0 : AllReal b0) (hwr0 : AllReal wr0)
    (hg0 : AllReal g0) (hbe0 : AllReal be0) : AllReal (hid0 varR x E wl0 b0 wr0 g0 be0) :=
  bn_varR_real _ _ _ (lin0_real x E wl0 b0 wr0 hx hwl0 hb0 hwr0) (vec_real g0 hg0) (vec_real be0 hbe0)

/-- Layer 1's linear part is the same under both variance arrangements. -/
theorem lin1_eq (hx : AllReal x) (hwl0 : AllReal wl0) (hb0 : AllReal b0) (hwr0 : AllReal wr0) :
    lin1 varK x E wl0 b0 wr0 g0 be0 wl1 b1 wr1 = lin1 varR x E wl0 b0 wr0 g0 be0 wl1 b1 wr1 := by
  unfold lin1
  rw [hid0_eq x E wl0 b0 wr0 g0 be0 hx hwl0 hb0 hwr0]

/-- Layer 1's linear part is real on real arguments. -/
theorem lin1_real (hx : AllReal x) (hwl0 : AllReal wl0) (hb0 : AllReal b0) (hwr0 : AllReal wr0)
    (hg0 : AllReal g0) (hbe0 : AllReal be0) (hwl1 : AllReal wl1) (hb1 : AllReal b1) (hwr1 : AllReal wr1) :
    AllReal (lin1 varR x E wl0 b0 wr0 g0 be0 wl1 b1 wr1) :=
  have h := hid0_real x E wl0 b0 wr0 g0 be0 hx hwl0 hb0 hwr0 hg0 hbe0
  lin_real _ _ _ _ _ (agg128_real E _ h) h hwl1 hwr1 (vec_real b1 hb1)

/-- Layer 1's output is the same under both variance arrangements. -/
theorem hid1_eq (hx : AllReal x) (hwl0 : AllReal wl0) (hb0 : AllReal b0) (hwr0 : AllReal wr0)
    (hg0 : AllReal g0) (hbe0 : AllReal be0) (hwl1 : AllReal wl1) (hb1 : AllReal b1) (hwr1 : AllReal wr1) :
    hid1 varK x E wl0 b0 wr0 g0 be0 wl1 b1 wr1 g1 be1 = hid1 varR x E wl0 b0 wr0 g0 be0 wl1 b1 wr1 g1 be1 := by
  unfold hid1
  rw [lin1_eq x E wl0 b0 wr0 g0 be0 wl1 b1 wr1 hx hwl0 hb0 hwr0]
  exact bn_varK_eq_varR _ _ _ (lin1_real x E wl0 b0 wr0 g0 be0 wl1 b1 wr1 hx hwl0 hb0 hwr0 hg0 hbe0 hwl1 hb1 hwr1)

/-- Layer 1's output is real on real arguments. -/
theorem hid1_real (hx : AllReal x) (hwl0 : AllReal wl0) (hb0 : AllReal b0) (hwr0 : AllReal wr0)
    (hg0 : AllReal g0) (hbe0 : AllReal be0) (hwl1 : AllReal wl1) (hb1 : AllReal b1) (hwr1 : AllReal wr1)
    (hg1 : AllReal g1) (hbe1 : AllReal be1) : AllReal (hid1 varR x E wl0 b0 wr0 g0 be0 wl1 b1 wr1 g1 be1) :=
  bn_varR_real _ _ _ (lin1_real x E wl0 b0 wr0 g0 be0 wl1 b1 wr1 hx hwl0 hb0 hwr0 hg0 hbe0 hwl1 hb1 hwr1)
    (vec_real g1 hg1) (vec_real be1 hbe1)

/-- The network is the same function under both variance arrangements, on real arguments. -/
theorem netK_eq_netR (hx : AllReal x) (hwl0 : AllReal wl0) (hb0 : AllReal b0) (hwr0 : AllReal wr0)
    (hg0 : AllReal g0) (hbe0 : AllReal be0) (hwl1 : AllReal wl1) (hb1 : AllReal b1) (hwr1 : AllReal wr1) :
    netK x E wl0 b0 wr0 g0 be0 wl1 b1 wr1 g1 be1 wl2 b2 wr2 = netR x E wl0 b0 wr0 g0 be0 wl1 b1 wr1 g1 be1 wl2 b2 wr2 := by
  show net varK x E wl0 b0 wr0 g0 be0 wl1 b1 wr1 g1 be1 wl2 b2 wr2
    = net varR x E wl0 b0 wr0 g0 be0 wl1 b1 wr1 g1 be1 wl2 b2 wr2
  unfold net lin2
  rw [hid1_eq x E wl0 b0 wr0 g0 be0 wl1 b1 wr1 g1 be1 hx hwl0 hb0 hwr0 hg0 hbe0 hwl1 hb1 hwr1]

/-- The network's result is real on real arguments. -/
theorem netR_real (hx : AllReal x) (hwl0 : AllReal wl0) (hb0 : AllReal b0) (hwr0 : AllReal wr0)
    (hg0 : AllReal g0) (hbe0 : AllReal be0) (hwl1 : AllReal wl1) (hb1 : AllReal b1) (hwr1 : AllReal wr1)
    (hg1 : AllReal g1) (hbe1 : AllReal be1) (hwl2 : AllReal wl2) (hb2 : AllReal b2) (hwr2 : AllReal wr2) :
    AllReal (netR x E wl0 b0 wr0 g0 be0 wl1 b1 wr1 g1 be1 wl2 b2 wr2) := fun i => by
  have h := hid1_real x E wl0 b0 wr0 g0 be0 wl1 b1 wr1 g1 be1 hx hwl0 hb0 hwr0 hg0 hbe0 hwl1 hb1 hwr1 hg1 hbe1
  exact sig_real (lin_real _ _ _ _ _ (agg128_real E _ h) h hwl2 hwr2 (vec_real b2 hb2) _)

end network

end Cert.Sage

end
-- ==== Proof.PreReal.lean ====
/-
  From the printed precondition to "every float argument is a real number at every entry".

  The precondition tests each float argument with |x| < +∞ at every entry, takes the conjunction over the entries, and
  the conjunction of these over the fourteen float arguments; it states that the result is 1. Over the extended reals
  |x| is max x (-x), and the pattern of +∞ denotes ⊤; max x (-x) < ⊤ excludes both ⊤ and ⊥, so x is a real number.
-/
import Idealize.ShloMosaic.Lib.ReduceAll
import Idealize.ShloMosaic.Lib.ValueIdx
import proofs.«101248_j40450001994225_2_alg».proof.Pre_finite_inputs
import proofs.«101248_j40450001994225_2_alg».proof.Proof.Consts
import proofs.«101248_j40450001994225_2_alg».proof.Proof.HostReal

noncomputable section

namespace Cert.Sage

open Idealize.ShloMosaic Idealize.ShloMosaic.ValueIdx

/-- An extended real whose absolute value is below `+∞` is a real number. -/
theorem isReal_of_abs_lt_inf (x : EReal)
    (h : Ideal.cmp .olt (max x (-x)) (Ideal.ofBits .f32 0x7F800000#32) = 1#1) : IsReal x := by
  rw [ofBits_inf] at h
  have hlt : max x (-x) < ⊤ := by
    by_contra hn
    simp [Ideal.cmp, hn] at h
  induction x with
  | bot => simp at hlt
  | top => simp at hlt
  | coe r => exact ⟨r, rfl⟩

/-- The rank-0 shape has one index. -/
instance subsingleton_idx0 : Subsingleton (⟨0, ![]⟩ : Shape).Idx := ⟨fun _ _ => funext fun d => d.elim0⟩

/-- One argument's test: if the conjunction over all entries of `|x| < +∞` is 1, every entry of `x` is real. -/
theorem allReal_of_all_finite {s : Shape} {axes : List (Fin s.rank)} (x : FVec Ideal s .f32)
    (bc : (⟨0, ![]⟩ : Shape).BroadcastsInDim s (![] : Fin 0 → Fin s.rank)) (rt : s.ReducesTo axes ⟨0, ![]⟩)
    (hS : 0 < (⟨0, ![]⟩ : Shape).numel)
    (e : Host.reduce IntOp.andi
          (cmpf .olt (Host.absf x) (broadcastInDim s ![] bc (constant (F := Ideal) ⟨0, ![]⟩ .f32 0x7F800000#32)))
          (constantI ⟨0, ![]⟩ 1 1#1) rt hS ix0 = 1#1) : AllReal x :=
  fun i => isReal_of_abs_lt_inf (x i) (Host.reduce_andi_all _ _ rt hS ix0 e i)

open Cert.Pre_finite_inputs in
/-- The precondition makes all fourteen float arguments real at every entry. -/
theorem allReal_of_pre [Cert.Pre_finite_inputs.Facts]
    (x0 : FVec Ideal S100000x6 .f32) (x1 : IVec S2x600000 32) (x2 : FVec Ideal S128x6 .f32) (x3 : FVec Ideal S128 .f32)
    (x4 : FVec Ideal S128x6 .f32) (x5 : FVec Ideal S128 .f32) (x6 : FVec Ideal S128 .f32)
    (x7 : FVec Ideal S128x128 .f32) (x8 : FVec Ideal S128 .f32) (x9 : FVec Ideal S128x128 .f32)
    (x10 : FVec Ideal S128 .f32) (x11 : FVec Ideal S128 .f32) (x12 : FVec Ideal S1x128 .f32)
    (x13 : FVec Ideal S1 .f32) (x14 : FVec Ideal S1x128 .f32)
    (h : Cert.Pre_finite_inputs.fn (F := Ideal) x0 x1 x2 x3 x4 x5 x6 x7 x8 x9 x10 x11 x12 x13 x14 = fun _ => 1#1) :
    AllReal x0 ∧ AllReal x2 ∧ AllReal x3 ∧ AllReal x4 ∧ AllReal x5 ∧ AllReal x6 ∧ AllReal x7 ∧ AllReal x8 ∧ AllReal x9
      ∧ AllReal x10 ∧ AllReal x11 ∧ AllReal x12 ∧ AllReal x13 ∧ AllReal x14 := by
  have h0 := congrFun h ix0
  dsimp only [Cert.Pre_finite_inputs.fn, Cert.Pre_finite_inputs.fn_part1, Cert.Pre_finite_inputs.fn_part2,
    Cert.Pre_finite_inputs.fn_part3, Cert.Pre_finite_inputs.fn_part4, Idealize.ShloMosaic.andi] at h0
  simp only [IntOp.andi_eq_one] at h0
  obtain ⟨⟨⟨⟨⟨⟨⟨⟨⟨⟨⟨⟨⟨e0, e2⟩, e3⟩, e4⟩, e5⟩, e6⟩, e7⟩, e8⟩, e9⟩, e10⟩, e11⟩, e12⟩, e13⟩, e14⟩ := h0
  exact ⟨allReal_of_all_finite x0 _ _ _ e0, allReal_of_all_finite x2 _ _ _ e2, allReal_of_all_finite x3 _ _ _ e3,
    allReal_of_all_finite x4 _ _ _ e4, allReal_of_all_finite x5 _ _ _ e5, allReal_of_all_finite x6 _ _ _ e6,
    allReal_of_all_finite x7 _ _ _ e7, allReal_of_all_finite x8 _ _ _ e8, allReal_of_all_finite x9 _ _ _ e9,
    allReal_of_all_finite x10 _ _ _ e10, allReal_of_all_finite x11 _ _ _ e11, allReal_of_all_finite x12 _ _ _ e12,
    allReal_of_all_finite x13 _ _ _ e13, allReal_of_all_finite x14 _ _ _ e14⟩

end Cert.Sage

end
-- ==== Proof.Assemble.lean ====
/-
  The five claims, assembled.

  The three frame claims are the programs' runs with the results dropped. The idealization rewrote nothing, so its
  claim is empty. The last claim compares the idealized kernel and the idealized reference from memories that agree
  on the fifteen arguments: the kernel's run ends with the network under the "mean of squares less squared mean"
  variance in its result array, the reference's run with the network under the "mean of squared deviations" variance;
  the precondition makes every float argument real at every entry, and on real arguments the two networks are one
  function, which is the common value both runs are stated with.
-/
import proofs.«101248_j40450001994225_2_alg».proof.Defs
import proofs.«101248_j40450001994225_2_alg».proof.Proof.Gen.Kernel
import proofs.«101248_j40450001994225_2_alg».proof.Proof.Gen.Kernel.Frame
import proofs.«101248_j40450001994225_2_alg».proof.Proof.Gen.KernelIdeal
import proofs.«101248_j40450001994225_2_alg».proof.Proof.Gen.KernelIdeal.Frame
import proofs.«101248_j40450001994225_2_alg».proof.Proof.Gen.ReferenceIdeal
import proofs.«101248_j40450001994225_2_alg».proof.Proof.Gen.ReferenceIdeal.Run
import proofs.«101248_j40450001994225_2_alg».proof.Proof.Gen.Pre_finite_inputs
import proofs.«101248_j40450001994225_2_alg».proof.Proof.KernelRun
import proofs.«101248_j40450001994225_2_alg».proof.Proof.RefValue
import proofs.«101248_j40450001994225_2_alg».proof.Proof.Bridge
import proofs.«101248_j40450001994225_2_alg».proof.Proof.PreReal

noncomputable section

namespace Cert.Sage.Assemble

open Idealize.ShloMosaic Idealize.ShloMosaic.TcCoe Idealize.SL.Sem

/-! ## The frames and the idealization -/

/-- The kernel as printed runs and leaves its arguments as launched. -/
theorem frame_k : Cert.frame_Kernel := fun m ρ _ => Cert.Kernel.Gen.frame m ρ

/-- The idealized kernel runs and leaves its arguments as launched. -/
theorem frame_ki : Cert.frame_KernelIdeal := fun m ρ _ => Cert.KernelIdeal.Gen.frame m ρ

/-- The idealized reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-! ## The two runs end with one value -/

/-- Given that the kernel's result array ends as the network with the variance taken as the mean of squares less the
    squared mean (`hK`), both programs run from agreeing memories to that network of the kernel's arguments: the
    reference ends with the network under the other variance arrangement of ITS arguments, which are the kernel's,
    and the two networks agree because the precondition makes the arguments real. -/
theorem algebraic_of
    (hK : ∀ (m : (ℓ : Loc Cert.KernelIdeal.nD Cert.KernelIdeal.τ Cert.KernelIdeal.sig) → Buf (Elt Ideal) ℓ)
      (ρ : Dev Cert.KernelIdeal.nD → PrngReg) (c : Dev Cert.KernelIdeal.nD),
      (Cert.KernelIdeal.Gen.W11 m ρ c (Proc.devRef .tc Cert.KernelIdeal.main_v79) : FVec Ideal Cert.KernelIdeal.S100000 .f32)
        = Cert.Sage.netK
            (m ((c.tc : Thread Cert.KernelIdeal.nD Cert.KernelIdeal.τ).loc Cert.KernelIdeal.main_arg0)) (m ((c.tc : Thread Cert.KernelIdeal.nD Cert.KernelIdeal.τ).loc Cert.KernelIdeal.main_arg1))
            (m ((c.tc : Thread Cert.KernelIdeal.nD Cert.KernelIdeal.τ).loc Cert.KernelIdeal.main_arg2)) (m ((c.tc : Thread Cert.KernelIdeal.nD Cert.KernelIdeal.τ).loc Cert.KernelIdeal.main_arg3))
            (m ((c.tc : Thread Cert.KernelIdeal.nD Cert.KernelIdeal.τ).loc Cert.KernelIdeal.main_arg4)) (m ((c.tc : Thread Cert.KernelIdeal.nD Cert.KernelIdeal.τ).loc Cert.KernelIdeal.main_arg5))
            (m ((c.tc : Thread Cert.KernelIdeal.nD Cert.KernelIdeal.τ).loc Cert.KernelIdeal.main_arg6)) (m ((c.tc : Thread Cert.KernelIdeal.nD Cert.KernelIdeal.τ).loc Cert.KernelIdeal.main_arg7))
            (m ((c.tc : Thread Cert.KernelIdeal.nD Cert.KernelIdeal.τ).loc Cert.KernelIdeal.main_arg8)) (m ((c.tc : Thread Cert.KernelIdeal.nD Cert.KernelIdeal.τ).loc Cert.KernelIdeal.main_arg9))
            (m ((c.tc : Thread Cert.KernelIdeal.nD Cert.KernelIdeal.τ).loc Cert.KernelIdeal.main_arg10)) (m ((c.tc : Thread Cert.KernelIdeal.nD Cert.KernelIdeal.τ).loc Cert.KernelIdeal.main_arg11))
            (m ((c.tc : Thread Cert.KernelIdeal.nD Cert.KernelIdeal.τ).loc Cert.KernelIdeal.main_arg12)) (m ((c.tc : Thread Cert.KernelIdeal.nD Cert.KernelIdeal.τ).loc Cert.KernelIdeal.main_arg13))
            (m ((c.tc : Thread Cert.KernelIdeal.nD Cert.KernelIdeal.τ).loc Cert.KernelIdeal.main_arg14))) :
    Cert.algebraic_KernelIdeal_ReferenceIdeal := by
  intro m ρ m' ρ' hpre hagree
  refine ⟨fun c => Cert.Sage.netK
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      (m ((c.tc : Thread Cert.KernelIdeal.nD Cert.KernelIdeal.τ).loc Cert.KernelIdeal.main_arg12)) (m ((c.tc : Thread Cert.KernelIdeal.nD Cert.KernelIdeal.τ).loc Cert.KernelIdeal.main_arg13))
      (m ((c.tc : Thread Cert.KernelIdeal.nD Cert.KernelIdeal.τ).loc Cert.KernelIdeal.main_arg14)), ?_, ?_⟩
  · exact (θ_run Cert.KernelIdeal.defs _ _).mono (fun _ h c => ⟨(h c).1.trans (hK m ρ c), (h c).2⟩)
      (Cert.Sage.KernelRun.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11, a12, a13, a14⟩ := hagree c
    obtain ⟨r0, r2, r3, r4, r5, r6, r7, r8, r9, -⟩ := Cert.Sage.allReal_of_pre _ _ _ _ _ _ _ _ _ _ _ _ _ _ _ (hpre c)
    refine (Cert.Sage.Ref.res_out0_eq m' c).trans ?_
    rw [a0, a1, a2, a3, a4, a5, a6, a7, a8, a9, a10, a11, a12, a13, a14]
    exact (Cert.Sage.netK_eq_netR _ _ _ _ _ _ _ _ _ _ _ _ _ _ _ r0 r2 r3 r4 r5 r6 r7 r8 r9).symm

end Cert.Sage.Assemble

end
-- ==== Proof.LibColumns.lean ====
/-
  Column-by-column readings of two-axis arrays, for any sizes.

  A reduction down the rows of an `n × k` array leaves one number per column: entry `c` of the result is the sum over
  the row coordinate `a` of the array at `(a, c)`. The lemmas below read such a sum at a column, in a kernel's spelling
  (a lane reduction from the zero word) and in the host's (a reduce with an initial value); turn a sum over a one-axis
  index set, or over the index set of a `1 × n` row, into the sum over the coordinate; and say that a one-bit flag
  widened to a 32-bit word and read as a signed integer is the same extended real as the flag read as an unsigned one.
-/
import Idealize.ShloMosaic.Lib.ValueIdx
import Idealize.ShloMosaic.PureOps.Ideal.Laws

noncomputable section

namespace Cert.Lib.Columns

open Idealize.ShloMosaic Idealize.ShloMosaic.ValueIdx

/-! ## Sums down a column -/

/-- The index of an `n × k` array over column `c` with the row `a` put back. -/
theorem lift_col {n k : ℕ} (h : (⟨2, ![n, k]⟩ : Shape).Reduces [0] ⟨1, ![k]⟩) (c : Fin k) (a : Fin n) :
    h.lift (ix1 c) a = ix2 a c := by
  funext ax; apply Fin.ext
  match ax with
  | ⟨0, _⟩ => rfl
  | ⟨1, _⟩ => rfl

/-- A lane reduction of an `n × k` array down its rows reads, at column `c`, the sum of that column. -/
theorem colSum_apply {n k : ℕ} {φ : FTy} (src : FVec Ideal ⟨2, ![n, k]⟩ φ) (acc : BitVec φ.bits)
    (h : (⟨2, ![n, k]⟩ : Shape).Reduces [0] ⟨1, ![k]⟩) (hφ : FKind.Formats φ) (hacc : acc = FKind.add.neutral φ hφ) (c : Fin k) :
    multiReduction .add [0] ⟨1, ![k]⟩ src acc h hφ hacc (ix1 c) = ∑ a : Fin n, src (ix2 a c) := by
  rw [Ideal.multiReduction_add_single]
  exact Finset.sum_congr rfl fun a _ => congrArg src (lift_col h c a)

/-- The same for an f32 lane sum from the zero word, with the accumulator's side condition spelt as a program prints it
    (the word equal to itself). -/
theorem colSum_f32_apply {n k : ℕ} (src : FVec Ideal ⟨2, ![n, k]⟩ .f32)
    (h : (⟨2, ![n, k]⟩ : Shape).Reduces [0] ⟨1, ![k]⟩) (hφ : FKind.Formats .f32)
    (hacc : (0x00000000#32 : BitVec 32) = 0x00000000#32) (c : Fin k) :
    multiReduction .add [0] ⟨1, ![k]⟩ src 0x00000000#32 h hφ hacc (ix1 c) = ∑ a : Fin n, src (ix2 a c) :=
  colSum_apply src 0x00000000#32 h hφ hacc c

/-- The host's sum of an `n × k` array down its rows reads, at column `c`, the initial value plus the sum of that column. -/
theorem hostColSum_apply {n k : ℕ} {φ : FTy} {u : Shape} (x : FVec Ideal ⟨2, ![n, k]⟩ φ) (init : u.Idx → Ideal φ)
    (h' : (⟨2, ![n, k]⟩ : Shape).ReducesTo [0] ⟨1, ![k]⟩) (hu : 0 < u.numel)
    (h : (⟨2, ![n, k]⟩ : Shape).Reduces [0] ⟨1, ![k]⟩) (c : Fin k) :
    Host.reduceAdd x init h' hu (ix1 c) = init (Shape.Idx.first hu) + ∑ a : Fin n, x (ix2 a c) := by
  show Ideal.hostReduceAdd h' x (init (Shape.Idx.first hu)) (ix1 c) = _
  rw [Ideal.hostReduceAdd_single h' h]
  exact congrArg (init (Shape.Idx.first hu) + ·) (Finset.sum_congr rfl fun a _ => congrArg x (lift_col h c a))

/-! ## Sums over the index set of a vector and of a one-row matrix -/

/-- A rank-1 index set is its coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : ℕ} (f : (⟨1, ![n]⟩ : Shape).Idx → A) :
    ∑ i, f i = ∑ a : Fin n, f (ix1 a) := by
  rw [← Equiv.sum_comp (idxEquiv1 (n := n)).symm f]
  rfl

/-- A sum over the index set of a `1 × n` row is the sum over the column coordinate, the row coordinate being `0`. -/
theorem sum_idx_1n {A : Type*} [AddCommMonoid A] {n : ℕ} (f : (⟨2, ![1, n]⟩ : Shape).Idx → A) :
    ∑ i, f i = ∑ c : Fin n, f (ix2 (0 : Fin 1) c) := by
  rw [sum_idx2]
  exact Fin.sum_univ_one _

/-! ## A one-bit flag as a number -/

/-- A one-bit flag widened by zeros to a 32-bit word and read as a signed integer is the flag read as an unsigned one:
    `0` or `1` either way. -/
theorem sitofp_setWidth_bit (b : BitVec 1) :
    FloatOps.sitofp (F := Ideal) .f32 (b.setWidth 32) = FloatOps.uitofp (F := Ideal) .f32 b := by
  have h : (b.setWidth 32).toInt = (b.toNat : ℤ) := by
    rcases BitVec.eq_zero_or_eq_one b with h | h <;> subst h <;> decide
  show (((b.setWidth 32).toInt : ℝ) : EReal) = ((b.toNat : ℝ) : EReal)
  rw [h, Int.cast_natCast]

end Cert.Lib.Columns

end
-- ==== Proof.Region0Pay.lean ====
/-
  The arithmetic of the linear-plus-statistics body, read one entry at a time over the extended reals.

  The body takes a block of 5000 rows of the neighbourhood means and of the features, the two weight tables and the
  bias row, and computes for row p and column q
      (Σ_j mean(p,j)·Wl(q,j) + Σ_j feat(p,j)·Wr(q,j)) + bias(q):
  each product is a matrix product against a transposed weight table into a zero accumulator, the narrowing of the
  operands to a shorter float format being the identity on extended reals. The block's column sums and the column sums
  of its squares are added to the running sums the two one-row outputs hold.
-/
import proofs.«101248_j40450001994225_2_alg».proof.Proof.Gen.KernelIdeal.Skeleton
import proofs.«101248_j40450001994225_2_alg».proof.Proof.Spec
import proofs.«101248_j40450001994225_2_alg».proof.Proof.LibColumns
import Idealize.ShloMosaic.Lib.Pipeline.Value
import Idealize.ShloMosaic.Lib.ValueIdx
import Idealize.ShloMosaic.PureOps.Ideal.Laws

noncomputable section

open scoped BigOperators

namespace Cert.Sage.Region0

open Idealize.ShloMosaic Idealize.ShloMosaic.ValueIdx Cert.KernelIdeal

variable [Cert.KernelIdeal.Facts]
open Cert.KernelIdeal.Facts₀ Cert.KernelIdeal.Facts

/-! ## The matrix product against a transposed weight table -/

theorem lhs_row (i : S5000x128.Idx) (κ : dot_S5000x6_S6x128_S5000x128_1_0_0_1_n_n.contr.Idx) : (dot_S5000x6_S6x128_S5000x128_1_0_0_1_n_n.lhsIdx i κ 0).val = (i 0).val := by
  unfold DotDims.lhsIdx
  rw [dif_neg (show ¬(0 : Fin S5000x6.rank) ∈ dot_S5000x6_S6x128_S5000x128_1_0_0_1_n_n.lhsBatch by decide),
    dif_pos (show (0 : Fin S5000x6.rank) ∈ dot_S5000x6_S6x128_S5000x128_1_0_0_1_n_n.lhsNonContracting by decide)]
  rfl

theorem lhs_contr (i : S5000x128.Idx) (κ : dot_S5000x6_S6x128_S5000x128_1_0_0_1_n_n.contr.Idx) : (dot_S5000x6_S6x128_S5000x128_1_0_0_1_n_n.lhsIdx i κ 1).val = (κ ⟨0, by decide⟩).val :=
  dot_S5000x6_S6x128_S5000x128_1_0_0_1_n_n.lhsIdx_val_of_single rfl i κ

theorem rhs_contr (i : S5000x128.Idx) (κ : dot_S5000x6_S6x128_S5000x128_1_0_0_1_n_n.contr.Idx) : (dot_S5000x6_S6x128_S5000x128_1_0_0_1_n_n.rhsIdx i κ 0).val = (κ ⟨0, by decide⟩).val :=
  dot_S5000x6_S6x128_S5000x128_1_0_0_1_n_n.rhsIdx_val_of_single rfl i κ

theorem rhs_col (i : S5000x128.Idx) (κ : dot_S5000x6_S6x128_S5000x128_1_0_0_1_n_n.contr.Idx) : (dot_S5000x6_S6x128_S5000x128_1_0_0_1_n_n.rhsIdx i κ 1).val = (i 1).val := by
  unfold DotDims.rhsIdx
  rw [dif_neg (show ¬(1 : Fin S6x128.rank) ∈ dot_S5000x6_S6x128_S5000x128_1_0_0_1_n_n.rhsBatch by decide),
    dif_pos (show (1 : Fin S6x128.rank) ∈ dot_S5000x6_S6x128_S5000x128_1_0_0_1_n_n.rhsNonContracting by decide)]
  rfl

/-- A block of rows times the transpose of a weight table, into zero: entry (p, q) is the inner product of row p of
    the block with row q of the weight table. -/
theorem rows_times_transpose (x : FVec Ideal S5000x6 .f32) (w : FVec Ideal S128x6 .f32) (p : Fin 5000) (q : Fin 128) :
    (matmul dot_S5000x6_S6x128_S5000x128_1_0_0_1_n_n none (truncf .bf16 x bitsLt_bf16_f32)
      (transpose S6x128 [1, 0] (truncf .bf16 w bitsLt_bf16_f32) transposes_S128x6_p1_0_S6x128)
      (constant S5000x128 .f32 0x00000000#32) : FVec Ideal S5000x128 .f32) (ix2 p q)
      = ∑ j : Fin 6, x (ix2 p j) * w (ix2 q j) := by
  simp only [matmul]
  rw [Ideal.matmul_constant_zero_apply, ← Equiv.sum_comp (contrEquiv1 dot_S5000x6_S6x128_S5000x128_1_0_0_1_n_n 6 rfl rfl).symm]
  refine Finset.sum_congr rfl fun k _ => ?_
  have hk := contrEquiv1_symm_val dot_S5000x6_S6x128_S5000x128_1_0_0_1_n_n 6 rfl rfl k
  have el : dot_S5000x6_S6x128_S5000x128_1_0_0_1_n_n.lhsIdx (ix2 p q) ((contrEquiv1 dot_S5000x6_S6x128_S5000x128_1_0_0_1_n_n 6 rfl rfl).symm k) = ix2 p k :=
    funext fun a => Fin.ext (by
      match a with
      | ⟨0, _⟩ => exact lhs_row _ _
      | ⟨1, _⟩ => exact (lhs_contr _ _).trans hk)
  have er : dot_S5000x6_S6x128_S5000x128_1_0_0_1_n_n.rhsIdx (ix2 p q) ((contrEquiv1 dot_S5000x6_S6x128_S5000x128_1_0_0_1_n_n 6 rfl rfl).symm k) = ix2 k q :=
    funext fun a => Fin.ext (by
      match a with
      | ⟨0, _⟩ => exact (rhs_contr _ _).trans hk
      | ⟨1, _⟩ => exact rhs_col _ _)
  rw [el, er]
  refine congrArg (x (ix2 p k) * ·) ?_
  exact transpose_apply [1, 0] _ transposes_S128x6_p1_0_S6x128 (ix2 k q) (ix2 q k)
    (fun b => by match b with | ⟨0, _⟩ => rfl | ⟨1, _⟩ => rfl)

/-! ## Rows and vectors -/

/-- A one-row table spread down 5000 rows, read at an entry. -/
theorem row_spread (b : FVec Ideal S1x128 .f32) (p : Fin 5000) (q : Fin 128) :
    broadcastTo S5000x128 b broadcasts_S1x128_S5000x128 (ix2 p q) = b (ix2 0 q) :=
  broadcastTo_apply b broadcasts_S1x128_S5000x128 (ix2 p q) (ix2 0 q)
    (fun a => by match a with | ⟨0, _⟩ => rfl | ⟨1, _⟩ => rfl)

/-- A vector of 128 entries re-laid as a one-row table, read at an entry. -/
theorem vec_as_row (v : FVec Ideal S128 .f32) (q : Fin 128) :
    shapeCast S1x128 v shapeCasts_S128_S1x128 (ix2 0 q) = v (ix1 q) := by
  refine (shapeCast_addUnit_apply ![128] v shapeCasts_S128_S1x128 (ix2 0 q)).trans (congrArg v ?_)
  funext a
  match a with
  | ⟨0, _⟩ => rfl

/-! ## The three payloads at an entry -/

/-- The linear part of the block at row p, column q. -/
theorem linear_apply (x0 x1 : Vec Ideal S5000x6 .f32) (x2 x4 : Vec Ideal S128x6 .f32) (x3 : Vec Ideal S1x128 .f32)
    (p : Fin 5000) (q : Fin 128) :
    Gen.k0_pay4 (F := Ideal) x0 x1 x2 x4 x3 (ix2 p q) = linAt x0 x1 x2 x4 (fun q => x3 (ix2 0 q)) p q := by
  unfold Gen.k0_pay4 linAt
  simp only [shapeCast_self]
  refine (addf_apply _ _ _).trans ?_
  refine congrArg₂ (· + ·) ((addf_apply _ _ _).trans (congrArg₂ (· + ·) ?_ ?_)) (row_spread x3 p q)
  · exact rows_times_transpose x0 x2 p q
  · exact rows_times_transpose x1 x4 p q

/-- The block's column sums added to a running row. -/
theorem colsum_apply (x0 x1 : Vec Ideal S5000x6 .f32) (x2 x4 : Vec Ideal S128x6 .f32) (x3 xo : Vec Ideal S1x128 .f32)
    (q : Fin 128) :
    Gen.k0_pay5 (F := Ideal) x0 x1 x2 x4 x3 xo (ix2 0 q)
      = xo (ix2 0 q) + ∑ p : Fin 5000, Gen.k0_pay4 (F := Ideal) x0 x1 x2 x4 x3 (ix2 p q) := by
  unfold Gen.k0_pay5
  simp only [shapeCast_self]
  refine (addf_apply _ _ _).trans (congrArg (xo (ix2 0 q) + ·) ?_)
  refine (vec_as_row _ q).trans ?_
  exact Cert.Lib.Columns.colSum_f32_apply _ _ _ _ q

/-- The column sums of the block's squares added to a running row. -/
theorem colsumsq_apply (x0 x1 : Vec Ideal S5000x6 .f32) (x2 x4 : Vec Ideal S128x6 .f32) (x3 xo : Vec Ideal S1x128 .f32)
    (q : Fin 128) :
    Gen.k0_pay1 (F := Ideal) (Gen.k0_pay6 (F := Ideal) xo) (Gen.k0_pay7 (F := Ideal) x0 x1 x2 x4 x3) (ix2 0 q)
      = xo (ix2 0 q) + ∑ p : Fin 5000, Gen.k0_pay4 (F := Ideal) x0 x1 x2 x4 x3 (ix2 p q)
          * Gen.k0_pay4 (F := Ideal) x0 x1 x2 x4 x3 (ix2 p q) := by
  unfold Gen.k0_pay1 Gen.k0_pay6 Gen.k0_pay7
  simp only [shapeCast_self]
  refine (addf_apply _ _ _).trans (congrArg (xo (ix2 0 q) + ·) ?_)
  refine (vec_as_row _ q).trans ?_
  exact Cert.Lib.Columns.colSum_f32_apply _ _ _ _ q

/-- The zero row the first point stores. -/
theorem zero_row_apply (q : Fin 128) : (Gen.k0_pay2 (F := Ideal)) (ix2 0 q) = 0 := by
  unfold Gen.k0_pay2
  exact Ideal.ofBits_zero_f32

theorem zero_row_apply' (q : Fin 128) : (Gen.k0_pay3 (F := Ideal)) (ix2 0 q) = 0 := by
  unfold Gen.k0_pay3
  exact Ideal.ofBits_zero_f32

end Cert.Sage.Region0

end
-- ==== Proof.Region0Pieces.lean ====
/-
  What one run of the linear-plus-statistics body leaves in its three output buffers, in each of its two cases.

  At the first grid point the body first stores a zero row into each of the two running rows and then proceeds as at
  every later point: it stores the block's linear part whole, adds the block's column sums to the first running row
  and the column sums of the block's squares to the second. So the first output's buffer ends holding the linear part
  of the point's input blocks, and each running row ends holding its previous contents (the zero row at the first
  point) plus the block's contribution. Each buffer is written by stores that cover it, and what is read back is the
  last store's value, the loads of whole input buffers reading those buffers' contents.
-/
import proofs.«101248_j40450001994225_2_alg».proof.Proof.Gen.KernelIdeal.Frame
import Idealize.ShloMosaic.Lib.Pipeline.Value
import Idealize.ShloMosaic.Lib.Tactic

noncomputable section

namespace Cert.Sage.Pieces0

open Idealize.ShloMosaic Idealize.ShloMosaic.TcCoe Idealize.SL.Sem Idealize.ShloMosaic.Tactic
open Cert.KernelIdeal Cert.KernelIdeal.Gen

variable {F : FTy → Type} [FloatOps F]

theorem hz : (![0, 0] : Fin 2 → Nat) = fun _ => 0 := funext fun a => by fin_cases a <;> rfl

/-! ## What each case leaves in each output's buffer -/

/-- At the first point the block's linear part is stored whole. -/
theorem first_lin (c : Dev nD) (i : grid0.Coords) (a1 : Memref sig .tc .vmem S5000x6 .f32) (h1 : a1.IsWhole) (a2 : Memref sig .tc .vmem S5000x6 .f32) (h2 : a2.IsWhole) (a3 : Memref sig .tc .vmem S128x6 .f32) (h3 : a3.IsWhole) (a4 : Memref sig .tc .vmem S1x128 .f32) (h4 : a4.IsWhole) (a5 : Memref sig .tc .vmem S128x6 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond0_0 i) (x0 x1 : Vec F S5000x6 .f32) (x2 : Vec F S128x6 .f32) (x3 : Vec F S1x128 .f32) (x4 : Vec F S128x6 .f32) :
    out0_A_5 c i a1 h1 a2 h2 a3 h3 a4 h4 a5 h5 a6 h6 a7 h7 a8 h8 hc x0 x1 x2 x3 x4 = k0_pay4 x0 x1 x2 x4 x3 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x6) hz, View.ld_unit_zero (S := S128x6) hz, View.ld_unit_zero (S := S1x128) hz]

/-- At the first point the running column sums are the zero row plus the block's column sums. -/
theorem first_sum (c : Dev nD) (i : grid0.Coords) (a1 : Memref sig .tc .vmem S5000x6 .f32) (h1 : a1.IsWhole) (a2 : Memref sig .tc .vmem S5000x6 .f32) (h2 : a2.IsWhole) (a3 : Memref sig .tc .vmem S128x6 .f32) (h3 : a3.IsWhole) (a4 : Memref sig .tc .vmem S1x128 .f32) (h4 : a4.IsWhole) (a5 : Memref sig .tc .vmem S128x6 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond0_0 i) (x0 x1 : Vec F S5000x6 .f32) (x2 : Vec F S128x6 .f32) (x3 : Vec F S1x128 .f32) (x4 : Vec F S128x6 .f32) :
    out0_A_6 c i a1 h1 a2 h2 a3 h3 a4 h4 a5 h5 a6 h6 a7 h7 a8 h8 hc x0 x1 x2 x3 x4 = k0_pay5 x0 x1 x2 x4 x3 (k0_pay2 (F := F)) := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  sl_unfold_words
  rw [View.canon_cons_unit_zero (S := S1x128) hz]
  simp only [View.readAt_eq_ld, h1.read_unread, h2.read_unread, h3.read_unread, h4.read_unread, h5.read_unread, h7.read_unread, h8.read_unread, View.ld_unit_zero (S := S5000x6) hz, View.ld_unit_zero (S := S128x6) hz, View.ld_unit_zero (S := S1x128) hz, View.readCov_unit_zero (S := S1x128) _ hz]

/-- At the first point the running column sums of squares are the zero row plus the block's. -/
theorem first_sumsq (c : Dev nD) (i : grid0.Coords) (a1 : Memref sig .tc .vmem S5000x6 .f32) (h1 : a1.IsWhole) (a2 : Memref sig .tc .vmem S5000x6 .f32) (h2 : a2.IsWhole) (a3 : Memref sig .tc .vmem S128x6 .f32) (h3 : a3.IsWhole) (a4 : Memref sig .tc .vmem S1x128 .f32) (h4 : a4.IsWhole) (a5 : Memref sig .tc .vmem S128x6 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond0_0 i) (x0 x1 : Vec F S5000x6 .f32) (x2 : Vec F S128x6 .f32) (x3 : Vec F S1x128 .f32) (x4 : Vec F S128x6 .f32) :
    out0_A_7 c i a1 h1 a2 h2 a3 h3 a4 h4 a5 h5 a6 h6 a7 h7 a8 h8 hc x0 x1 x2 x3 x4 = k0_pay1 (k0_pay6 (k0_pay3 (F := F))) (k0_pay7 x0 x1 x2 x4 x3) := by
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  sl_unfold_words
  rw [View.canon_cons_unit_zero (S := S1x128) hz]
  simp only [View.readAt_eq_ld, h1.read_unread, h2.read_unread, h3.read_unread, h4.read_unread, h5.read_unread, h7.read_unread, h8.read_unread, View.ld_unit_zero (S := S5000x6) hz, View.ld_unit_zero (S := S128x6) hz, View.ld_unit_zero (S := S1x128) hz, View.readCov_unit_zero (S := S1x128) _ hz]

/-- At a later point the block's linear part is stored whole. -/
theorem later_lin (c : Dev nD) (i : grid0.Coords) (a1 : Memref sig .tc .vmem S5000x6 .f32) (h1 : a1.IsWhole) (a2 : Memref sig .tc .vmem S5000x6 .f32) (h2 : a2.IsWhole) (a3 : Memref sig .tc .vmem S128x6 .f32) (h3 : a3.IsWhole) (a4 : Memref sig .tc .vmem S1x128 .f32) (h4 : a4.IsWhole) (a5 : Memref sig .tc .vmem S128x6 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond0_0 i) (x0 x1 : Vec F S5000x6 .f32) (x2 : Vec F S128x6 .f32) (x3 : Vec F S1x128 .f32) (x4 : Vec F S128x6 .f32) (xo6 xo7 : Vec F S1x128 .f32) :
    out0_B_5 c i a1 h1 a2 h2 a3 h3 a4 h4 a5 h5 a6 h6 a7 h7 a8 h8 hc x0 x1 x2 x3 x4 xo6 xo7 = k0_pay4 x0 x1 x2 x4 x3 := by
  unfold out0_B_5
  rw [View.read_writes_eq_canon _ _ _ (cover0_B_5 c i a1 h1 a2 h2 a3 h3 a4 h4 a5 h5 a6 h6 a7 h7 a8 h8 hc x0 x1 x2 x3 x4 xo6 xo7)]
  unfold kernelRun0_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x6) hz, View.ld_unit_zero (S := S128x6) hz, View.ld_unit_zero (S := S1x128) hz]

/-- At a later point the running column sums grow by the block's column sums. -/
theorem later_sum (c : Dev nD) (i : grid0.Coords) (a1 : Memref sig .tc .vmem S5000x6 .f32) (h1 : a1.IsWhole) (a2 : Memref sig .tc .vmem S5000x6 .f32) (h2 : a2.IsWhole) (a3 : Memref sig .tc .vmem S128x6 .f32) (h3 : a3.IsWhole) (a4 : Memref sig .tc .vmem S1x128 .f32) (h4 : a4.IsWhole) (a5 : Memref sig .tc .vmem S128x6 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond0_0 i) (x0 x1 : Vec F S5000x6 .f32) (x2 : Vec F S128x6 .f32) (x3 : Vec F S1x128 .f32) (x4 : Vec F S128x6 .f32) (xo6 xo7 : Vec F S1x128 .f32) :
    out0_B_6 c i a1 h1 a2 h2 a3 h3 a4 h4 a5 h5 a6 h6 a7 h7 a8 h8 hc x0 x1 x2 x3 x4 xo6 xo7 = k0_pay5 x0 x1 x2 x4 x3 xo6 := by
  unfold out0_B_6
  rw [View.read_writes_eq_canon _ _ _ (cover0_B_6 c i a1 h1 a2 h2 a3 h3 a4 h4 a5 h5 a6 h6 a7 h7 a8 h8 hc x0 x1 x2 x3 x4 xo6 xo7)]
  unfold kernelRun0_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x6) hz, View.ld_unit_zero (S := S128x6) hz, View.ld_unit_zero (S := S1x128) hz]

/-- At a later point the running column sums of squares grow by the block's. -/
theorem later_sumsq (c : Dev nD) (i : grid0.Coords) (a1 : Memref sig .tc .vmem S5000x6 .f32) (h1 : a1.IsWhole) (a2 : Memref sig .tc .vmem S5000x6 .f32) (h2 : a2.IsWhole) (a3 : Memref sig .tc .vmem S128x6 .f32) (h3 : a3.IsWhole) (a4 : Memref sig .tc .vmem S1x128 .f32) (h4 : a4.IsWhole) (a5 : Memref sig .tc .vmem S128x6 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond0_0 i) (x0 x1 : Vec F S5000x6 .f32) (x2 : Vec F S128x6 .f32) (x3 : Vec F S1x128 .f32) (x4 : Vec F S128x6 .f32) (xo6 xo7 : Vec F S1x128 .f32) :
    out0_B_7 c i a1 h1 a2 h2 a3 h3 a4 h4 a5 h5 a6 h6 a7 h7 a8 h8 hc x0 x1 x2 x3 x4 xo6 xo7 = k0_pay1 (k0_pay6 xo7) (k0_pay7 x0 x1 x2 x4 x3) := by
  unfold out0_B_7
  rw [View.read_writes_eq_canon _ _ _ (cover0_B_7 c i a1 h1 a2 h2 a3 h3 a4 h4 a5 h5 a6 h6 a7 h7 a8 h8 hc x0 x1 x2 x3 x4 xo6 xo7)]
  unfold kernelRun0_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x6) hz, View.ld_unit_zero (S := S128x6) hz, View.ld_unit_zero (S := S1x128) hz]

end Cert.Sage.Pieces0

end
-- ==== Proof.Region0Blocks.lean ====
/-
  The linear-plus-statistics launch, point by point: what its three outputs hold after each grid point, in terms of
  the arrays the launch finds.

  The grid has 20 points; point t reads rows 5000·t … 5000·t + 4999 of the two feature tables and the whole of the two
  weight tables and the bias row. So the linear part of the blocks at point t, at row p of the block, is the linear
  part of the whole tables at row 5000·t + p. The first output holds that block after point t. The two running rows
  hold, after point n, the column sums (of the linear part, and of its squares) over the blocks 0 … n: the zero row
  the first point stores is the neutral element, and each later point adds its block's sums to what the point before
  left — an induction on the point.
-/
import proofs.«101248_j40450001994225_2_alg».proof.Proof.Gen.KernelIdeal.Frame
import proofs.«101248_j40450001994225_2_alg».proof.Proof.Region0Pay
import proofs.«101248_j40450001994225_2_alg».proof.Proof.Region0Pieces
import Idealize.ShloMosaic.Lib.Pipeline.Value

noncomputable section

open scoped BigOperators

namespace Cert.Sage.Region0

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref Cert.KernelIdeal.sig .tc) → Buf (Elt Ideal) ((c : Thread nD τ).loc b))

/-! ## The launch's input arrays, as tables -/

/-- The neighbourhood means. -/
abbrev Am (c : Dev nD) : Tab 100000 6 := V c (Pipeline.arrRef spec0 0)
/-- The features. -/
abbrev Ax (c : Dev nD) : Tab 100000 6 := V c (Pipeline.arrRef spec0 1)
/-- The weights applied to the neighbourhood means. -/
abbrev Awl (c : Dev nD) : Tab 128 6 := V c (Pipeline.arrRef spec0 2)
/-- The bias row. -/
abbrev Ab (c : Dev nD) : Tab 1 128 := V c (Pipeline.arrRef spec0 3)
/-- The weights applied to the features. -/
abbrev Awr (c : Dev nD) : Tab 128 6 := V c (Pipeline.arrRef spec0 4)

/-- The linear part of the whole tables. -/
def G (c : Dev nD) : Tab 100000 128 :=
  lin (Am V c) (Ax V c) (Awl V c) (Awr V c) (fun q => Ab V c (ix2 0 q))

/-! ## The index maps, decided over the grid -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-! ## The blocks read off the arrays -/

theorem blk_m (c : Dev nD) (t : Fin cfg0.N) (p : Fin 5000) (j : Fin 6) (hr : t.val * 5000 + p.val < 100000) :
    (iblk0 V c 0 t : Vec Ideal S5000x6 .f32) (ix2 p j) = Am V c (ix2 ⟨t.val * 5000 + p.val, hr⟩ j) := by
  unfold iblk0
  rw [View.read_apply]
  show V c (Pipeline.arrRef spec0 0) _ = V c (Pipeline.arrRef spec0 0) _
  congr 1
  funext a
  apply Fin.ext
  obtain ⟨e0, e1, -⟩ := idx_facts t
  match a with
  | ⟨0, _⟩ => show win0_0.index t (0 : Fin 2) * 5000 + 1 * p.val = t.val * 5000 + p.val; rw [e0]; omega
  | ⟨1, _⟩ => show win0_0.index t (1 : Fin 2) * 6 + 1 * j.val = j.val; rw [e1]; omega

theorem blk_x (c : Dev nD) (t : Fin cfg0.N) (p : Fin 5000) (j : Fin 6) (hr : t.val * 5000 + p.val < 100000) :
    (iblk0 V c 1 t : Vec Ideal S5000x6 .f32) (ix2 p j) = Ax V c (ix2 ⟨t.val * 5000 + p.val, hr⟩ j) := by
  unfold iblk0
  rw [View.read_apply]
  show V c (Pipeline.arrRef spec0 1) _ = V c (Pipeline.arrRef spec0 1) _
  congr 1
  funext a
  apply Fin.ext
  obtain ⟨-, -, e0, e1, -⟩ := idx_facts t
  match a with
  | ⟨0, _⟩ => show win0_1.index t (0 : Fin 2) * 5000 + 1 * p.val = t.val * 5000 + p.val; rw [e0]; omega
  | ⟨1, _⟩ => show win0_1.index t (1 : Fin 2) * 6 + 1 * j.val = j.val; rw [e1]; omega

theorem blk_wl (c : Dev nD) (t : Fin cfg0.N) (q : Fin 128) (j : Fin 6) :
    (iblk0 V c 2 t : Vec Ideal S128x6 .f32) (ix2 q j) = Awl V c (ix2 q j) := by
  unfold iblk0
  rw [View.read_apply]
  show V c (Pipeline.arrRef spec0 2) _ = V c (Pipeline.arrRef spec0 2) _
  congr 1
  funext a
  apply Fin.ext
  obtain ⟨-, -, -, -, e0, e1, -⟩ := idx_facts t
  match a with
  | ⟨0, _⟩ => show win0_2.index t (0 : Fin 2) * 128 + 1 * q.val = q.val; rw [e0]; omega
  | ⟨1, _⟩ => show win0_2.index t (1 : Fin 2) * 6 + 1 * j.val = j.val; rw [e1]; omega

theorem blk_b (c : Dev nD) (t : Fin cfg0.N) (q : Fin 128) :
    (iblk0 V c 3 t : Vec Ideal S1x128 .f32) (ix2 0 q) = Ab V c (ix2 0 q) := by
  unfold iblk0
  rw [View.read_apply]
  show V c (Pipeline.arrRef spec0 3) _ = V c (Pipeline.arrRef spec0 3) _
  congr 1
  funext a
  apply Fin.ext
  obtain ⟨-, -, -, -, -, -, e0, e1, -⟩ := idx_facts t
  match a with
  | ⟨0, _⟩ => show win0_3.index t (0 : Fin 2) * 1 + 1 * 0 = 0; rw [e0]
  | ⟨1, _⟩ => show win0_3.index t (1 : Fin 2) * 128 + 1 * q.val = q.val; rw [e1]; omega

theorem blk_wr (c : Dev nD) (t : Fin cfg0.N) (q : Fin 128) (j : Fin 6) :
    (iblk0 V c 4 t : Vec Ideal S128x6 .f32) (ix2 q j) = Awr V c (ix2 q j) := by
  unfold iblk0
  rw [View.read_apply]
  show V c (Pipeline.arrRef spec0 4) _ = V c (Pipeline.arrRef spec0 4) _
  congr 1
  funext a
  apply Fin.ext
  obtain ⟨-, -, -, -, -, -, -, -, e0, e1, -⟩ := idx_facts t
  match a with
  | ⟨0, _⟩ => show win0_4.index t (0 : Fin 2) * 128 + 1 * q.val = q.val; rw [e0]; omega
  | ⟨1, _⟩ => show win0_4.index t (1 : Fin 2) * 6 + 1 * j.val = j.val; rw [e1]; omega

/-- The linear part of point t's blocks. -/
abbrev blkLin (c : Dev nD) (t : Fin cfg0.N) : FVec Ideal S5000x128 .f32 :=
  k0_pay4 (F := Ideal) (iblk0 V c 0 t) (iblk0 V c 1 t) (iblk0 V c 2 t) (iblk0 V c 4 t) (iblk0 V c 3 t)

/-- Row p of point t's block of the linear part is row 5000·t + p of the whole tables' linear part. -/
theorem blk_lin (c : Dev nD) (t : Fin cfg0.N) (p : Fin 5000) (q : Fin 128) (hr : t.val * 5000 + p.val < 100000) :
    blkLin V c t (ix2 p q) = G V c (ix2 ⟨t.val * 5000 + p.val, hr⟩ q) := by
  refine (linear_apply (iblk0 V c 0 t) (iblk0 V c 1 t) (iblk0 V c 2 t) (iblk0 V c 4 t) (iblk0 V c 3 t) p q).trans ?_
  unfold G
  rw [lin_apply]
  unfold linAt
  refine congrArg₂ (· + ·) (congrArg₂ (· + ·) (Finset.sum_congr rfl fun j _ => ?_) (Finset.sum_congr rfl fun j _ => ?_)) ?_
  · exact congrArg₂ (· * ·) (blk_m V c t p j hr) (blk_wl V c t q j)
  · exact congrArg₂ (· * ·) (blk_x V c t p j hr) (blk_wr V c t q j)
  · exact blk_b V c t q

/-! ## The outputs after each point -/

/-- The first output after point t: the linear part of the point's blocks. -/
theorem lin_at (c : Dev nD) (t : Fin cfg0.N) : (outsAt0 V c t.val t.isLt).1 = blkLin V c t := by
  by_cases h0 : t.val % 20 = 0
  · rw [outsAt0_A V c t h0]
    dsimp only
    rw [Pieces0.first_lin]
  · rw [outsAt0_B V c t h0]
    dsimp only
    rw [Pieces0.later_lin]

/-- Block t's column sum at column q (0 beyond the grid). -/
def blkSum (c : Dev nD) (q : Fin 128) (t : ℕ) : EReal :=
  if h : t < cfg0.N then ∑ p : Fin 5000, blkLin V c ⟨t, h⟩ (ix2 p q) else 0

/-- Block t's column sum of squares at column q (0 beyond the grid). -/
def blkSumSq (c : Dev nD) (q : Fin 128) (t : ℕ) : EReal :=
  if h : t < cfg0.N then ∑ p : Fin 5000, blkLin V c ⟨t, h⟩ (ix2 p q) * blkLin V c ⟨t, h⟩ (ix2 p q) else 0

/-- The first running row after point n: the column sums over blocks 0 … n. -/
theorem sum_at (c : Dev nD) (q : Fin 128) : ∀ (n : ℕ) (h : n < cfg0.N),
    (outsAt0 V c n h).2.1 (ix2 0 q) = ∑ t ∈ Finset.range (n + 1), blkSum V c q t
  | 0, h => by
    rw [outsAt0_A V c ⟨0, h⟩ rfl]
    dsimp only
    rw [Pieces0.first_sum]
    refine (colsum_apply _ _ _ _ _ _ q).trans ?_
    rw [zero_row_apply, zero_add, Finset.sum_range_one]
    unfold blkSum
    rw [dif_pos h]
  | n + 1, h => by
    have hN : cfg0.N = 20 := N_0
    have hB : ¬(⟨n + 1, h⟩ : Fin cfg0.N).val % 20 = 0 := by dsimp only; omega
    rw [outsAt0_B V c ⟨n + 1, h⟩ hB]
    dsimp only
    rw [Pieces0.later_sum]
    refine (colsum_apply _ _ _ _ _ _ q).trans ?_
    rw [Finset.sum_range_succ _ (n + 1)]
    refine congrArg₂ (· + ·) (sum_at c q n _) ?_
    unfold blkSum
    rw [dif_pos h]

/-- The second running row after point n: the column sums of squares over blocks 0 … n. -/
theorem sumsq_at (c : Dev nD) (q : Fin 128) : ∀ (n : ℕ) (h : n < cfg0.N),
    (outsAt0 V c n h).2.2 (ix2 0 q) = ∑ t ∈ Finset.range (n + 1), blkSumSq V c q t
  | 0, h => by
    rw [outsAt0_A V c ⟨0, h⟩ rfl]
    dsimp only
    rw [Pieces0.first_sumsq]
    refine (colsumsq_apply _ _ _ _ _ _ q).trans ?_
    rw [zero_row_apply', zero_add, Finset.sum_range_one]
    unfold blkSumSq
    rw [dif_pos h]
  | n + 1, h => by
    have hN : cfg0.N = 20 := N_0
    have hB : ¬(⟨n + 1, h⟩ : Fin cfg0.N).val % 20 = 0 := by dsimp only; omega
    rw [outsAt0_B V c ⟨n + 1, h⟩ hB]
    dsimp only
    rw [Pieces0.later_sumsq]
    refine (colsumsq_apply _ _ _ _ _ _ q).trans ?_
    rw [Finset.sum_range_succ _ (n + 1)]
    refine congrArg₂ (· + ·) (sumsq_at c q n _) ?_
    unfold blkSumSq
    rw [dif_pos h]

end Cert.Sage.Region0

end
-- ==== Proof.LibBlockSum.lean ====
/-
  A sum over a long one-axis index set, cut into equal blocks.

  An array of `N = a * b` entries laid out in `a` consecutive blocks of `b` entries has entry `i * b + j` at offset `j` of
  block `i`; so a sum over all `N` entries is the sum over the blocks of the sum over the offsets. Cutting twice
  (`N = a * b * c`: blocks of rows of lanes) gives a triple sum with entry `(t * b + r) * c + l` at lane `l` of row `r` of
  block `t`. The sums are in any commutative monoid: only the order and grouping of the terms change.
-/
import Mathlib.Algebra.BigOperators.Fin
import Mathlib.Logic.Equiv.Fin.Basic
import Idealize.ShloMosaic.Lib.ValueIdx

noncomputable section

open scoped BigOperators

namespace Cert.Lib.BlockSum

open Idealize.ShloMosaic Idealize.ShloMosaic.ValueIdx

/-- Offset `j` of block `i`, of `a` blocks of length `b`, is a position below `a * b`. -/
theorem blockPos_lt {a b N : ℕ} (hN : a * b = N) (i : Fin a) (j : Fin b) : i.val * b + j.val < N := by
  subst hN
  calc i.val * b + j.val < i.val * b + b := by have := j.isLt; omega
    _ = (i.val + 1) * b := by ring
    _ ≤ a * b := Nat.mul_le_mul_right b i.isLt

/-- A sum over `a * b` positions is the sum over the `a` blocks of the sum over the `b` offsets. -/
theorem sum_fin_blocks {A : Type*} [AddCommMonoid A] {a b N : ℕ} (hN : a * b = N) (f : Fin N → A) :
    ∑ k, f k = ∑ i : Fin a, ∑ j : Fin b, f ⟨i.val * b + j.val, blockPos_lt hN i j⟩ := by
  subst hN
  rw [← Equiv.sum_comp finProdFinEquiv f, Fintype.sum_prod_type]
  refine Finset.sum_congr rfl fun i _ => Finset.sum_congr rfl fun j _ => congrArg f (Fin.ext ?_)
  show j.val + b * i.val = i.val * b + j.val
  rw [Nat.mul_comm]; omega

/-- A rank-1 index set is its coordinate's range, so a sum over it is the sum over the coordinate. -/
theorem sum_idx1 {A : Type*} [AddCommMonoid A] {n : ℕ} (f : (⟨1, ![n]⟩ : Shape).Idx → A) :
    ∑ i, f i = ∑ k : Fin n, f (ix1 k) := by
  let e : (⟨1, ![n]⟩ : Shape).Idx ≃ Fin n :=
    { toFun := fun i => i 0, invFun := fun k => ix1 k, left_inv := fun i => (eq_ix1 i).symm, right_inv := fun _ => rfl }
  rw [← Equiv.sum_comp e.symm f]
  rfl

/-- Lane `l` of row `r` of block `t`, of `a` blocks of `b` rows of `c` lanes, is a position below `a * b * c`. -/
theorem lanePos_lt {a b c N : ℕ} (hN : a * b * c = N) (t : Fin a) (r : Fin b) (l : Fin c) :
    (t.val * b + r.val) * c + l.val < N :=
  blockPos_lt (a := a * b) hN ⟨t.val * b + r.val, blockPos_lt rfl t r⟩ l

/-- A sum over a one-axis index set of `a * b * c` entries is the triple sum over blocks, rows and lanes. -/
theorem sum_idx1_blocks {A : Type*} [AddCommMonoid A] {a b c N : ℕ} (hN : a * b * c = N)
    (f : (⟨1, ![N]⟩ : Shape).Idx → A) :
    ∑ i, f i = ∑ t : Fin a, ∑ r : Fin b, ∑ l : Fin c, f (ix1 ⟨(t.val * b + r.val) * c + l.val, lanePos_lt hN t r l⟩) := by
  rw [sum_idx1, sum_fin_blocks (a := a * b) (b := c) hN, sum_fin_blocks (a := a) (b := b) (N := a * b) rfl]

end Cert.Lib.BlockSum

end
-- ==== Proof.Region0.lean ====
/-
  The linear-plus-statistics launch: what its three result arrays hold when it ends.

  Every grid point writes its block of the first result back, and the blocks tile the 100000 rows (row r lies in
  block r / 5000), so the first result array ends as the linear part of the whole tables. The two running rows are
  written back once, after the last point, when they hold the sums over all 20 blocks; 20 blocks of 5000 rows are the
  100000 rows, so these are the column sums of the whole linear part and of its squares.
-/
import proofs.«101248_j40450001994225_2_alg».proof.Proof.Region0Blocks
import proofs.«101248_j40450001994225_2_alg».proof.Proof.LibBlockSum

noncomputable section

open scoped BigOperators

namespace Cert.Sage.Region0

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref Cert.KernelIdeal.sig .tc) → Buf (Elt Ideal) ((c : Thread nD τ).loc b))

/-! ## The first result: block by block -/

theorem mem_blk_lin (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v26_0).slice (win0_5.rect t)).set ↔ _
  rw [View.set_slice_whole, Rect.mem_set_unit]
  exact Iff.rfl

theorem flushed_lin_apply (c : Dev nD) (t : Fin cfg0.N) (y : S5000x128.Idx) :
    blkLin V c t y = G V c (((cfg0.win 5).blk t).view.emb y) := by
  obtain ⟨p, q, rfl⟩ : ∃ (p : Fin 5000) (q : Fin 128), y = ix2 p q := ⟨y 0, y 1, eq_ix2 y⟩
  have hN : cfg0.N = 20 := N_0
  have hr : t.val * 5000 + p.val < 100000 := by have := t.isLt; have := p.isLt; omega
  refine (blk_lin V c t p q hr).trans ?_
  congr 1
  funext a
  apply Fin.ext
  obtain ⟨-, -, -, -, -, -, -, -, -, -, e0, e1, -⟩ := idx_facts t
  match a with
  | ⟨0, _⟩ => show t.val * 5000 + p.val = win0_5.index t (0 : Fin 2) * 5000 + 1 * p.val; rw [e0]; omega
  | ⟨1, _⟩ => show q.val = win0_5.index t (1 : Fin 2) * 128 + 1 * q.val; rw [e1]; omega

/-- What point t writes back of the first result is block t of the whole tables' linear part. -/
theorem flushed_lin (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5, lin_at]
  funext y
  rw [View.read_apply]
  exact flushed_lin_apply V c t y

theorem cover_lin (i : S100000x128.Idx) :
    ∃ t : Fin cfg0.N, (cfg0.win 5).flush t = true ∧ i ∈ ((cfg0.win 5).blk t).view.set := by
  have hN : cfg0.N = 20 := N_0
  have hi0 : (i 0).val < 100000 := (i 0).isLt
  have hi1 : (i 1).val < 128 := (i 1).isLt
  have ht : (i 0).val / 5000 < cfg0.N := by omega
  refine ⟨⟨(i 0).val / 5000, ht⟩, flush0_5 _, ?_⟩
  rw [mem_blk_lin]
  obtain ⟨-, -, -, -, -, -, -, -, -, -, e0, e1, -⟩ := idx_facts (⟨(i 0).val / 5000, ht⟩ : Fin cfg0.N)
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [e0]; dsimp only; omega
  | ⟨1, _⟩ =>
    show win0_5.index ⟨(i 0).val / 5000, ht⟩ (1 : Fin 2) * 128 ≤ (i 1).val
      ∧ (i 1).val < win0_5.index ⟨(i 0).val / 5000, ht⟩ (1 : Fin 2) * 128 + 128
    rw [e1]; omega

/-- The first result array ends as the linear part of the whole tables. -/
theorem final_lin (c : Dev nD) : (dat0 V c).arrAt 5 cfg0.N = G V c :=
  (dat0 V c).arrAt_eq_of_cover 5 (G V c) (fun t _ => flushed_lin V c t) cover_lin

/-! ## The two running rows: written back after the last point -/

/-- The column sums of the whole linear part, as a one-row table. -/
def colSums (c : Dev nD) : Tab 1 128 := fun i => colSum (G V c) (i 1)
/-- The column sums of its squares, as a one-row table. -/
def colSumsSq (c : Dev nD) : Tab 1 128 := fun i => colSumSq (G V c) (i 1)

/-- The sums over the 20 blocks are the sums over the 100000 rows. -/
theorem blocks_sum (c : Dev nD) (q : Fin 128) : ∑ t ∈ Finset.range 20, blkSum V c q t = colSum (G V c) q := by
  have hN : cfg0.N = 20 := N_0
  unfold colSum
  rw [Cert.Lib.BlockSum.sum_fin_blocks (a := 20) (b := 5000) (by norm_num : 20 * 5000 = 100000)]
  refine (Fin.sum_univ_eq_sum_range (fun t => blkSum V c q t) 20).symm.trans ?_
  refine Finset.sum_congr rfl fun t _ => ?_
  have ht : t.val < cfg0.N := by have := t.isLt; omega
  unfold blkSum
  rw [dif_pos ht]
  refine Finset.sum_congr rfl fun p _ => ?_
  exact blk_lin V c ⟨t.val, ht⟩ p q _

theorem blocks_sumsq (c : Dev nD) (q : Fin 128) : ∑ t ∈ Finset.range 20, blkSumSq V c q t = colSumSq (G V c) q := by
  have hN : cfg0.N = 20 := N_0
  unfold colSumSq
  rw [Cert.Lib.BlockSum.sum_fin_blocks (a := 20) (b := 5000) (by norm_num : 20 * 5000 = 100000)]
  refine (Fin.sum_univ_eq_sum_range (fun t => blkSumSq V c q t) 20).symm.trans ?_
  refine Finset.sum_congr rfl fun t _ => ?_
  have ht : t.val < cfg0.N := by have := t.isLt; omega
  unfold blkSumSq
  rw [dif_pos ht]
  refine Finset.sum_congr rfl fun p _ => ?_
  exact congrArg₂ (· * ·) (blk_lin V c ⟨t.val, ht⟩ p q _) (blk_lin V c ⟨t.val, ht⟩ p q _)

theorem flushed_sum_apply (c : Dev nD) (t : Fin cfg0.N) (h19 : t.val = 19) (y : S1x128.Idx) :
    (outsAt0 V c t.val t.isLt).2.1 y = colSums V c (((cfg0.win 6).blk t).view.emb y) := by
  obtain ⟨z, q, rfl⟩ : ∃ (z : Fin 1) (q : Fin 128), y = ix2 z q := ⟨y 0, y 1, eq_ix2 y⟩
  obtain rfl : z = 0 := Subsingleton.elim _ _
  rw [sum_at V c q t.val t.isLt]
  obtain ⟨-, -, -, -, -, -, -, -, -, -, -, -, e0, e1, -⟩ := idx_facts t
  have hq : colSums V c (((cfg0.win 6).blk t).view.emb (ix2 0 q)) = colSum (G V c) q := by
    unfold colSums
    congr 1
    apply Fin.ext
    show win0_6.index t (1 : Fin 2) * 128 + 1 * q.val = q.val
    rw [e1]; omega
  rw [hq]
  exact (congrArg (fun n => ∑ s ∈ Finset.range n, blkSum V c q s) (by omega : t.val + 1 = 20)).trans (blocks_sum V c q)

theorem flushed_sumsq_apply (c : Dev nD) (t : Fin cfg0.N) (h19 : t.val = 19) (y : S1x128.Idx) :
    (outsAt0 V c t.val t.isLt).2.2 y = colSumsSq V c (((cfg0.win 7).blk t).view.emb y) := by
  obtain ⟨z, q, rfl⟩ : ∃ (z : Fin 1) (q : Fin 128), y = ix2 z q := ⟨y 0, y 1, eq_ix2 y⟩
  obtain rfl : z = 0 := Subsingleton.elim _ _
  rw [sumsq_at V c q t.val t.isLt]
  obtain ⟨-, -, -, -, -, -, -, -, -, -, -, -, -, -, e0, e1⟩ := idx_facts t
  have hq : colSumsSq V c (((cfg0.win 7).blk t).view.emb (ix2 0 q)) = colSumSq (G V c) q := by
    unfold colSumsSq
    congr 1
    apply Fin.ext
    show win0_7.index t (1 : Fin 2) * 128 + 1 * q.val = q.val
    rw [e1]; omega
  rw [hq]
  exact (congrArg (fun n => ∑ s ∈ Finset.range n, blkSumSq V c q s) (by omega : t.val + 1 = 20)).trans (blocks_sumsq V c q)

set_option maxRecDepth 1000000 in
/-- The one write-back of the first running row, after the last point, writes the column sums. -/
theorem flushed_sum (c : Dev nD) (t : Fin cfg0.N) (hf : (cfg0.win 6).flush t = true) :
    (dat0 V c).flushed 6 t = ((cfg0.win 6).blk t).view.read (Elt Ideal) (colSums V c) := by
  have hN : cfg0.N = 20 := N_0
  have h19 : t.val = 19 := by have := (flush0_6 t).mp hf; have := t.isLt; omega
  show (cfg0.win 6).cut (grid0.coords t) ((dat0 V c).after 6 t) = _
  rw [after0_6]
  funext y
  rw [View.read_apply]
  exact flushed_sum_apply V c t h19 y

set_option maxRecDepth 1000000 in
/-- The one write-back of the second running row writes the column sums of squares. -/
theorem flushed_sumsq (c : Dev nD) (t : Fin cfg0.N) (hf : (cfg0.win 7).flush t = true) :
    (dat0 V c).flushed 7 t = ((cfg0.win 7).blk t).view.read (Elt Ideal) (colSumsSq V c) := by
  have hN : cfg0.N = 20 := N_0
  have h19 : t.val = 19 := by have := (flush0_7 t).mp hf; have := t.isLt; omega
  show (cfg0.win 7).cut (grid0.coords t) ((dat0 V c).after 7 t) = _
  rw [after0_7]
  funext y
  rw [View.read_apply]
  exact flushed_sumsq_apply V c t h19 y

theorem cover_sum (i : S1x128.Idx) :
    ∃ t : Fin cfg0.N, (cfg0.win 6).flush t = true ∧ i ∈ ((cfg0.win 6).blk t).view.set := by
  have hN : cfg0.N = 20 := N_0
  have ht : 19 < cfg0.N := by omega
  refine ⟨⟨19, ht⟩, (flush0_6 _).mpr rfl, ?_⟩
  show i ∈ ((View.whole main_v26_1).slice (win0_6.rect ⟨19, ht⟩)).set
  rw [View.set_slice_whole, Rect.mem_set_unit]
  obtain ⟨-, -, -, -, -, -, -, -, -, -, -, -, e0, e1, -⟩ := idx_facts (⟨19, ht⟩ : Fin cfg0.N)
  have h0 : (i 0).val < 1 := (i 0).isLt
  have h1 : (i 1).val < 128 := (i 1).isLt
  intro a
  match a with
  | ⟨0, _⟩ =>
    show win0_6.index ⟨19, ht⟩ (0 : Fin 2) * 1 ≤ (i 0).val ∧ (i 0).val < win0_6.index ⟨19, ht⟩ (0 : Fin 2) * 1 + 1
    rw [e0]; omega
  | ⟨1, _⟩ =>
    show win0_6.index ⟨19, ht⟩ (1 : Fin 2) * 128 ≤ (i 1).val ∧ (i 1).val < win0_6.index ⟨19, ht⟩ (1 : Fin 2) * 128 + 128
    rw [e1]; omega

theorem cover_sumsq (i : S1x128.Idx) :
    ∃ t : Fin cfg0.N, (cfg0.win 7).flush t = true ∧ i ∈ ((cfg0.win 7).blk t).view.set := by
  have hN : cfg0.N = 20 := N_0
  have ht : 19 < cfg0.N := by omega
  refine ⟨⟨19, ht⟩, (flush0_7 _).mpr rfl, ?_⟩
  show i ∈ ((View.whole main_v26_2).slice (win0_7.rect ⟨19, ht⟩)).set
  rw [View.set_slice_whole, Rect.mem_set_unit]
  obtain ⟨-, -, -, -, -, -, -, -, -, -, -, -, -, -, e0, e1⟩ := idx_facts (⟨19, ht⟩ : Fin cfg0.N)
  have h0 : (i 0).val < 1 := (i 0).isLt
  have h1 : (i 1).val < 128 := (i 1).isLt
  intro a
  match a with
  | ⟨0, _⟩ =>
    show win0_7.index ⟨19, ht⟩ (0 : Fin 2) * 1 ≤ (i 0).val ∧ (i 0).val < win0_7.index ⟨19, ht⟩ (0 : Fin 2) * 1 + 1
    rw [e0]; omega
  | ⟨1, _⟩ =>
    show win0_7.index ⟨19, ht⟩ (1 : Fin 2) * 128 ≤ (i 1).val ∧ (i 1).val < win0_7.index ⟨19, ht⟩ (1 : Fin 2) * 128 + 128
    rw [e1]; omega

/-- The second result array ends as the column sums of the whole linear part. -/
theorem final_sum (c : Dev nD) : (dat0 V c).arrAt 6 cfg0.N = colSums V c :=
  (dat0 V c).arrAt_eq_of_cover 6 (colSums V c) (flushed_sum V c) cover_sum

/-- The third result array ends as the column sums of its squares. -/
theorem final_sumsq (c : Dev nD) : (dat0 V c).arrAt 7 cfg0.N = colSumsSq V c :=
  (dat0 V c).arrAt_eq_of_cover 7 (colSumsSq V c) (flushed_sumsq V c) cover_sumsq

end Cert.Sage.Region0

end
-- ==== Proof.Region1.lean ====
/-
  Region 1: normalisation by given column statistics, scale, shift and the cut-off at 0, over a table of 100000 rows
  and 128 columns that is worked through in 20 blocks of 5000 rows.

  At each block the body reads the block's 5000 rows and the four one-row tables whole (the column means, the column
  variances, the scales, the shifts), and leaves in the output block, at row p and column q,
      max ((((h(p,q) - mean(q)) * rsqrt (var(q) + stabiliser)) * scale(q)) + shift(q)) 0.
  Block t of the input and block t of the output are rows 5000 t … 5000 t + 4999, so the entry written at row p of
  block t is the entry of the whole table at row 5000 t + p; every row r lies in block r / 5000; hence the output table
  ends, entry by entry, as that one function of the five input tables.
-/
import proofs.«101248_j40450001994225_2_alg».proof.Proof.Gen.KernelIdeal.Frame
import proofs.«101248_j40450001994225_2_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.ShloMosaic.ValueIdx Idealize.SL.Sem
open Idealize.ShloMosaic.Pipeline (Dat)

namespace Cert.Sage.Region1

open Cert.KernelIdeal Cert.KernelIdeal.Gen

-- The contents of the buffers when the region is entered (the buffer signature is the program's, not the logistic
-- function of the specification, which shares its short name).
variable (V : (c : Dev nD) → (b : Ref Cert.KernelIdeal.sig .tc) → Buf (Elt Ideal) ((c : Thread nD τ).loc b))

/-- The zero offsets of a whole-block access. -/
theorem hz : (![0, 0] : Fin 2 → Nat) = fun _ => 0 := funext fun a => by fin_cases a <;> rfl

/-! ## The body's result at one entry -/

/-- A one-row table spread down 5000 rows reads, at row p and column q, its entry in column q. -/
theorem spread_row (x : Vec Ideal S1x128 .f32) (h : S1x128.Broadcasts S5000x128) (p : Fin 5000) (q : Fin 128) :
    broadcastTo S5000x128 x h (ix2 p q) = x (ix2 0 q) := by
  refine broadcastTo_apply x h (ix2 p q) (ix2 0 q) fun a => ?_
  match a with
  | ⟨0, _⟩ => rfl
  | ⟨1, _⟩ => rfl

/-- What the body stores at row p, column q of a block: the block's entry there, normalised by the mean and variance
    of column q, scaled, shifted and cut off at 0. (The body reads the variance row before the mean row.) -/
theorem pay_apply (h : Vec Ideal S5000x128 .f32) (mean var scale shift : Vec Ideal S1x128 .f32) (p : Fin 5000) (q : Fin 128) :
    k1_pay1 (F := Ideal) h var mean scale shift (ix2 p q)
      = bnAt (h (ix2 p q)) (mean (ix2 0 q)) (var (ix2 0 q)) (scale (ix2 0 q)) (shift (ix2 0 q)) := by
  unfold k1_pay1 bnAt
  simp only [shapeCast_self]
  rw [maximumf_apply, addf_apply, mulf_apply, mulf_apply, subf_apply, spread_row, spread_row, spread_row, spread_row,
    broadcast_apply]
  show max (_ * Ideal.rsqrt (var (ix2 0 q) + Ideal.ofBits .f32 0x3727C5AC#32) * _ + _) (Ideal.ofBits .f32 0x00000000#32) = _
  rw [Ideal.ofBits_zero_f32]

/-! ## From the blocks to the table -/

/-- The input table's block moves down one block of 5000 rows per point. -/
theorem idx_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
/-- The mean row stays. -/
theorem idx_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
/-- The variance row stays. -/
theorem idx_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
/-- The scale row stays. -/
theorem idx_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
/-- The shift row stays. -/
theorem idx_4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)
/-- The output table's block moves down one block of 5000 rows per point. -/
theorem idx_5 : ∀ t : Fin cfg1.N, win1_5.index t (0 : Fin 2) = t.val ∧ win1_5.index t (1 : Fin 2) = 0 :=
  (by decide +kernel : ∀ t : Fin grid1.N, win1_5.index t (0 : Fin 2) = t.val ∧ win1_5.index t (1 : Fin 2) = 0)

/-- Row p of block t of the input table is row 5000 t + p of the table. -/
theorem rows_h (c : Dev nD) (t : Fin cfg1.N) (p : Fin 5000) (q : Fin 128) (r : Fin 100000) (hr : r.val = 5000 * t.val + p.val) :
    (iblk1 V c 0 t : Vec Ideal S5000x128 .f32) (ix2 p q) = (V c (Pipeline.arrRef spec1 0) : Tab 100000 128) (ix2 r q) := by
  obtain ⟨e0, e1⟩ := idx_0 t
  show V c (Pipeline.arrRef spec1 0) (((cfg1.win 0).blk t).view.emb (ix2 p q)) = V c (Pipeline.arrRef spec1 0) (ix2 r q)
  refine congrArg _ (funext fun a => Fin.ext ?_)
  match a with
  | ⟨0, _⟩ => show win1_0.index t (0 : Fin 2) * 5000 + 1 * p.val = r.val; omega
  | ⟨1, _⟩ => show win1_0.index t (1 : Fin 2) * 128 + 1 * q.val = q.val; omega

/-- The mean row's block is the whole row at every point. -/
theorem row_1 (c : Dev nD) (t : Fin cfg1.N) (q : Fin 128) :
    (iblk1 V c 1 t : Vec Ideal S1x128 .f32) (ix2 0 q) = (V c (Pipeline.arrRef spec1 1) : Tab 1 128) (ix2 0 q) := by
  obtain ⟨e0, e1⟩ := idx_1 t
  show V c (Pipeline.arrRef spec1 1) (((cfg1.win 1).blk t).view.emb (ix2 0 q)) = V c (Pipeline.arrRef spec1 1) (ix2 0 q)
  refine congrArg _ (funext fun a => Fin.ext ?_)
  match a with
  | ⟨0, _⟩ => show win1_1.index t (0 : Fin 2) * 1 + 1 * 0 = 0; omega
  | ⟨1, _⟩ => show win1_1.index t (1 : Fin 2) * 128 + 1 * q.val = q.val; omega

/-- The variance row's block is the whole row at every point. -/
theorem row_2 (c : Dev nD) (t : Fin cfg1.N) (q : Fin 128) :
    (iblk1 V c 2 t : Vec Ideal S1x128 .f32) (ix2 0 q) = (V c (Pipeline.arrRef spec1 2) : Tab 1 128) (ix2 0 q) := by
  obtain ⟨e0, e1⟩ := idx_2 t
  show V c (Pipeline.arrRef spec1 2) (((cfg1.win 2).blk t).view.emb (ix2 0 q)) = V c (Pipeline.arrRef spec1 2) (ix2 0 q)
  refine congrArg _ (funext fun a => Fin.ext ?_)
  match a with
  | ⟨0, _⟩ => show win1_2.index t (0 : Fin 2) * 1 + 1 * 0 = 0; omega
  | ⟨1, _⟩ => show win1_2.index t (1 : Fin 2) * 128 + 1 * q.val = q.val; omega

/-- The scale row's block is the whole row at every point. -/
theorem row_3 (c : Dev nD) (t : Fin cfg1.N) (q : Fin 128) :
    (iblk1 V c 3 t : Vec Ideal S1x128 .f32) (ix2 0 q) = (V c (Pipeline.arrRef spec1 3) : Tab 1 128) (ix2 0 q) := by
  obtain ⟨e0, e1⟩ := idx_3 t
  show V c (Pipeline.arrRef spec1 3) (((cfg1.win 3).blk t).view.emb (ix2 0 q)) = V c (Pipeline.arrRef spec1 3) (ix2 0 q)
  refine congrArg _ (funext fun a => Fin.ext ?_)
  match a with
  | ⟨0, _⟩ => show win1_3.index t (0 : Fin 2) * 1 + 1 * 0 = 0; omega
  | ⟨1, _⟩ => show win1_3.index t (1 : Fin 2) * 128 + 1 * q.val = q.val; omega

/-- The shift row's block is the whole row at every point. -/
theorem row_4 (c : Dev nD) (t : Fin cfg1.N) (q : Fin 128) :
    (iblk1 V c 4 t : Vec Ideal S1x128 .f32) (ix2 0 q) = (V c (Pipeline.arrRef spec1 4) : Tab 1 128) (ix2 0 q) := by
  obtain ⟨e0, e1⟩ := idx_4 t
  show V c (Pipeline.arrRef spec1 4) (((cfg1.win 4).blk t).view.emb (ix2 0 q)) = V c (Pipeline.arrRef spec1 4) (ix2 0 q)
  refine congrArg _ (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

/-- The whole output table: `bnTab` of the five input tables as the region finds them. -/
abbrev result (c : Dev nD) : Tab 100000 128 :=
  bnTab (V c (Pipeline.arrRef spec1 0)) (V c (Pipeline.arrRef spec1 1)) (V c (Pipeline.arrRef spec1 2))
    (V c (Pipeline.arrRef spec1 3)) (V c (Pipeline.arrRef spec1 4))

/-- Entry (p, q) of block t of the output table is entry (5000 t + p, q) of the table. -/
theorem out_emb (t : Fin cfg1.N) (p : Fin 5000) (q : Fin 128) (r : Fin 100000) (hr : r.val = 5000 * t.val + p.val) :
    (((cfg1.win 5).blk t).view.emb (ix2 p q) : S100000x128.Idx) = ix2 r q := by
  obtain ⟨e0, e1⟩ := idx_5 t
  refine funext fun a => Fin.ext ?_
  match a with
  | ⟨0, _⟩ => show win1_5.index t (0 : Fin 2) * 5000 + 1 * p.val = r.val; omega
  | ⟨1, _⟩ => show win1_5.index t (1 : Fin 2) * 128 + 1 * q.val = q.val; omega

/-- What point t writes back is block t of the whole output table. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S1x128) hz]
  funext j
  obtain ⟨p, q, rfl⟩ : ∃ (p : Fin 5000) (q : Fin 128), j = ix2 p q := ⟨j 0, j 1, eq_ix2 j⟩
  have hN : cfg1.N = 20 := N_1
  have ht : t.val < 20 := hN ▸ t.isLt
  have hp : p.val < 5000 := p.isLt
  refine (pay_apply (iblk1 V c 0 t) (iblk1 V c 1 t) (iblk1 V c 2 t) (iblk1 V c 3 t) (iblk1 V c 4 t) p q).trans ?_
  rw [rows_h V c t p q ⟨5000 * t.val + p.val, by omega⟩ rfl, row_1 V c t q, row_2 V c t q, row_3 V c t q, row_4 V c t q]
  show _ = result V c (((cfg1.win 5).blk t).view.emb (ix2 p q))
  rw [out_emb t p q ⟨5000 * t.val + p.val, by omega⟩ rfl]
  rfl

/-- An entry of the output table is in point t's block iff its row is among the block's 5000 rows. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v37).slice (win1_5.rect t)).set ↔ _
  rw [View.set_slice_whole, Rect.mem_set_unit]
  exact Iff.rfl

/-- Every entry of the output table is written: row r by point r / 5000. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨e50, e51⟩ := idx_5 ⟨(i 0).val / 5000, ht⟩
  refine ⟨⟨(i 0).val / 5000, ht⟩, flush1_5 _, ?_⟩
  rw [mem_blk]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win1_5.index ⟨(i 0).val / 5000, ht⟩ (1 : Fin 2) * 128 ≤ (i 1).val ∧ (i 1).val < win1_5.index ⟨(i 0).val / 5000, ht⟩ (1 : Fin 2) * 128 + 128
    rw [e51]
    omega

/-- The output table after the region: entry by entry, the normalised, scaled, shifted and cut-off input table. -/
theorem final (c : Dev nD) : (dat1 V c).arrAt 5 cfg1.N = result V c :=
  (dat1 V c).arrAt_eq_of_cover 5 (result V c) (fun t _ => flushed_eq V c t) cover

end Cert.Sage.Region1

end
-- ==== Proof.Region2Pay.lean ====
/-
  The arithmetic of the linear-plus-statistics body, read one entry at a time over the extended reals.

  The body takes a block of 5000 rows of the neighbourhood means and of the features, the two weight tables and the
  bias row, and computes for row p and column q
      (Σ_j mean(p,j)·Wl(q,j) + Σ_j feat(p,j)·Wr(q,j)) + bias(q):
  each product is a matrix product against a transposed weight table into a zero accumulator, the narrowing of the
  operands to a shorter float format being the identity on extended reals. The block's column sums and the column sums
  of its squares are added to the running sums the two one-row outputs hold.
-/
import proofs.«101248_j40450001994225_2_alg».proof.Proof.Gen.KernelIdeal.Skeleton
import proofs.«101248_j40450001994225_2_alg».proof.Proof.Spec
import proofs.«101248_j40450001994225_2_alg».proof.Proof.LibColumns
import Idealize.ShloMosaic.Lib.Pipeline.Value
import Idealize.ShloMosaic.Lib.ValueIdx
import Idealize.ShloMosaic.PureOps.Ideal.Laws

noncomputable section

open scoped BigOperators

namespace Cert.Sage.Region2

open Idealize.ShloMosaic Idealize.ShloMosaic.ValueIdx Cert.KernelIdeal

variable [Cert.KernelIdeal.Facts]
open Cert.KernelIdeal.Facts₀ Cert.KernelIdeal.Facts

/-! ## The matrix product against a transposed weight table -/

theorem lhs_row (i : S5000x128.Idx) (κ : dot_S5000x128_S128x128_S5000x128_1_0_0_1_n_n.contr.Idx) : (dot_S5000x128_S128x128_S5000x128_1_0_0_1_n_n.lhsIdx i κ 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem lhs_contr (i : S5000x128.Idx) (κ : dot_S5000x128_S128x128_S5000x128_1_0_0_1_n_n.contr.Idx) : (dot_S5000x128_S128x128_S5000x128_1_0_0_1_n_n.lhsIdx i κ 1).val = (κ ⟨0, by decide⟩).val :=
  dot_S5000x128_S128x128_S5000x128_1_0_0_1_n_n.lhsIdx_val_of_single rfl i κ

theorem rhs_contr (i : S5000x128.Idx) (κ : dot_S5000x128_S128x128_S5000x128_1_0_0_1_n_n.contr.Idx) : (dot_S5000x128_S128x128_S5000x128_1_0_0_1_n_n.rhsIdx i κ 0).val = (κ ⟨0, by decide⟩).val :=
  dot_S5000x128_S128x128_S5000x128_1_0_0_1_n_n.rhsIdx_val_of_single rfl i κ

theorem rhs_col (i : S5000x128.Idx) (κ : dot_S5000x128_S128x128_S5000x128_1_0_0_1_n_n.contr.Idx) : (dot_S5000x128_S128x128_S5000x128_1_0_0_1_n_n.rhsIdx i κ 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A block of rows times the transpose of a weight table, into zero: entry (p, q) is the inner product of row p of
    the block with row q of the weight table. -/
theorem rows_times_transpose (x : FVec Ideal S5000x128 .f32) (w : FVec Ideal S128x128 .f32) (p : Fin 5000) (q : Fin 128) :
    (matmul dot_S5000x128_S128x128_S5000x128_1_0_0_1_n_n none (truncf .bf16 x bitsLt_bf16_f32)
      (transpose S128x128 [1, 0] (truncf .bf16 w bitsLt_bf16_f32) transposes_S128x128_p1_0_S128x128)
      (constant S5000x128 .f32 0x00000000#32) : FVec Ideal S5000x128 .f32) (ix2 p q)
      = ∑ j : Fin 128, x (ix2 p j) * w (ix2 q j) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (lhs_contr _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (rhs_contr _ _).trans hk
      | ⟨1, _⟩ => exact rhs_col _ _)
  rw [el, er]
  refine congrArg (x (ix2 p k) * ·) ?_
  exact transpose_apply [1, 0] _ transposes_S128x128_p1_0_S128x128 (ix2 k q) (ix2 q k)
    (fun b => by match b with | ⟨0, _⟩ => rfl | ⟨1, _⟩ => rfl)

/-! ## Rows and vectors -/

/-- A one-row table spread down 5000 rows, read at an entry. -/
theorem row_spread (b : FVec Ideal S1x128 .f32) (p : Fin 5000) (q : Fin 128) :
    broadcastTo S5000x128 b broadcasts_S1x128_S5000x128 (ix2 p q) = b (ix2 0 q) :=
  broadcastTo_apply b broadcasts_S1x128_S5000x128 (ix2 p q) (ix2 0 q)
    (fun a => by match a with | ⟨0, _⟩ => rfl | ⟨1, _⟩ => rfl)

/-- A vector of 128 entries re-laid as a one-row table, read at an entry. -/
theorem vec_as_row (v : FVec Ideal S128 .f32) (q : Fin 128) :
    shapeCast S1x128 v shapeCasts_S128_S1x128 (ix2 0 q) = v (ix1 q) := by
  refine (shapeCast_addUnit_apply ![128] v shapeCasts_S128_S1x128 (ix2 0 q)).trans (congrArg v ?_)
  funext a
  match a with
  | ⟨0, _⟩ => rfl

/-! ## The three payloads at an entry -/

/-- The linear part of the block at row p, column q. -/
theorem linear_apply (x0 x1 : Vec Ideal S5000x128 .f32) (x2 x4 : Vec Ideal S128x128 .f32) (x3 : Vec Ideal S1x128 .f32)
    (p : Fin 5000) (q : Fin 128) :
    Gen.k2_pay4 (F := Ideal) x0 x1 x2 x4 x3 (ix2 p q) = linAt x0 x1 x2 x4 (fun q => x3 (ix2 0 q)) p q := by
  unfold Gen.k2_pay4 linAt
  simp only [shapeCast_self]
  refine (addf_apply _ _ _).trans ?_
  refine congrArg₂ (· + ·) ((addf_apply _ _ _).trans (congrArg₂ (· + ·) ?_ ?_)) (row_spread x3 p q)
  · exact rows_times_transpose x0 x2 p q
  · exact rows_times_transpose x1 x4 p q

/-- The block's column sums added to a running row. -/
theorem colsum_apply (x0 x1 : Vec Ideal S5000x128 .f32) (x2 x4 : Vec Ideal S128x128 .f32) (x3 xo : Vec Ideal S1x128 .f32)
    (q : Fin 128) :
    Gen.k2_pay5 (F := Ideal) x0 x1 x2 x4 x3 xo (ix2 0 q)
      = xo (ix2 0 q) + ∑ p : Fin 5000, Gen.k2_pay4 (F := Ideal) x0 x1 x2 x4 x3 (ix2 p q) := by
  unfold Gen.k2_pay5
  simp only [shapeCast_self]
  refine (addf_apply _ _ _).trans (congrArg (xo (ix2 0 q) + ·) ?_)
  refine (vec_as_row _ q).trans ?_
  exact Cert.Lib.Columns.colSum_f32_apply _ _ _ _ q

/-- The column sums of the block's squares added to a running row. -/
theorem colsumsq_apply (x0 x1 : Vec Ideal S5000x128 .f32) (x2 x4 : Vec Ideal S128x128 .f32) (x3 xo : Vec Ideal S1x128 .f32)
    (q : Fin 128) :
    Gen.k2_pay1 (F := Ideal) (Gen.k2_pay6 (F := Ideal) xo) (Gen.k2_pay7 (F := Ideal) x0 x1 x2 x4 x3) (ix2 0 q)
      = xo (ix2 0 q) + ∑ p : Fin 5000, Gen.k2_pay4 (F := Ideal) x0 x1 x2 x4 x3 (ix2 p q)
          * Gen.k2_pay4 (F := Ideal) x0 x1 x2 x4 x3 (ix2 p q) := by
  unfold Gen.k2_pay1 Gen.k2_pay6 Gen.k2_pay7
  simp only [shapeCast_self]
  refine (addf_apply _ _ _).trans (congrArg (xo (ix2 0 q) + ·) ?_)
  refine (vec_as_row _ q).trans ?_
  exact Cert.Lib.Columns.colSum_f32_apply _ _ _ _ q

/-- The zero row the first point stores. -/
theorem zero_row_apply (q : Fin 128) : (Gen.k2_pay2 (F := Ideal)) (ix2 0 q) = 0 := by
  unfold Gen.k2_pay2
  exact Ideal.ofBits_zero_f32

theorem zero_row_apply' (q : Fin 128) : (Gen.k2_pay3 (F := Ideal)) (ix2 0 q) = 0 := by
  unfold Gen.k2_pay3
  exact Ideal.ofBits_zero_f32

end Cert.Sage.Region2

end
-- ==== Proof.Region2Pieces.lean ====
/-
  What one run of the linear-plus-statistics body leaves in its three output buffers, in each of its two cases.

  At the first grid point the body first stores a zero row into each of the two running rows and then proceeds as at
  every later point: it stores the block's linear part whole, adds the block's column sums to the first running row
  and the column sums of the block's squares to the second. So the first output's buffer ends holding the linear part
  of the point's input blocks, and each running row ends holding its previous contents (the zero row at the first
  point) plus the block's contribution. Each buffer is written by stores that cover it, and what is read back is the
  last store's value, the loads of whole input buffers reading those buffers' contents.
-/
import proofs.«101248_j40450001994225_2_alg».proof.Proof.Gen.KernelIdeal.Frame
import Idealize.ShloMosaic.Lib.Pipeline.Value
import Idealize.ShloMosaic.Lib.Tactic

noncomputable section

namespace Cert.Sage.Pieces2

open Idealize.ShloMosaic Idealize.ShloMosaic.TcCoe Idealize.SL.Sem Idealize.ShloMosaic.Tactic
open Cert.KernelIdeal Cert.KernelIdeal.Gen

variable {F : FTy → Type} [FloatOps F]

theorem hz : (![0, 0] : Fin 2 → Nat) = fun _ => 0 := funext fun a => by fin_cases a <;> rfl

/-! ## What each case leaves in each output's buffer -/

/-- At the first point the block's linear part is stored whole. -/
theorem first_lin (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond2_0 i) (x0 x1 : Vec F S5000x128 .f32) (x2 : Vec F S128x128 .f32) (x3 : Vec F S1x128 .f32) (x4 : Vec F S128x128 .f32) :
    out2_A_5 c i a1 h1 a2 h2 a3 h3 a4 h4 a5 h5 a6 h6 a7 h7 a8 h8 hc x0 x1 x2 x3 x4 = k2_pay4 x0 x1 x2 x4 x3 := by
  unfold out2_A_5
  rw [View.read_writes_eq_canon _ _ _ (cover2_A_5 c i a1 h1 a2 h2 a3 h3 a4 h4 a5 h5 a6 h6 a7 h7 a8 h8 hc x0 x1 x2 x3 x4)]
  unfold kernelRun2_A
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S128x128) hz, View.ld_unit_zero (S := S1x128) hz]

/-- At the first point the running column sums are the zero row plus the block's column sums. -/
theorem first_sum (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond2_0 i) (x0 x1 : Vec F S5000x128 .f32) (x2 : Vec F S128x128 .f32) (x3 : Vec F S1x128 .f32) (x4 : Vec F S128x128 .f32) :
    out2_A_6 c i a1 h1 a2 h2 a3 h3 a4 h4 a5 h5 a6 h6 a7 h7 a8 h8 hc x0 x1 x2 x3 x4 = k2_pay5 x0 x1 x2 x4 x3 (k2_pay2 (F := F)) := by
  unfold out2_A_6
  rw [View.read_writes_eq_canon _ _ _ (cover2_A_6 c i a1 h1 a2 h2 a3 h3 a4 h4 a5 h5 a6 h6 a7 h7 a8 h8 hc x0 x1 x2 x3 x4)]
  unfold kernelRun2_A
  dsimp only
  sl_unfold_words
  rw [View.canon_cons_unit_zero (S := S1x128) hz]
  simp only [View.readAt_eq_ld, h1.read_unread, h2.read_unread, h3.read_unread, h4.read_unread, h5.read_unread, h7.read_unread, h8.read_unread, View.ld_unit_zero (S := S5000x128) hz, View.ld_unit_zero (S := S128x128) hz, View.ld_unit_zero (S := S1x128) hz, View.readCov_unit_zero (S := S1x128) _ hz]

/-- At the first point the running column sums of squares are the zero row plus the block's. -/
theorem first_sumsq (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond2_0 i) (x0 x1 : Vec F S5000x128 .f32) (x2 : Vec F S128x128 .f32) (x3 : Vec F S1x128 .f32) (x4 : Vec F S128x128 .f32) :
    out2_A_7 c i a1 h1 a2 h2 a3 h3 a4 h4 a5 h5 a6 h6 a7 h7 a8 h8 hc x0 x1 x2 x3 x4 = k2_pay1 (k2_pay6 (k2_pay3 (F := F))) (k2_pay7 x0 x1 x2 x4 x3) := by
  unfold out2_A_7
  rw [View.read_writes_eq_canon _ _ _ (cover2_A_7 c i a1 h1 a2 h2 a3 h3 a4 h4 a5 h5 a6 h6 a7 h7 a8 h8 hc x0 x1 x2 x3 x4)]
  unfold kernelRun2_A
  dsimp only
  sl_unfold_words
  rw [View.canon_cons_unit_zero (S := S1x128) hz]
  simp only [View.readAt_eq_ld, h1.read_unread, h2.read_unread, h3.read_unread, h4.read_unread, h5.read_unread, h7.read_unread, h8.read_unread, View.ld_unit_zero (S := S5000x128) hz, View.ld_unit_zero (S := S128x128) hz, View.ld_unit_zero (S := S1x128) hz, View.readCov_unit_zero (S := S1x128) _ hz]

/-- At a later point the block's linear part is stored whole. -/
theorem later_lin (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond2_0 i) (x0 x1 : Vec F S5000x128 .f32) (x2 : Vec F S128x128 .f32) (x3 : Vec F S1x128 .f32) (x4 : Vec F S128x128 .f32) (xo6 xo7 : Vec F S1x128 .f32) :
    out2_B_5 c i a1 h1 a2 h2 a3 h3 a4 h4 a5 h5 a6 h6 a7 h7 a8 h8 hc x0 x1 x2 x3 x4 xo6 xo7 = k2_pay4 x0 x1 x2 x4 x3 := by
  unfold out2_B_5
  rw [View.read_writes_eq_canon _ _ _ (cover2_B_5 c i a1 h1 a2 h2 a3 h3 a4 h4 a5 h5 a6 h6 a7 h7 a8 h8 hc x0 x1 x2 x3 x4 xo6 xo7)]
  unfold kernelRun2_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S128x128) hz, View.ld_unit_zero (S := S1x128) hz]

/-- At a later point the running column sums grow by the block's column sums. -/
theorem later_sum (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond2_0 i) (x0 x1 : Vec F S5000x128 .f32) (x2 : Vec F S128x128 .f32) (x3 : Vec F S1x128 .f32) (x4 : Vec F S128x128 .f32) (xo6 xo7 : Vec F S1x128 .f32) :
    out2_B_6 c i a1 h1 a2 h2 a3 h3 a4 h4 a5 h5 a6 h6 a7 h7 a8 h8 hc x0 x1 x2 x3 x4 xo6 xo7 = k2_pay5 x0 x1 x2 x4 x3 xo6 := by
  unfold out2_B_6
  rw [View.read_writes_eq_canon _ _ _ (cover2_B_6 c i a1 h1 a2 h2 a3 h3 a4 h4 a5 h5 a6 h6 a7 h7 a8 h8 hc x0 x1 x2 x3 x4 xo6 xo7)]
  unfold kernelRun2_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S128x128) hz, View.ld_unit_zero (S := S1x128) hz]

/-- At a later point the running column sums of squares grow by the block's. -/
theorem later_sumsq (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond2_0 i) (x0 x1 : Vec F S5000x128 .f32) (x2 : Vec F S128x128 .f32) (x3 : Vec F S1x128 .f32) (x4 : Vec F S128x128 .f32) (xo6 xo7 : Vec F S1x128 .f32) :
    out2_B_7 c i a1 h1 a2 h2 a3 h3 a4 h4 a5 h5 a6 h6 a7 h7 a8 h8 hc x0 x1 x2 x3 x4 xo6 xo7 = k2_pay1 (k2_pay6 xo7) (k2_pay7 x0 x1 x2 x4 x3) := by
  unfold out2_B_7
  rw [View.read_writes_eq_canon _ _ _ (cover2_B_7 c i a1 h1 a2 h2 a3 h3 a4 h4 a5 h5 a6 h6 a7 h7 a8 h8 hc x0 x1 x2 x3 x4 xo6 xo7)]
  unfold kernelRun2_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S128x128) hz, View.ld_unit_zero (S := S1x128) hz]

end Cert.Sage.Pieces2

end
-- ==== Proof.Region2Blocks.lean ====
/-
  The linear-plus-statistics launch, point by point: what its three outputs hold after each grid point, in terms of
  the arrays the launch finds.

  The grid has 20 points; point t reads rows 5000·t … 5000·t + 4999 of the two feature tables and the whole of the two
  weight tables and the bias row. So the linear part of the blocks at point t, at row p of the block, is the linear
  part of the whole tables at row 5000·t + p. The first output holds that block after point t. The two running rows
  hold, after point n, the column sums (of the linear part, and of its squares) over the blocks 0 … n: the zero row
  the first point stores is the neutral element, and each later point adds its block's sums to what the point before
  left — an induction on the point.
-/
import proofs.«101248_j40450001994225_2_alg».proof.Proof.Gen.KernelIdeal.Frame
import proofs.«101248_j40450001994225_2_alg».proof.Proof.Region2Pay
import proofs.«101248_j40450001994225_2_alg».proof.Proof.Region2Pieces
import Idealize.ShloMosaic.Lib.Pipeline.Value

noncomputable section

open scoped BigOperators

namespace Cert.Sage.Region2

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref Cert.KernelIdeal.sig .tc) → Buf (Elt Ideal) ((c : Thread nD τ).loc b))

/-! ## The launch's input arrays, as tables -/

/-- The neighbourhood means. -/
abbrev Am (c : Dev nD) : Tab 100000 128 := V c (Pipeline.arrRef spec2 0)
/-- The features. -/
abbrev Ax (c : Dev nD) : Tab 100000 128 := V c (Pipeline.arrRef spec2 1)
/-- The weights applied to the neighbourhood means. -/
abbrev Awl (c : Dev nD) : Tab 128 128 := V c (Pipeline.arrRef spec2 2)
/-- The bias row. -/
abbrev Ab (c : Dev nD) : Tab 1 128 := V c (Pipeline.arrRef spec2 3)
/-- The weights applied to the features. -/
abbrev Awr (c : Dev nD) : Tab 128 128 := V c (Pipeline.arrRef spec2 4)

/-- The linear part of the whole tables. -/
def G (c : Dev nD) : Tab 100000 128 :=
  lin (Am V c) (Ax V c) (Awl V c) (Awr V c) (fun q => Ab V c (ix2 0 q))

/-! ## The index maps, decided over the grid -/

theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

/-! ## The blocks read off the arrays -/

theorem blk_m (c : Dev nD) (t : Fin cfg2.N) (p : Fin 5000) (j : Fin 128) (hr : t.val * 5000 + p.val < 100000) :
    (iblk2 V c 0 t : Vec Ideal S5000x128 .f32) (ix2 p j) = Am V c (ix2 ⟨t.val * 5000 + p.val, hr⟩ j) := by
  unfold iblk2
  rw [View.read_apply]
  show V c (Pipeline.arrRef spec2 0) _ = V c (Pipeline.arrRef spec2 0) _
  congr 1
  funext a
  apply Fin.ext
  obtain ⟨e0, e1, -⟩ := idx_facts t
  match a with
  | ⟨0, _⟩ => show win2_0.index t (0 : Fin 2) * 5000 + 1 * p.val = t.val * 5000 + p.val; rw [e0]; omega
  | ⟨1, _⟩ => show win2_0.index t (1 : Fin 2) * 128 + 1 * j.val = j.val; rw [e1]; omega

theorem blk_x (c : Dev nD) (t : Fin cfg2.N) (p : Fin 5000) (j : Fin 128) (hr : t.val * 5000 + p.val < 100000) :
    (iblk2 V c 1 t : Vec Ideal S5000x128 .f32) (ix2 p j) = Ax V c (ix2 ⟨t.val * 5000 + p.val, hr⟩ j) := by
  unfold iblk2
  rw [View.read_apply]
  show V c (Pipeline.arrRef spec2 1) _ = V c (Pipeline.arrRef spec2 1) _
  congr 1
  funext a
  apply Fin.ext
  obtain ⟨-, -, e0, e1, -⟩ := idx_facts t
  match a with
  | ⟨0, _⟩ => show win2_1.index t (0 : Fin 2) * 5000 + 1 * p.val = t.val * 5000 + p.val; rw [e0]; omega
  | ⟨1, _⟩ => show win2_1.index t (1 : Fin 2) * 128 + 1 * j.val = j.val; rw [e1]; omega

theorem blk_wl (c : Dev nD) (t : Fin cfg2.N) (q : Fin 128) (j : Fin 128) :
    (iblk2 V c 2 t : Vec Ideal S128x128 .f32) (ix2 q j) = Awl V c (ix2 q j) := by
  unfold iblk2
  rw [View.read_apply]
  show V c (Pipeline.arrRef spec2 2) _ = V c (Pipeline.arrRef spec2 2) _
  congr 1
  funext a
  apply Fin.ext
  obtain ⟨-, -, -, -, e0, e1, -⟩ := idx_facts t
  match a with
  | ⟨0, _⟩ => show win2_2.index t (0 : Fin 2) * 128 + 1 * q.val = q.val; rw [e0]; omega
  | ⟨1, _⟩ => show win2_2.index t (1 : Fin 2) * 128 + 1 * j.val = j.val; rw [e1]; omega

theorem blk_b (c : Dev nD) (t : Fin cfg2.N) (q : Fin 128) :
    (iblk2 V c 3 t : Vec Ideal S1x128 .f32) (ix2 0 q) = Ab V c (ix2 0 q) := by
  unfold iblk2
  rw [View.read_apply]
  show V c (Pipeline.arrRef spec2 3) _ = V c (Pipeline.arrRef spec2 3) _
  congr 1
  funext a
  apply Fin.ext
  obtain ⟨-, -, -, -, -, -, e0, e1, -⟩ := idx_facts t
  match a with
  | ⟨0, _⟩ => show win2_3.index t (0 : Fin 2) * 1 + 1 * 0 = 0; rw [e0]
  | ⟨1, _⟩ => show win2_3.index t (1 : Fin 2) * 128 + 1 * q.val = q.val; rw [e1]; omega

theorem blk_wr (c : Dev nD) (t : Fin cfg2.N) (q : Fin 128) (j : Fin 128) :
    (iblk2 V c 4 t : Vec Ideal S128x128 .f32) (ix2 q j) = Awr V c (ix2 q j) := by
  unfold iblk2
  rw [View.read_apply]
  show V c (Pipeline.arrRef spec2 4) _ = V c (Pipeline.arrRef spec2 4) _
  congr 1
  funext a
  apply Fin.ext
  obtain ⟨-, -, -, -, -, -, -, -, e0, e1, -⟩ := idx_facts t
  match a with
  | ⟨0, _⟩ => show win2_4.index t (0 : Fin 2) * 128 + 1 * q.val = q.val; rw [e0]; omega
  | ⟨1, _⟩ => show win2_4.index t (1 : Fin 2) * 128 + 1 * j.val = j.val; rw [e1]; omega

/-- The linear part of point t's blocks. -/
abbrev blkLin (c : Dev nD) (t : Fin cfg2.N) : FVec Ideal S5000x128 .f32 :=
  k2_pay4 (F := Ideal) (iblk2 V c 0 t) (iblk2 V c 1 t) (iblk2 V c 2 t) (iblk2 V c 4 t) (iblk2 V c 3 t)

/-- Row p of point t's block of the linear part is row 5000·t + p of the whole tables' linear part. -/
theorem blk_lin (c : Dev nD) (t : Fin cfg2.N) (p : Fin 5000) (q : Fin 128) (hr : t.val * 5000 + p.val < 100000) :
    blkLin V c t (ix2 p q) = G V c (ix2 ⟨t.val * 5000 + p.val, hr⟩ q) := by
  refine (linear_apply (iblk2 V c 0 t) (iblk2 V c 1 t) (iblk2 V c 2 t) (iblk2 V c 4 t) (iblk2 V c 3 t) p q).trans ?_
  unfold G
  rw [lin_apply]
  unfold linAt
  refine congrArg₂ (· + ·) (congrArg₂ (· + ·) (Finset.sum_congr rfl fun j _ => ?_) (Finset.sum_congr rfl fun j _ => ?_)) ?_
  · exact congrArg₂ (· * ·) (blk_m V c t p j hr) (blk_wl V c t q j)
  · exact congrArg₂ (· * ·) (blk_x V c t p j hr) (blk_wr V c t q j)
  · exact blk_b V c t q

/-! ## The outputs after each point -/

/-- The first output after point t: the linear part of the point's blocks. -/
theorem lin_at (c : Dev nD) (t : Fin cfg2.N) : (outsAt2 V c t.val t.isLt).1 = blkLin V c t := by
  by_cases h0 : t.val % 20 = 0
  · rw [outsAt2_A V c t h0]
    dsimp only
    rw [Pieces2.first_lin]
  · rw [outsAt2_B V c t h0]
    dsimp only
    rw [Pieces2.later_lin]

/-- Block t's column sum at column q (0 beyond the grid). -/
def blkSum (c : Dev nD) (q : Fin 128) (t : ℕ) : EReal :=
  if h : t < cfg2.N then ∑ p : Fin 5000, blkLin V c ⟨t, h⟩ (ix2 p q) else 0

/-- Block t's column sum of squares at column q (0 beyond the grid). -/
def blkSumSq (c : Dev nD) (q : Fin 128) (t : ℕ) : EReal :=
  if h : t < cfg2.N then ∑ p : Fin 5000, blkLin V c ⟨t, h⟩ (ix2 p q) * blkLin V c ⟨t, h⟩ (ix2 p q) else 0

/-- The first running row after point n: the column sums over blocks 0 … n. -/
theorem sum_at (c : Dev nD) (q : Fin 128) : ∀ (n : ℕ) (h : n < cfg2.N),
    (outsAt2 V c n h).2.1 (ix2 0 q) = ∑ t ∈ Finset.range (n + 1), blkSum V c q t
  | 0, h => by
    rw [outsAt2_A V c ⟨0, h⟩ rfl]
    dsimp only
    rw [Pieces2.first_sum]
    refine (colsum_apply _ _ _ _ _ _ q).trans ?_
    rw [zero_row_apply, zero_add, Finset.sum_range_one]
    unfold blkSum
    rw [dif_pos h]
  | n + 1, h => by
    have hN : cfg2.N = 20 := N_2
    have hB : ¬(⟨n + 1, h⟩ : Fin cfg2.N).val % 20 = 0 := by dsimp only; omega
    rw [outsAt2_B V c ⟨n + 1, h⟩ hB]
    dsimp only
    rw [Pieces2.later_sum]
    refine (colsum_apply _ _ _ _ _ _ q).trans ?_
    rw [Finset.sum_range_succ _ (n + 1)]
    refine congrArg₂ (· + ·) (sum_at c q n _) ?_
    unfold blkSum
    rw [dif_pos h]

/-- The second running row after point n: the column sums of squares over blocks 0 … n. -/
theorem sumsq_at (c : Dev nD) (q : Fin 128) : ∀ (n : ℕ) (h : n < cfg2.N),
    (outsAt2 V c n h).2.2 (ix2 0 q) = ∑ t ∈ Finset.range (n + 1), blkSumSq V c q t
  | 0, h => by
    rw [outsAt2_A V c ⟨0, h⟩ rfl]
    dsimp only
    rw [Pieces2.first_sumsq]
    refine (colsumsq_apply _ _ _ _ _ _ q).trans ?_
    rw [zero_row_apply', zero_add, Finset.sum_range_one]
    unfold blkSumSq
    rw [dif_pos h]
  | n + 1, h => by
    have hN : cfg2.N = 20 := N_2
    have hB : ¬(⟨n + 1, h⟩ : Fin cfg2.N).val % 20 = 0 := by dsimp only; omega
    rw [outsAt2_B V c ⟨n + 1, h⟩ hB]
    dsimp only
    rw [Pieces2.later_sumsq]
    refine (colsumsq_apply _ _ _ _ _ _ q).trans ?_
    rw [Finset.sum_range_succ _ (n + 1)]
    refine congrArg₂ (· + ·) (sumsq_at c q n _) ?_
    unfold blkSumSq
    rw [dif_pos h]

end Cert.Sage.Region2

end
-- ==== Proof.Region2.lean ====
/-
  The linear-plus-statistics launch: what its three result arrays hold when it ends.

  Every grid point writes its block of the first result back, and the blocks tile the 100000 rows (row r lies in
  block r / 5000), so the first result array ends as the linear part of the whole tables. The two running rows are
  written back once, after the last point, when they hold the sums over all 20 blocks; 20 blocks of 5000 rows are the
  100000 rows, so these are the column sums of the whole linear part and of its squares.
-/
import proofs.«101248_j40450001994225_2_alg».proof.Proof.Region2Blocks
import proofs.«101248_j40450001994225_2_alg».proof.Proof.LibBlockSum

noncomputable section

open scoped BigOperators

namespace Cert.Sage.Region2

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref Cert.KernelIdeal.sig .tc) → Buf (Elt Ideal) ((c : Thread nD τ).loc b))

/-! ## The first result: block by block -/

theorem mem_blk_lin (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v52_0).slice (win2_5.rect t)).set ↔ _
  rw [View.set_slice_whole, Rect.mem_set_unit]
  exact Iff.rfl

theorem flushed_lin_apply (c : Dev nD) (t : Fin cfg2.N) (y : S5000x128.Idx) :
    blkLin V c t y = G V c (((cfg2.win 5).blk t).view.emb y) := by
  obtain ⟨p, q, rfl⟩ : ∃ (p : Fin 5000) (q : Fin 128), y = ix2 p q := ⟨y 0, y 1, eq_ix2 y⟩
  have hN : cfg2.N = 20 := N_2
  have hr : t.val * 5000 + p.val < 100000 := by have := t.isLt; have := p.isLt; omega
  refine (blk_lin V c t p q hr).trans ?_
  congr 1
  funext a
  apply Fin.ext
  obtain ⟨-, -, -, -, -, -, -, -, -, -, e0, e1, -⟩ := idx_facts t
  match a with
  | ⟨0, _⟩ => show t.val * 5000 + p.val = win2_5.index t (0 : Fin 2) * 5000 + 1 * p.val; rw [e0]; omega
  | ⟨1, _⟩ => show q.val = win2_5.index t (1 : Fin 2) * 128 + 1 * q.val; rw [e1]; omega

/-- What point t writes back of the first result is block t of the whole tables' linear part. -/
theorem flushed_lin (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5, lin_at]
  funext y
  rw [View.read_apply]
  exact flushed_lin_apply V c t y

theorem cover_lin (i : S100000x128.Idx) :
    ∃ t : Fin cfg2.N, (cfg2.win 5).flush t = true ∧ i ∈ ((cfg2.win 5).blk t).view.set := by
  have hN : cfg2.N = 20 := N_2
  have hi0 : (i 0).val < 100000 := (i 0).isLt
  have hi1 : (i 1).val < 128 := (i 1).isLt
  have ht : (i 0).val / 5000 < cfg2.N := by omega
  refine ⟨⟨(i 0).val / 5000, ht⟩, flush2_5 _, ?_⟩
  rw [mem_blk_lin]
  obtain ⟨-, -, -, -, -, -, -, -, -, -, e0, e1, -⟩ := idx_facts (⟨(i 0).val / 5000, ht⟩ : Fin cfg2.N)
  intro a
  match a with
  | ⟨0, _⟩ =>
    show win2_5.index ⟨(i 0).val / 5000, ht⟩ (0 : Fin 2) * 5000 ≤ (i 0).val
      ∧ (i 0).val < win2_5.index ⟨(i 0).val / 5000, ht⟩ (0 : Fin 2) * 5000 + 5000
    rw [e0]; dsimp only; omega
  | ⟨1, _⟩ =>
    show win2_5.index ⟨(i 0).val / 5000, ht⟩ (1 : Fin 2) * 128 ≤ (i 1).val
      ∧ (i 1).val < win2_5.index ⟨(i 0).val / 5000, ht⟩ (1 : Fin 2) * 128 + 128
    rw [e1]; omega

/-- The first result array ends as the linear part of the whole tables. -/
theorem final_lin (c : Dev nD) : (dat2 V c).arrAt 5 cfg2.N = G V c :=
  (dat2 V c).arrAt_eq_of_cover 5 (G V c) (fun t _ => flushed_lin V c t) cover_lin

/-! ## The two running rows: written back after the last point -/

/-- The column sums of the whole linear part, as a one-row table. -/
def colSums (c : Dev nD) : Tab 1 128 := fun i => colSum (G V c) (i 1)
/-- The column sums of its squares, as a one-row table. -/
def colSumsSq (c : Dev nD) : Tab 1 128 := fun i => colSumSq (G V c) (i 1)

/-- The sums over the 20 blocks are the sums over the 100000 rows. -/
theorem blocks_sum (c : Dev nD) (q : Fin 128) : ∑ t ∈ Finset.range 20, blkSum V c q t = colSum (G V c) q := by
  have hN : cfg2.N = 20 := N_2
  unfold colSum
  rw [Cert.Lib.BlockSum.sum_fin_blocks (a := 20) (b := 5000) (by norm_num : 20 * 5000 = 100000)]
  refine (Fin.sum_univ_eq_sum_range (fun t => blkSum V c q t) 20).symm.trans ?_
  refine Finset.sum_congr rfl fun t _ => ?_
  have ht : t.val < cfg2.N := by have := t.isLt; omega
  unfold blkSum
  rw [dif_pos ht]
  refine Finset.sum_congr rfl fun p _ => ?_
  exact blk_lin V c ⟨t.val, ht⟩ p q _

theorem blocks_sumsq (c : Dev nD) (q : Fin 128) : ∑ t ∈ Finset.range 20, blkSumSq V c q t = colSumSq (G V c) q := by
  have hN : cfg2.N = 20 := N_2
  unfold colSumSq
  rw [Cert.Lib.BlockSum.sum_fin_blocks (a := 20) (b := 5000) (by norm_num : 20 * 5000 = 100000)]
  refine (Fin.sum_univ_eq_sum_range (fun t => blkSumSq V c q t) 20).symm.trans ?_
  refine Finset.sum_congr rfl fun t _ => ?_
  have ht : t.val < cfg2.N := by have := t.isLt; omega
  unfold blkSumSq
  rw [dif_pos ht]
  refine Finset.sum_congr rfl fun p _ => ?_
  exact congrArg₂ (· * ·) (blk_lin V c ⟨t.val, ht⟩ p q _) (blk_lin V c ⟨t.val, ht⟩ p q _)

theorem flushed_sum_apply (c : Dev nD) (t : Fin cfg2.N) (h19 : t.val = 19) (y : S1x128.Idx) :
    (outsAt2 V c t.val t.isLt).2.1 y = colSums V c (((cfg2.win 6).blk t).view.emb y) := by
  obtain ⟨z, q, rfl⟩ : ∃ (z : Fin 1) (q : Fin 128), y = ix2 z q := ⟨y 0, y 1, eq_ix2 y⟩
  obtain rfl : z = 0 := Subsingleton.elim _ _
  rw [sum_at V c q t.val t.isLt]
  obtain ⟨-, -, -, -, -, -, -, -, -, -, -, -, e0, e1, -⟩ := idx_facts t
  have hq : colSums V c (((cfg2.win 6).blk t).view.emb (ix2 0 q)) = colSum (G V c) q := by
    unfold colSums
    congr 1
    apply Fin.ext
    show win2_6.index t (1 : Fin 2) * 128 + 1 * q.val = q.val
    rw [e1]; omega
  rw [hq]
  exact (congrArg (fun n => ∑ s ∈ Finset.range n, blkSum V c q s) (by omega : t.val + 1 = 20)).trans (blocks_sum V c q)

theorem flushed_sumsq_apply (c : Dev nD) (t : Fin cfg2.N) (h19 : t.val = 19) (y : S1x128.Idx) :
    (outsAt2 V c t.val t.isLt).2.2 y = colSumsSq V c (((cfg2.win 7).blk t).view.emb y) := by
  obtain ⟨z, q, rfl⟩ : ∃ (z : Fin 1) (q : Fin 128), y = ix2 z q := ⟨y 0, y 1, eq_ix2 y⟩
  obtain rfl : z = 0 := Subsingleton.elim _ _
  rw [sumsq_at V c q t.val t.isLt]
  obtain ⟨-, -, -, -, -, -, -, -, -, -, -, -, -, -, e0, e1⟩ := idx_facts t
  have hq : colSumsSq V c (((cfg2.win 7).blk t).view.emb (ix2 0 q)) = colSumSq (G V c) q := by
    unfold colSumsSq
    congr 1
    apply Fin.ext
    show win2_7.index t (1 : Fin 2) * 128 + 1 * q.val = q.val
    rw [e1]; omega
  rw [hq]
  exact (congrArg (fun n => ∑ s ∈ Finset.range n, blkSumSq V c q s) (by omega : t.val + 1 = 20)).trans (blocks_sumsq V c q)

set_option maxRecDepth 1000000 in
/-- The one write-back of the first running row, after the last point, writes the column sums. -/
theorem flushed_sum (c : Dev nD) (t : Fin cfg2.N) (hf : (cfg2.win 6).flush t = true) :
    (dat2 V c).flushed 6 t = ((cfg2.win 6).blk t).view.read (Elt Ideal) (colSums V c) := by
  have hN : cfg2.N = 20 := N_2
  have h19 : t.val = 19 := by have := (flush2_6 t).mp hf; have := t.isLt; omega
  show (cfg2.win 6).cut (grid2.coords t) ((dat2 V c).after 6 t) = _
  rw [after2_6]
  funext y
  rw [View.read_apply]
  exact flushed_sum_apply V c t h19 y

set_option maxRecDepth 1000000 in
/-- The one write-back of the second running row writes the column sums of squares. -/
theorem flushed_sumsq (c : Dev nD) (t : Fin cfg2.N) (hf : (cfg2.win 7).flush t = true) :
    (dat2 V c).flushed 7 t = ((cfg2.win 7).blk t).view.read (Elt Ideal) (colSumsSq V c) := by
  have hN : cfg2.N = 20 := N_2
  have h19 : t.val = 19 := by have := (flush2_7 t).mp hf; have := t.isLt; omega
  show (cfg2.win 7).cut (grid2.coords t) ((dat2 V c).after 7 t) = _
  rw [after2_7]
  funext y
  rw [View.read_apply]
  exact flushed_sumsq_apply V c t h19 y

theorem cover_sum (i : S1x128.Idx) :
    ∃ t : Fin cfg2.N, (cfg2.win 6).flush t = true ∧ i ∈ ((cfg2.win 6).blk t).view.set := by
  have hN : cfg2.N = 20 := N_2
  have ht : 19 < cfg2.N := by omega
  refine ⟨⟨19, ht⟩, (flush2_6 _).mpr rfl, ?_⟩
  show i ∈ ((View.whole main_v52_1).slice (win2_6.rect ⟨19, ht⟩)).set
  rw [View.set_slice_whole, Rect.mem_set_unit]
  obtain ⟨-, -, -, -, -, -, -, -, -, -, -, -, e0, e1, -⟩ := idx_facts (⟨19, ht⟩ : Fin cfg2.N)
  have h0 : (i 0).val < 1 := (i 0).isLt
  have h1 : (i 1).val < 128 := (i 1).isLt
  intro a
  match a with
  | ⟨0, _⟩ =>
    show win2_6.index ⟨19, ht⟩ (0 : Fin 2) * 1 ≤ (i 0).val ∧ (i 0).val < win2_6.index ⟨19, ht⟩ (0 : Fin 2) * 1 + 1
    rw [e0]; omega
  | ⟨1, _⟩ =>
    show win2_6.index ⟨19, ht⟩ (1 : Fin 2) * 128 ≤ (i 1).val ∧ (i 1).val < win2_6.index ⟨19, ht⟩ (1 : Fin 2) * 128 + 128
    rw [e1]; omega

theorem cover_sumsq (i : S1x128.Idx) :
    ∃ t : Fin cfg2.N, (cfg2.win 7).flush t = true ∧ i ∈ ((cfg2.win 7).blk t).view.set := by
  have hN : cfg2.N = 20 := N_2
  have ht : 19 < cfg2.N := by omega
  refine ⟨⟨19, ht⟩, (flush2_7 _).mpr rfl, ?_⟩
  show i ∈ ((View.whole main_v52_2).slice (win2_7.rect ⟨19, ht⟩)).set
  rw [View.set_slice_whole, Rect.mem_set_unit]
  obtain ⟨-, -, -, -, -, -, -, -, -, -, -, -, -, -, e0, e1⟩ := idx_facts (⟨19, ht⟩ : Fin cfg2.N)
  have h0 : (i 0).val < 1 := (i 0).isLt
  have h1 : (i 1).val < 128 := (i 1).isLt
  intro a
  match a with
  | ⟨0, _⟩ =>
    show win2_7.index ⟨19, ht⟩ (0 : Fin 2) * 1 ≤ (i 0).val ∧ (i 0).val < win2_7.index ⟨19, ht⟩ (0 : Fin 2) * 1 + 1
    rw [e0]; omega
  | ⟨1, _⟩ =>
    show win2_7.index ⟨19, ht⟩ (1 : Fin 2) * 128 ≤ (i 1).val ∧ (i 1).val < win2_7.index ⟨19, ht⟩ (1 : Fin 2) * 128 + 128
    rw [e1]; omega

/-- The second result array ends as the column sums of the whole linear part. -/
theorem final_sum (c : Dev nD) : (dat2 V c).arrAt 6 cfg2.N = colSums V c :=
  (dat2 V c).arrAt_eq_of_cover 6 (colSums V c) (flushed_sum V c) cover_sum

/-- The third result array ends as the column sums of its squares. -/
theorem final_sumsq (c : Dev nD) : (dat2 V c).arrAt 7 cfg2.N = colSumsSq V c :=
  (dat2 V c).arrAt_eq_of_cover 7 (colSumsSq V c) (flushed_sumsq V c) cover_sumsq

end Cert.Sage.Region2

end
-- ==== Proof.Region3.lean ====
/-
  Region 3: normalisation by given column statistics, scale, shift and the cut-off at 0, over a table of 100000 rows
  and 128 columns that is worked through in 20 blocks of 5000 rows.

  At each block the body reads the block's 5000 rows and the four one-row tables whole (the column means, the column
  variances, the scales, the shifts), and leaves in the output block, at row p and column q,
      max ((((h(p,q) - mean(q)) * rsqrt (var(q) + stabiliser)) * scale(q)) + shift(q)) 0.
  Block t of the input and block t of the output are rows 5000 t … 5000 t + 4999, so the entry written at row p of
  block t is the entry of the whole table at row 5000 t + p; every row r lies in block r / 5000; hence the output table
  ends, entry by entry, as that one function of the five input tables.
-/
import proofs.«101248_j40450001994225_2_alg».proof.Proof.Gen.KernelIdeal.Frame
import proofs.«101248_j40450001994225_2_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.ShloMosaic.ValueIdx Idealize.SL.Sem
open Idealize.ShloMosaic.Pipeline (Dat)

namespace Cert.Sage.Region3

open Cert.KernelIdeal Cert.KernelIdeal.Gen

-- The contents of the buffers when the region is entered (the buffer signature is the program's, not the logistic
-- function of the specification, which shares its short name).
variable (V : (c : Dev nD) → (b : Ref Cert.KernelIdeal.sig .tc) → Buf (Elt Ideal) ((c : Thread nD τ).loc b))

/-- The zero offsets of a whole-block access. -/
theorem hz : (![0, 0] : Fin 2 → Nat) = fun _ => 0 := funext fun a => by fin_cases a <;> rfl

/-! ## The body's result at one entry -/

/-- A one-row table spread down 5000 rows reads, at row p and column q, its entry in column q. -/
theorem spread_row (x : Vec Ideal S1x128 .f32) (h : S1x128.Broadcasts S5000x128) (p : Fin 5000) (q : Fin 128) :
    broadcastTo S5000x128 x h (ix2 p q) = x (ix2 0 q) := by
  refine broadcastTo_apply x h (ix2 p q) (ix2 0 q) fun a => ?_
  match a with
  | ⟨0, _⟩ => rfl
  | ⟨1, _⟩ => rfl

/-- What the body stores at row p, column q of a block: the block's entry there, normalised by the mean and variance
    of column q, scaled, shifted and cut off at 0. (The body reads the variance row before the mean row.) -/
theorem pay_apply (h : Vec Ideal S5000x128 .f32) (mean var scale shift : Vec Ideal S1x128 .f32) (p : Fin 5000) (q : Fin 128) :
    k3_pay1 (F := Ideal) h var mean scale shift (ix2 p q)
      = bnAt (h (ix2 p q)) (mean (ix2 0 q)) (var (ix2 0 q)) (scale (ix2 0 q)) (shift (ix2 0 q)) := by
  unfold k3_pay1 bnAt
  simp only [shapeCast_self]
  rw [maximumf_apply, addf_apply, mulf_apply, mulf_apply, subf_apply, spread_row, spread_row, spread_row, spread_row,
    broadcast_apply]
  show max (_ * Ideal.rsqrt (var (ix2 0 q) + Ideal.ofBits .f32 0x3727C5AC#32) * _ + _) (Ideal.ofBits .f32 0x00000000#32) = _
  rw [Ideal.ofBits_zero_f32]

/-! ## From the blocks to the table -/

/-- The input table's block moves down one block of 5000 rows per point. -/
theorem idx_0 : ∀ t : Fin cfg3.N, win3_0.index t (0 : Fin 2) = t.val ∧ win3_0.index t (1 : Fin 2) = 0 :=
  (by decide +kernel : ∀ t : Fin grid3.N, win3_0.index t (0 : Fin 2) = t.val ∧ win3_0.index t (1 : Fin 2) = 0)
/-- The mean row stays. -/
theorem idx_1 : ∀ t : Fin cfg3.N, win3_1.index t (0 : Fin 2) = 0 ∧ win3_1.index t (1 : Fin 2) = 0 :=
  (by decide +kernel : ∀ t : Fin grid3.N, win3_1.index t (0 : Fin 2) = 0 ∧ win3_1.index t (1 : Fin 2) = 0)
/-- The variance row stays. -/
theorem idx_2 : ∀ t : Fin cfg3.N, win3_2.index t (0 : Fin 2) = 0 ∧ win3_2.index t (1 : Fin 2) = 0 :=
  (by decide +kernel : ∀ t : Fin grid3.N, win3_2.index t (0 : Fin 2) = 0 ∧ win3_2.index t (1 : Fin 2) = 0)
/-- The scale row stays. -/
theorem idx_3 : ∀ t : Fin cfg3.N, win3_3.index t (0 : Fin 2) = 0 ∧ win3_3.index t (1 : Fin 2) = 0 :=
  (by decide +kernel : ∀ t : Fin grid3.N, win3_3.index t (0 : Fin 2) = 0 ∧ win3_3.index t (1 : Fin 2) = 0)
/-- The shift row stays. -/
theorem idx_4 : ∀ t : Fin cfg3.N, win3_4.index t (0 : Fin 2) = 0 ∧ win3_4.index t (1 : Fin 2) = 0 :=
  (by decide +kernel : ∀ t : Fin grid3.N, win3_4.index t (0 : Fin 2) = 0 ∧ win3_4.index t (1 : Fin 2) = 0)
/-- The output table's block moves down one block of 5000 rows per point. -/
theorem idx_5 : ∀ t : Fin cfg3.N, win3_5.index t (0 : Fin 2) = t.val ∧ win3_5.index t (1 : Fin 2) = 0 :=
  (by decide +kernel : ∀ t : Fin grid3.N, win3_5.index t (0 : Fin 2) = t.val ∧ win3_5.index t (1 : Fin 2) = 0)

/-- Row p of block t of the input table is row 5000 t + p of the table. -/
theorem rows_h (c : Dev nD) (t : Fin cfg3.N) (p : Fin 5000) (q : Fin 128) (r : Fin 100000) (hr : r.val = 5000 * t.val + p.val) :
    (iblk3 V c 0 t : Vec Ideal S5000x128 .f32) (ix2 p q) = (V c (Pipeline.arrRef spec3 0) : Tab 100000 128) (ix2 r q) := by
  obtain ⟨e0, e1⟩ := idx_0 t
  show V c (Pipeline.arrRef spec3 0) (((cfg3.win 0).blk t).view.emb (ix2 p q)) = V c (Pipeline.arrRef spec3 0) (ix2 r q)
  refine congrArg _ (funext fun a => Fin.ext ?_)
  match a with
  | ⟨0, _⟩ => show win3_0.index t (0 : Fin 2) * 5000 + 1 * p.val = r.val; omega
  | ⟨1, _⟩ => show win3_0.index t (1 : Fin 2) * 128 + 1 * q.val = q.val; omega

/-- The mean row's block is the whole row at every point. -/
theorem row_1 (c : Dev nD) (t : Fin cfg3.N) (q : Fin 128) :
    (iblk3 V c 1 t : Vec Ideal S1x128 .f32) (ix2 0 q) = (V c (Pipeline.arrRef spec3 1) : Tab 1 128) (ix2 0 q) := by
  obtain ⟨e0, e1⟩ := idx_1 t
  show V c (Pipeline.arrRef spec3 1) (((cfg3.win 1).blk t).view.emb (ix2 0 q)) = V c (Pipeline.arrRef spec3 1) (ix2 0 q)
  refine congrArg _ (funext fun a => Fin.ext ?_)
  match a with
  | ⟨0, _⟩ => show win3_1.index t (0 : Fin 2) * 1 + 1 * 0 = 0; omega
  | ⟨1, _⟩ => show win3_1.index t (1 : Fin 2) * 128 + 1 * q.val = q.val; omega

/-- The variance row's block is the whole row at every point. -/
theorem row_2 (c : Dev nD) (t : Fin cfg3.N) (q : Fin 128) :
    (iblk3 V c 2 t : Vec Ideal S1x128 .f32) (ix2 0 q) = (V c (Pipeline.arrRef spec3 2) : Tab 1 128) (ix2 0 q) := by
  obtain ⟨e0, e1⟩ := idx_2 t
  show V c (Pipeline.arrRef spec3 2) (((cfg3.win 2).blk t).view.emb (ix2 0 q)) = V c (Pipeline.arrRef spec3 2) (ix2 0 q)
  refine congrArg _ (funext fun a => Fin.ext ?_)
  match a with
  | ⟨0, _⟩ => show win3_2.index t (0 : Fin 2) * 1 + 1 * 0 = 0; omega
  | ⟨1, _⟩ => show win3_2.index t (1 : Fin 2) * 128 + 1 * q.val = q.val; omega

/-- The scale row's block is the whole row at every point. -/
theorem row_3 (c : Dev nD) (t : Fin cfg3.N) (q : Fin 128) :
    (iblk3 V c 3 t : Vec Ideal S1x128 .f32) (ix2 0 q) = (V c (Pipeline.arrRef spec3 3) : Tab 1 128) (ix2 0 q) := by
  obtain ⟨e0, e1⟩ := idx_3 t
  show V c (Pipeline.arrRef spec3 3) (((cfg3.win 3).blk t).view.emb (ix2 0 q)) = V c (Pipeline.arrRef spec3 3) (ix2 0 q)
  refine congrArg _ (funext fun a => Fin.ext ?_)
  match a with
  | ⟨0, _⟩ => show win3_3.index t (0 : Fin 2) * 1 + 1 * 0 = 0; omega
  | ⟨1, _⟩ => show win3_3.index t (1 : Fin 2) * 128 + 1 * q.val = q.val; omega

/-- The shift row's block is the whole row at every point. -/
theorem row_4 (c : Dev nD) (t : Fin cfg3.N) (q : Fin 128) :
    (iblk3 V c 4 t : Vec Ideal S1x128 .f32) (ix2 0 q) = (V c (Pipeline.arrRef spec3 4) : Tab 1 128) (ix2 0 q) := by
  obtain ⟨e0, e1⟩ := idx_4 t
  show V c (Pipeline.arrRef spec3 4) (((cfg3.win 4).blk t).view.emb (ix2 0 q)) = V c (Pipeline.arrRef spec3 4) (ix2 0 q)
  refine congrArg _ (funext fun a => Fin.ext ?_)
  match a with
  | ⟨0, _⟩ => show win3_4.index t (0 : Fin 2) * 1 + 1 * 0 = 0; omega
  | ⟨1, _⟩ => show win3_4.index t (1 : Fin 2) * 128 + 1 * q.val = q.val; omega

/-- The whole output table: `bnTab` of the five input tables as the region finds them. -/
abbrev result (c : Dev nD) : Tab 100000 128 :=
  bnTab (V c (Pipeline.arrRef spec3 0)) (V c (Pipeline.arrRef spec3 1)) (V c (Pipeline.arrRef spec3 2))
    (V c (Pipeline.arrRef spec3 3)) (V c (Pipeline.arrRef spec3 4))

/-- Entry (p, q) of block t of the output table is entry (5000 t + p, q) of the table. -/
theorem out_emb (t : Fin cfg3.N) (p : Fin 5000) (q : Fin 128) (r : Fin 100000) (hr : r.val = 5000 * t.val + p.val) :
    (((cfg3.win 5).blk t).view.emb (ix2 p q) : S100000x128.Idx) = ix2 r q := by
  obtain ⟨e0, e1⟩ := idx_5 t
  refine funext fun a => Fin.ext ?_
  match a with
  | ⟨0, _⟩ => show win3_5.index t (0 : Fin 2) * 5000 + 1 * p.val = r.val; omega
  | ⟨1, _⟩ => show win3_5.index t (1 : Fin 2) * 128 + 1 * q.val = q.val; omega

/-- What point t writes back is block t of the whole output table. -/
theorem flushed_eq (c : Dev nD) (t : Fin cfg3.N) :
    (dat3 V c).flushed 5 t = ((cfg3.win 5).blk t).view.read (Elt Ideal) (result V c) := by
  show (cfg3.win 5).cut (grid3.coords t) ((dat3 V c).after 5 t) = _
  rw [after3_5]
  unfold out3_5
  rw [View.canon_unit_zero hz]
  simp only [View.ld_unit_zero (S := S5000x128) hz, View.ld_unit_zero (S := S1x128) hz]
  funext j
  obtain ⟨p, q, rfl⟩ : ∃ (p : Fin 5000) (q : Fin 128), j = ix2 p q := ⟨j 0, j 1, eq_ix2 j⟩
  have hN : cfg3.N = 20 := N_3
  have ht : t.val < 20 := hN ▸ t.isLt
  have hp : p.val < 5000 := p.isLt
  refine (pay_apply (iblk3 V c 0 t) (iblk3 V c 1 t) (iblk3 V c 2 t) (iblk3 V c 3 t) (iblk3 V c 4 t) p q).trans ?_
  rw [rows_h V c t p q ⟨5000 * t.val + p.val, by omega⟩ rfl, row_1 V c t q, row_2 V c t q, row_3 V c t q, row_4 V c t q]
  show _ = result V c (((cfg3.win 5).blk t).view.emb (ix2 p q))
  rw [out_emb t p q ⟨5000 * t.val + p.val, by omega⟩ rfl]
  rfl

/-- An entry of the output table is in point t's block iff its row is among the block's 5000 rows. -/
theorem mem_blk (t : Fin cfg3.N) (i : S100000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v63).slice (win3_5.rect t)).set ↔ _
  rw [View.set_slice_whole, Rect.mem_set_unit]
  exact Iff.rfl

/-- Every entry of the output table is written: row r by point r / 5000. -/
theorem cover (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  have hN : cfg3.N = 20 := N_3
  have ht : (i 0).val / 5000 < cfg3.N := by rw [hN]; omega
  obtain ⟨e50, e51⟩ := idx_5 ⟨(i 0).val / 5000, ht⟩
  refine ⟨⟨(i 0).val / 5000, ht⟩, flush3_5 _, ?_⟩
  rw [mem_blk]
  intro a
  match a with
  | ⟨0, _⟩ =>
    show win3_5.index ⟨(i 0).val / 5000, ht⟩ (0 : Fin 2) * 5000 ≤ (i 0).val ∧ (i 0).val < win3_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win3_5.index ⟨(i 0).val / 5000, ht⟩ (1 : Fin 2) * 128 ≤ (i 1).val ∧ (i 1).val < win3_5.index ⟨(i 0).val / 5000, ht⟩ (1 : Fin 2) * 128 + 128
    rw [e51]
    omega

/-- The output table after the region: entry by entry, the normalised, scaled, shifted and cut-off input table. -/
theorem final (c : Dev nD) : (dat3 V c).arrAt 5 cfg3.N = result V c :=
  (dat3 V c).arrAt_eq_of_cover 5 (result V c) (fun t _ => flushed_eq V c t) cover

end Cert.Sage.Region3

end
-- ==== Proof.Region4Pay.lean ====
/-
  The last layer's body at one entry: the logistic function of the linear part.

  The body narrows its four float operands to a shorter format (the identity on extended reals), turns each of the two
  one-row weight tables on its side and multiplies it from the right into a zero accumulator, adds the two products,
  spreads the one-entry bias down the 5000 rows, adds it, and applies the logistic function. At row p this is
      logistic ((Σ_j M(p,j)·Wl(0,j) + Σ_j X(p,j)·Wr(0,j)) + b(0,0)).
-/
import proofs.«101248_j40450001994225_2_alg».proof.Proof.Gen.KernelIdeal.Skeleton
import proofs.«101248_j40450001994225_2_alg».proof.Proof.Spec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.Sage.Region4

open Cert.KernelIdeal Cert.KernelIdeal.Gen

/-- The dimension numbers of a 5000x128 by 128x1 product: rows by the one column, contracting the 128. -/
abbrev D := dot_S5000x128_S128x1_S5000x1_1_0_0_1_n_n

/-- The left operand is read at the output's row … -/
theorem lhs_row (i : S5000x1.Idx) (r : D.contr.Idx) : (D.lhsIdx i r 0).val = (i 0).val := by
  unfold DotDims.lhsIdx
  rw [dif_neg (show ¬(0 : Fin S5000x128.rank) ∈ D.lhsBatch by decide), dif_pos (show (0 : Fin S5000x128.rank) ∈ D.lhsNonContracting by decide)]
  rfl
/-- … and the contraction position's column; -/
theorem lhs_col (i : S5000x1.Idx) (r : D.contr.Idx) : (D.lhsIdx i r 1).val = (r ⟨0, by decide⟩).val :=
  D.lhsIdx_val_of_single rfl i r
/-- the right operand at the contraction position's row … -/
theorem rhs_row (i : S5000x1.Idx) (r : D.contr.Idx) : (D.rhsIdx i r 0).val = (r ⟨0, by decide⟩).val :=
  D.rhsIdx_val_of_single rfl i r
/-- … and the output's column. -/
theorem rhs_col (i : S5000x1.Idx) (r : D.contr.Idx) : (D.rhsIdx i r 1).val = (i 1).val := by
  unfold DotDims.rhsIdx
  rw [dif_neg (show ¬(1 : Fin S128x1.rank) ∈ D.rhsBatch by decide), dif_pos (show (1 : Fin S128x1.rank) ∈ D.rhsNonContracting by decide)]
  rfl

/-- A table times a one-row table turned on its side, into a zero accumulator: at row p the sum over the 128
    columns of the row's entries times the one-row table's. -/
theorem matvec_apply (A : FVec Ideal S5000x128 .bf16) (w : FVec Ideal S1x128 .bf16) (ht : S1x128.Transposes [1, 0] S128x1)
    (p : Fin 5000) (z : Fin 1) :
    matmul D none A (transpose S128x1 [1, 0] w ht) (constant S5000x1 .f32 0x00000000#32) (ix2 p z)
      = ∑ k : Fin 128, A (ix2 p k) * w (ix2 z k) := by
  simp only [matmul]
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 p z) ((contrEquiv1 D 128 rfl rfl).symm k) = ix2 p k := funext fun a => Fin.ext (by
    match a with
    | ⟨0, _⟩ => exact lhs_row _ _
    | ⟨1, _⟩ => exact (lhs_col _ _).trans hk)
  have er : transpose S128x1 [1, 0] w ht (D.rhsIdx (ix2 p z) ((contrEquiv1 D 128 rfl rfl).symm k)) = w (ix2 z k) := by
    refine transpose_apply [1, 0] w ht _ (ix2 z k) fun b => ?_
    match b with
    | ⟨0, _⟩ => exact ((rhs_row _ _).trans hk).symm
    | ⟨1, _⟩ => exact ((rhs_col (ix2 p z) _).symm : z.val = _)
  rw [el, er]

/-- A one-entry table spread down 5000 rows reads its entry everywhere. -/
theorem spread_one (x : Vec Ideal S1x1 .f32) (h : S1x1.Broadcasts S5000x1) (p : Fin 5000) (z : Fin 1) :
    broadcastTo S5000x1 x h (ix2 p z) = x (ix2 0 z) := by
  obtain rfl : z = 0 := Subsingleton.elim z 0
  refine broadcastTo_apply x h (ix2 p 0) (ix2 0 0) fun a => ?_
  match a with
  | ⟨0, _⟩ => rfl
  | ⟨1, _⟩ => rfl

/-- What the body stores at row p of a block: the logistic function of the linear part at that row. -/
theorem pay_apply (M X : Vec Ideal S5000x128 .f32) (Wl Wr : Vec Ideal S1x128 .f32) (b : Vec Ideal S1x1 .f32) (p : Fin 5000) (z : Fin 1) :
    k4_pay1 (F := Ideal) M X Wl Wr b (ix2 p z) = Ideal.logistic (linAt M X Wl Wr (fun q => b (ix2 0 q)) p z) := by
  unfold k4_pay1 linAt
  simp only [shapeCast_self]
  show Ideal.logistic ((matmul (F := Ideal) D none _ _ _ (ix2 p z) + matmul (F := Ideal) D none _ _ _ (ix2 p z)) + broadcastTo S5000x1 b _ (ix2 p z)) = _
  rw [matvec_apply, matvec_apply, spread_one]
  rfl

/-- The linear part at one entry depends only on the entries it reads: two sets of tables that agree on row p (resp.
    row r) of the inputs, on the weight rows and on the bias give the same value. -/
theorem linAt_congr {n n' : ℕ} (M X : Tab n 128) (M' X' : Tab n' 128) (Wl Wr Wl' Wr' : Tab 1 128) (b b' : Fin 1 → EReal)
    (p : Fin n) (r : Fin n') (z : Fin 1)
    (hM : ∀ j, M (ix2 p j) = M' (ix2 r j)) (hX : ∀ j, X (ix2 p j) = X' (ix2 r j))
    (hWl : ∀ j, Wl (ix2 z j) = Wl' (ix2 z j)) (hWr : ∀ j, Wr (ix2 z j) = Wr' (ix2 z j)) (hb : b z = b' z) :
    linAt M X Wl Wr b p z = linAt M' X' Wl' Wr' b' r z := by
  unfold linAt
  exact congrArg₂ (· + ·) (congrArg₂ (· + ·)
    (Finset.sum_congr rfl fun j _ => by rw [hM j, hWl j])
    (Finset.sum_congr rfl fun j _ => by rw [hX j, hWr j])) hb

end Cert.Sage.Region4

end
-- ==== Proof.Region4.lean ====
/-
  Region 4: the last layer's linear part followed by the logistic function, over tables of 100000 rows worked through in
  20 blocks of 5000 rows.

  At each block the body reads 5000 rows of the two input tables (128 columns each), the two one-row weight tables and
  the one-entry bias whole, and leaves in the output block (5000 rows, one column), at row p, the logistic function of
  the linear part at that row. Block t of the inputs and of the output are rows 5000 t … 5000 t + 4999; every row r lies
  in block r / 5000; so the output table ends, entry by entry, as that one function of the five input tables.
-/
import proofs.«101248_j40450001994225_2_alg».proof.Proof.Gen.KernelIdeal.Frame
import proofs.«101248_j40450001994225_2_alg».proof.Proof.Region4Pay
import Idealize.ShloMosaic.Lib.Pipeline.Value
import Idealize.ShloMosaic.Lib.ValueIdx

noncomputable section

open scoped BigOperators
open Idealize.ShloMosaic Idealize.ShloMosaic.TcCoe Idealize.ShloMosaic.ValueIdx Idealize.SL.Sem
open Idealize.ShloMosaic.Pipeline (Dat)

namespace Cert.Sage.Region4

open Cert.KernelIdeal Cert.KernelIdeal.Gen

-- The contents of the buffers when the region is entered (the buffer signature is the program's, not the logistic
-- function of the specification, which shares its short name).
variable (V : (c : Dev nD) → (b : Ref Cert.KernelIdeal.sig .tc) → Buf (Elt Ideal) ((c : Thread nD τ).loc b))

/-- The zero offsets of a whole-block access. -/
theorem hz : (![0, 0] : Fin 2 → Nat) = fun _ => 0 := funext fun a => by fin_cases a <;> rfl

/-! ## Where each window's block sits at point t -/

/-- The first input table's block moves down one block of 5000 rows per point. -/
theorem idx_0 : ∀ t : Fin cfg4.N, win4_0.index t (0 : Fin 2) = t.val ∧ win4_0.index t (1 : Fin 2) = 0 :=
  (by decide +kernel : ∀ t : Fin grid4.N, win4_0.index t (0 : Fin 2) = t.val ∧ win4_0.index t (1 : Fin 2) = 0)
/-- The second input table's block moves down one block of 5000 rows per point. -/
theorem idx_1 : ∀ t : Fin cfg4.N, win4_1.index t (0 : Fin 2) = t.val ∧ win4_1.index t (1 : Fin 2) = 0 :=
  (by decide +kernel : ∀ t : Fin grid4.N, win4_1.index t (0 : Fin 2) = t.val ∧ win4_1.index t (1 : Fin 2) = 0)
/-- The first weight row stays. -/
theorem idx_2 : ∀ t : Fin cfg4.N, win4_2.index t (0 : Fin 2) = 0 ∧ win4_2.index t (1 : Fin 2) = 0 :=
  (by decide +kernel : ∀ t : Fin grid4.N, win4_2.index t (0 : Fin 2) = 0 ∧ win4_2.index t (1 : Fin 2) = 0)
/-- The bias stays. -/
theorem idx_3 : ∀ t : Fin cfg4.N, win4_3.index t (0 : Fin 2) = 0 ∧ win4_3.index t (1 : Fin 2) = 0 :=
  (by decide +kernel : ∀ t : Fin grid4.N, win4_3.index t (0 : Fin 2) = 0 ∧ win4_3.index t (1 : Fin 2) = 0)
/-- The second weight row stays. -/
theorem idx_4 : ∀ t : Fin cfg4.N, win4_4.index t (0 : Fin 2) = 0 ∧ win4_4.index t (1 : Fin 2) = 0 :=
  (by decide +kernel : ∀ t : Fin grid4.N, win4_4.index t (0 : Fin 2) = 0 ∧ win4_4.index t (1 : Fin 2) = 0)
/-- The output table's block moves down one block of 5000 rows per point. -/
theorem idx_5 : ∀ t : Fin cfg4.N, win4_5.index t (0 : Fin 2) = t.val ∧ win4_5.index t (1 : Fin 2) = 0 :=
  (by decide +kernel : ∀ t : Fin grid4.N, win4_5.index t (0 : Fin 2) = t.val ∧ win4_5.index t (1 : Fin 2) = 0)

/-! ## Each block as a part of its table -/

/-- Row p of block t of the first input table is row 5000 t + p of the table. -/
theorem rows_M (c : Dev nD) (t : Fin cfg4.N) (p : Fin 5000) (j : Fin 128) (r : Fin 100000) (hr : r.val = 5000 * t.val + p.val) :
    (iblk4 V c 0 t : Vec Ideal S5000x128 .f32) (ix2 p j) = (V c (Pipeline.arrRef spec4 0) : Tab 100000 128) (ix2 r j) := by
  obtain ⟨e0, e1⟩ := idx_0 t
  show V c (Pipeline.arrRef spec4 0) (((cfg4.win 0).blk t).view.emb (ix2 p j)) = V c (Pipeline.arrRef spec4 0) (ix2 r j)
  refine congrArg _ (funext fun a => Fin.ext ?_)
  match a with
  | ⟨0, _⟩ => show win4_0.index t (0 : Fin 2) * 5000 + 1 * p.val = r.val; omega
  | ⟨1, _⟩ => show win4_0.index t (1 : Fin 2) * 128 + 1 * j.val = j.val; omega

/-- Row p of block t of the second input table is row 5000 t + p of the table. -/
theorem rows_X (c : Dev nD) (t : Fin cfg4.N) (p : Fin 5000) (j : Fin 128) (r : Fin 100000) (hr : r.val = 5000 * t.val + p.val) :
    (iblk4 V c 1 t : Vec Ideal S5000x128 .f32) (ix2 p j) = (V c (Pipeline.arrRef spec4 1) : Tab 100000 128) (ix2 r j) := by
  obtain ⟨e0, e1⟩ := idx_1 t
  show V c (Pipeline.arrRef spec4 1) (((cfg4.win 1).blk t).view.emb (ix2 p j)) = V c (Pipeline.arrRef spec4 1) (ix2 r j)
  refine congrArg _ (funext fun a => Fin.ext ?_)
  match a with
  | ⟨0, _⟩ => show win4_1.index t (0 : Fin 2) * 5000 + 1 * p.val = r.val; omega
  | ⟨1, _⟩ => show win4_1.index t (1 : Fin 2) * 128 + 1 * j.val = j.val; omega

/-- The first weight row's block is the whole row at every point. -/
theorem row_Wl (c : Dev nD) (t : Fin cfg4.N) (z : Fin 1) (j : Fin 128) :
    (iblk4 V c 2 t : Vec Ideal S1x128 .f32) (ix2 z j) = (V c (Pipeline.arrRef spec4 2) : Tab 1 128) (ix2 z j) := by
  obtain ⟨e0, e1⟩ := idx_2 t
  show V c (Pipeline.arrRef spec4 2) (((cfg4.win 2).blk t).view.emb (ix2 z j)) = V c (Pipeline.arrRef spec4 2) (ix2 z j)
  refine congrArg _ (funext fun a => Fin.ext ?_)
  match a with
  | ⟨0, _⟩ => show win4_2.index t (0 : Fin 2) * 1 + 1 * z.val = z.val; omega
  | ⟨1, _⟩ => show win4_2.index t (1 : Fin 2) * 128 + 1 * j.val = j.val; omega

/-- The bias's block is the one entry at every point. -/
theorem entry_b (c : Dev nD) (t : Fin cfg4.N) (z : Fin 1) :
    (iblk4 V c 3 t : Vec Ideal S1x1 .f32) (ix2 0 z) = (V c (Pipeline.arrRef spec4 3) : Tab 1 1) (ix2 0 z) := by
  obtain ⟨e0, e1⟩ := idx_3 t
  show V c (Pipeline.arrRef spec4 3) (((cfg4.win 3).blk t).view.emb (ix2 0 z)) = V c (Pipeline.arrRef spec4 3) (ix2 0 z)
  refine congrArg _ (funext fun a => Fin.ext ?_)
  match a with
  | ⟨0, _⟩ => show win4_3.index t (0 : Fin 2) * 1 + 1 * 0 = 0; omega
  | ⟨1, _⟩ => show win4_3.index t (1 : Fin 2) * 1 + 1 * z.val = z.val; omega

/-- The second weight row's block is the whole row at every point. -/
theorem row_Wr (c : Dev nD) (t : Fin cfg4.N) (z : Fin 1) (j : Fin 128) :
    (iblk4 V c 4 t : Vec Ideal S1x128 .f32) (ix2 z j) = (V c (Pipeline.arrRef spec4 4) : Tab 1 128) (ix2 z j) := by
  obtain ⟨e0, e1⟩ := idx_4 t
  show V c (Pipeline.arrRef spec4 4) (((cfg4.win 4).blk t).view.emb (ix2 z j)) = V c (Pipeline.arrRef spec4 4) (ix2 z j)
  refine congrArg _ (funext fun a => Fin.ext ?_)
  match a with
  | ⟨0, _⟩ => show win4_4.index t (0 : Fin 2) * 1 + 1 * z.val = z.val; omega
  | ⟨1, _⟩ => show win4_4.index t (1 : Fin 2) * 128 + 1 * j.val = j.val; omega

/-- Entry (p, z) of block t of the output table is entry (5000 t + p, z) of the table. -/
theorem out_emb (t : Fin cfg4.N) (p : Fin 5000) (z : Fin 1) (r : Fin 100000) (hr : r.val = 5000 * t.val + p.val) :
    (((cfg4.win 5).blk t).view.emb (ix2 p z) : S100000x1.Idx) = ix2 r z := by
  obtain ⟨e0, e1⟩ := idx_5 t
  refine funext fun a => Fin.ext ?_
  match a with
  | ⟨0, _⟩ => show win4_5.index t (0 : Fin 2) * 5000 + 1 * p.val = r.val; omega
  | ⟨1, _⟩ => show win4_5.index t (1 : Fin 2) * 1 + 1 * z.val = z.val; omega

/-! ## From the blocks to the table -/

/-- The whole output table: the logistic function of the linear part of the five input tables as the region finds
    them (the bias is window 3's one entry, the second weight row window 4's). -/
abbrev result (c : Dev nD) : Tab 100000 1 := fun i =>
  Ideal.logistic (linAt (V c (Pipeline.arrRef spec4 0) : Tab 100000 128) (V c (Pipeline.arrRef spec4 1) : Tab 100000 128)
    (V c (Pipeline.arrRef spec4 2) : Tab 1 128) (V c (Pipeline.arrRef spec4 4) : Tab 1 128)
    (fun z => (V c (Pipeline.arrRef spec4 3) : Tab 1 1) (ix2 0 z)) (i 0) (i 1))

/-- What point t writes back is block t of the whole output table. -/
theorem flushed_eq (c : Dev nD) (t : Fin cfg4.N) :
    (dat4 V c).flushed 5 t = ((cfg4.win 5).blk t).view.read (Elt Ideal) (result V c) := by
  show (cfg4.win 5).cut (grid4.coords t) ((dat4 V c).after 5 t) = _
  rw [after4_5]
  unfold out4_5
  rw [View.canon_unit_zero hz]
  simp only [View.ld_unit_zero (S := S5000x128) hz, View.ld_unit_zero (S := S1x128) hz, View.ld_unit_zero (S := S1x1) hz]
  funext j
  obtain ⟨p, z, rfl⟩ : ∃ (p : Fin 5000) (z : Fin 1), j = ix2 p z := ⟨j 0, j 1, eq_ix2 j⟩
  have hN : cfg4.N = 20 := N_4
  have ht : t.val < 20 := hN ▸ t.isLt
  have hp : p.val < 5000 := p.isLt
  refine (pay_apply (iblk4 V c 0 t) (iblk4 V c 1 t) (iblk4 V c 2 t) (iblk4 V c 4 t) (iblk4 V c 3 t) p z).trans ?_
  show _ = result V c (((cfg4.win 5).blk t).view.emb (ix2 p z))
  rw [out_emb t p z ⟨5000 * t.val + p.val, by omega⟩ rfl]
  refine congrArg Ideal.logistic ?_
  exact linAt_congr _ _ _ _ _ _ _ _ _ _ p ⟨5000 * t.val + p.val, by omega⟩ z
    (fun j => rows_M V c t p j _ rfl) (fun j => rows_X V c t p j _ rfl)
    (fun j => row_Wl V c t z j) (fun j => row_Wr V c t z j) (entry_b V c t z)

/-- An entry of the output table is in point t's block iff its row is among the block's 5000 rows. -/
theorem mem_blk (t : Fin cfg4.N) (i : S100000x1.Idx) :
    i ∈ ((cfg4.win 5).blk t).view.set ↔ ∀ a : Fin 2, win4_5.index t a * S5000x1.size a ≤ (i a).val ∧ (i a).val < win4_5.index t a * S5000x1.size a + S5000x1.size a := by
  show i ∈ ((View.whole main_v78).slice (win4_5.rect t)).set ↔ _
  rw [View.set_slice_whole, Rect.mem_set_unit]
  exact Iff.rfl

/-- Every entry of the output table is written: row r by point r / 5000. -/
theorem cover (i : S100000x1.Idx) :
    ∃ t : Fin cfg4.N, (cfg4.win 5).flush t = true ∧ i ∈ ((cfg4.win 5).blk t).view.set := by
  have hi0 : (i 0).val < 100000 := (i 0).isLt
  have hi1 : (i 1).val < 1 := (i 1).isLt
  have hN : cfg4.N = 20 := N_4
  have ht : (i 0).val / 5000 < cfg4.N := by rw [hN]; omega
  obtain ⟨e50, e51⟩ := idx_5 ⟨(i 0).val / 5000, ht⟩
  refine ⟨⟨(i 0).val / 5000, ht⟩, flush4_5 _, ?_⟩
  rw [mem_blk]
  intro a
  match a with
  | ⟨0, _⟩ =>
    show win4_5.index ⟨(i 0).val / 5000, ht⟩ (0 : Fin 2) * 5000 ≤ (i 0).val ∧ (i 0).val < win4_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win4_5.index ⟨(i 0).val / 5000, ht⟩ (1 : Fin 2) * 1 ≤ (i 1).val ∧ (i 1).val < win4_5.index ⟨(i 0).val / 5000, ht⟩ (1 : Fin 2) * 1 + 1
    rw [e51]
    omega

/-- The output table after the region: entry by entry, the logistic function of the linear part of the input tables. -/
theorem final (c : Dev nD) : (dat4 V c).arrAt 5 cfg4.N = result V c :=
  (dat4 V c).arrAt_eq_of_cover 5 (result V c) (fun t _ => flushed_eq V c t) cover

end Cert.Sage.Region4

end
-- ==== Proof.Stretch0.lean ====
/-
  The first stretch of host operations of the kernel program, read at its results.

  Before the first launch the host cuts the source and target rows out of the edge list, counts the in-degrees and
  takes their floored reciprocals, forms the neighbourhood mean of the feature table, and re-lays the first bias vector
  as a one-row table. Read at a result buffer, the stretch's contents are those operations applied to the contents at
  its entry; a buffer the stretch does not write keeps its contents.
-/
import proofs.«101248_j40450001994225_2_alg».proof.Proof.Gen.KernelIdeal.Frame
import proofs.«101248_j40450001994225_2_alg».proof.Proof.Net
import Idealize.ShloMosaic.Lib.ValueLayout
import Idealize.ShloMosaic.PureOps.Ideal.Laws

set_option maxRecDepth 16384

noncomputable section

namespace Cert.Sage.Stretch

open Idealize.ShloMosaic Idealize.ShloMosaic.TcCoe Idealize.ShloMosaic.ValueIdx
open Idealize.SL.Sem
open Cert.KernelIdeal Cert.KernelIdeal.Gen

/-- The references a stretch does not write keep their contents: the list of operations' `writes` unfolded, each an
    inequality of references settled from the reference not being in the given list. -/
macro "keeps_of_not_mem" ops:ident hb:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (fun e => by subst e; exact $hb (by decide))))

/-- The buffers' contents at a segment boundary. -/
abbrev Val0 := Valuation τ Cert.KernelIdeal.sig (Elt Ideal)

/-- The references stretch 0 writes. -/
def written0 : List (Ref Cert.KernelIdeal.sig .tc) :=
  [main_v0, main_v1, main_v2, main_v3, main_cst, main_v4, main_cst_0, main_v5, main_v6, main_v7, main_cst_1, main_v8, main_v9,
   main_cst_2, main_v10, main_v11, main_c, main_v12, main_v13, main_c_3, main_v14, main_v15, main_v16, main_v17, main_v18,
   main_cst_4, main_v19, main_v20, main_v21, main_v22, main_v23, main_v24, main_v25]

/-- A buffer stretch 0 does not write keeps its contents. -/
theorem keep0 (Wp : Val0) (b : Ref Cert.KernelIdeal.sig .tc) (hb : b ∉ written0) :
    StableHlo.after (hostOps0 (F := Ideal)) Wp (Proc.devRef .tc b) = Wp (Proc.devRef .tc b) := by
  keeps_of_not_mem hostOps0 hb

/-- The neighbourhood mean of the features. -/
theorem s0_v24 (Wp : Val0) :
    (StableHlo.after (hostOps0 (F := Ideal)) Wp (Proc.devRef .tc main_v24) : FVec Ideal S100000x6 .f32)
      = agg6 (Wp (Proc.devRef .tc main_arg1)) (Wp (Proc.devRef .tc main_arg0)) := by
  after_results_simp
  rfl

/-- The edge list's source row. -/
theorem s0_v1 (Wp : Val0) :
    (StableHlo.after (hostOps0 (F := Ideal)) Wp (Proc.devRef .tc main_v1) : IVec S600000 32)
      = srcVec (Wp (Proc.devRef .tc main_arg1)) := by
  after_results_simp
  rfl

/-- The edge list's target row. -/
theorem s0_v3 (Wp : Val0) :
    (StableHlo.after (hostOps0 (F := Ideal)) Wp (Proc.devRef .tc main_v3) : IVec S600000 32)
      = dstVec (Wp (Proc.devRef .tc main_arg1)) := by
  after_results_simp
  rfl

/-- The reciprocals of the floored in-degrees. -/
theorem s0_v11 (Wp : Val0) :
    (StableHlo.after (hostOps0 (F := Ideal)) Wp (Proc.devRef .tc main_v11) : FVec Ideal S100000 .f32)
      = invDeg (Wp (Proc.devRef .tc main_arg1)) := by
  after_results_simp
  rfl

/-- The first bias vector as a one-row table, read at an entry. -/
theorem s0_v25 (Wp : Val0) (q : Fin 128) :
    (StableHlo.after (hostOps0 (F := Ideal)) Wp (Proc.devRef .tc main_v25) : FVec Ideal S1x128 .f32) (ix2 0 q)
      = (Wp (Proc.devRef .tc main_arg3) : FVec Ideal S128 .f32) (ix1 q) := by
  after_results_simp
  exact shapeCast_a_1a_apply _ _ 0 q

/-! ## At the program's launch memory -/

variable (m : (ℓ : Loc nD τ Cert.KernelIdeal.sig) → Buf (Elt Ideal) ℓ) (ρ : Dev nD → PrngReg)

theorem V1_v24 (c : Dev nD) :
    (V1 m ρ c main_v24 : FVec Ideal S100000x6 .f32)
      = agg6 (m ((c.tc : Thread nD τ).loc main_arg1)) (m ((c.tc : Thread nD τ).loc main_arg0)) :=
  s0_v24 (W0 m ρ c)

theorem V1_v25 (c : Dev nD) (q : Fin 128) :
    (V1 m ρ c main_v25 : FVec Ideal S1x128 .f32) (ix2 0 q)
      = (m ((c.tc : Thread nD τ).loc main_arg3) : FVec Ideal S128 .f32) (ix1 q) :=
  s0_v25 (W0 m ρ c) q

/-- A buffer stretch 0 does not write holds at the first launch what it held at the program's launch. -/
theorem W1_keep (c : Dev nD) (b : Ref Cert.KernelIdeal.sig .tc) (hb : b ∉ written0) :
    W1 m ρ c (Proc.devRef .tc b) = W0 m ρ c (Proc.devRef .tc b) :=
  keep0 (W0 m ρ c) b hb

theorem V1_arg0 (c : Dev nD) : V1 m ρ c main_arg0 = m ((c.tc : Thread nD τ).loc main_arg0) :=
  W1_keep m ρ c main_arg0 (by decide)

theorem V1_arg2 (c : Dev nD) : V1 m ρ c main_arg2 = m ((c.tc : Thread nD τ).loc main_arg2) :=
  W1_keep m ρ c main_arg2 (by decide)

theorem V1_arg4 (c : Dev nD) : V1 m ρ c main_arg4 = m ((c.tc : Thread nD τ).loc main_arg4) :=
  W1_keep m ρ c main_arg4 (by decide)

theorem W1_v1 (c : Dev nD) :
    (W1 m ρ c (Proc.devRef .tc main_v1) : IVec S600000 32) = srcVec (m ((c.tc : Thread nD τ).loc main_arg1)) :=
  s0_v1 (W0 m ρ c)

theorem W1_v3 (c : Dev nD) :
    (W1 m ρ c (Proc.devRef .tc main_v3) : IVec S600000 32) = dstVec (m ((c.tc : Thread nD τ).loc main_arg1)) :=
  s0_v3 (W0 m ρ c)

theorem W1_v11 (c : Dev nD) :
    (W1 m ρ c (Proc.devRef .tc main_v11) : FVec Ideal S100000 .f32) = invDeg (m ((c.tc : Thread nD τ).loc main_arg1)) :=
  s0_v11 (W0 m ρ c)

end Cert.Sage.Stretch

end
-- ==== Proof.Stretch1.lean ====
/-
  The second stretch of host operations of the kernel program, read at its results.

  Between the first and the second launch the host divides the column sums and the column sums of squares the first
  launch leaves by the row count, subtracts the squared mean from the mean of squares, cuts the difference off below
  at zero, and re-lays the first scale and shift vectors as one-row tables. Each is read here at an entry.
-/
import proofs.«101248_j40450001994225_2_alg».proof.Proof.Gen.KernelIdeal.Frame
import proofs.«101248_j40450001994225_2_alg».proof.Proof.Net
import Idealize.ShloMosaic.Lib.ValueLayout
import Idealize.ShloMosaic.PureOps.Ideal.Laws
import proofs.«101248_j40450001994225_2_alg».proof.Proof.Stretch0

set_option maxRecDepth 16384

noncomputable section

namespace Cert.Sage.Stretch

open Idealize.ShloMosaic Idealize.ShloMosaic.TcCoe Idealize.ShloMosaic.ValueIdx
open Idealize.SL.Sem
open Cert.KernelIdeal Cert.KernelIdeal.Gen

/-- A buffer's contents as a table of extended reals over a named shape (so that its entries are extended reals to the
    elaborator, not elements of a buffer type yet to be computed). -/
abbrev asTab (s : Shape) (x : s.Idx → EReal) : s.Idx → EReal := x

/-- The references stretch 1 writes. -/
def written1 : List (Ref Cert.KernelIdeal.sig .tc) :=
  [main_cst_5, main_v27, main_v28, main_cst_6, main_v29, main_v30, main_v31, main_v32, main_cst_7, main_v33, main_v34,
   main_v35, main_v36]

/-- A buffer stretch 1 does not write keeps its contents. -/
theorem keep1 (Wp : Val0) (b : Ref Cert.KernelIdeal.sig .tc) (hb : b ∉ written1) :
    StableHlo.after (hostOps1 (F := Ideal)) Wp (Proc.devRef .tc b) = Wp (Proc.devRef .tc b) := by
  keeps_of_not_mem hostOps1 hb

/-- The column means: the column sums divided by the row count. -/
theorem s1_v28 (Wp : Val0) (q : Fin 128) :
    (StableHlo.after (hostOps1 (F := Ideal)) Wp (Proc.devRef .tc main_v28) : FVec Ideal S1x128 .f32) (ix2 0 q)
      = Ideal.div ((Wp (Proc.devRef .tc main_v26_1) : FVec Ideal S1x128 .f32) (ix2 0 q)) rowCount := by
  after_results_simp
  rfl

/-- The column variances: the mean of squares less the squared mean, cut off below at zero. -/
theorem s1_v34 (Wp : Val0) (q : Fin 128) :
    (StableHlo.after (hostOps1 (F := Ideal)) Wp (Proc.devRef .tc main_v34) : FVec Ideal S1x128 .f32) (ix2 0 q)
      = max (Ideal.div ((Wp (Proc.devRef .tc main_v26_2) : FVec Ideal S1x128 .f32) (ix2 0 q)) rowCount
            - Ideal.div ((Wp (Proc.devRef .tc main_v26_1) : FVec Ideal S1x128 .f32) (ix2 0 q)) rowCount
              * Ideal.div ((Wp (Proc.devRef .tc main_v26_1) : FVec Ideal S1x128 .f32) (ix2 0 q)) rowCount) 0 := by
  after_results_simp
  show max _ (Ideal.ofBits .f32 0x00000000#32) = _
  rw [Ideal.ofBits_zero_f32]
  rfl

/-- The first scale vector as a one-row table, read at an entry. -/
theorem s1_v35 (Wp : Val0) (q : Fin 128) :
    (StableHlo.after (hostOps1 (F := Ideal)) Wp (Proc.devRef .tc main_v35) : FVec Ideal S1x128 .f32) (ix2 0 q)
      = (Wp (Proc.devRef .tc main_arg5) : FVec Ideal S128 .f32) (ix1 q) := by
  after_results_simp
  exact shapeCast_a_1a_apply _ _ 0 q

/-- The first shift vector as a one-row table, read at an entry. -/
theorem s1_v36 (Wp : Val0) (q : Fin 128) :
    (StableHlo.after (hostOps1 (F := Ideal)) Wp (Proc.devRef .tc main_v36) : FVec Ideal S1x128 .f32) (ix2 0 q)
      = (Wp (Proc.devRef .tc main_arg6) : FVec Ideal S128 .f32) (ix1 q) := by
  after_results_simp
  exact shapeCast_a_1a_apply _ _ 0 q

/-! ## At the program's launch memory -/

variable (m : (ℓ : Loc nD τ Cert.KernelIdeal.sig) → Buf (Elt Ideal) ℓ) (ρ : Dev nD → PrngReg)

/-- A buffer that is no array of the first launch and that stretch 0 does not write holds after the first launch what
    it held at the program's launch. -/
theorem W2_keep (c : Dev nD) (b : Ref Cert.KernelIdeal.sig .tc) (h0 : ∀ w, Pipeline.arrRef spec0 w ≠ b)
    (hb : b ∉ written0) : W2 m ρ c (Proc.devRef .tc b) = W0 m ρ c (Proc.devRef .tc b) :=
  (W2_of_ne m ρ c b h0).trans (W1_keep m ρ c b hb)

theorem V3_v26_0 (c : Dev nD) : V3 m ρ c main_v26_0 = V2 m ρ c main_v26_0 :=
  keep1 (W2 m ρ c) main_v26_0 (by decide)

theorem V3_v28 (c : Dev nD) (q : Fin 128) :
    (V3 m ρ c main_v28 : FVec Ideal S1x128 .f32) (ix2 0 q)
      = Ideal.div ((V2 m ρ c main_v26_1 : FVec Ideal S1x128 .f32) (ix2 0 q)) rowCount :=
  s1_v28 (W2 m ρ c) q

theorem V3_v34 (c : Dev nD) (q : Fin 128) :
    (V3 m ρ c main_v34 : FVec Ideal S1x128 .f32) (ix2 0 q)
      = max (Ideal.div ((V2 m ρ c main_v26_2 : FVec Ideal S1x128 .f32) (ix2 0 q)) rowCount
            - Ideal.div ((V2 m ρ c main_v26_1 : FVec Ideal S1x128 .f32) (ix2 0 q)) rowCount
              * Ideal.div ((V2 m ρ c main_v26_1 : FVec Ideal S1x128 .f32) (ix2 0 q)) rowCount) 0 :=
  s1_v34 (W2 m ρ c) q

/-- The same with the mean named by its buffer. -/
theorem V3_v34' (c : Dev nD) (q : Fin 128) :
    asTab S1x128 (V3 m ρ c main_v34) (ix2 0 q)
      = max (Ideal.div (asTab S1x128 (V2 m ρ c main_v26_2) (ix2 0 q)) rowCount
            - asTab S1x128 (V3 m ρ c main_v28) (ix2 0 q) * asTab S1x128 (V3 m ρ c main_v28) (ix2 0 q)) 0 := by
  rw [show asTab S1x128 (V3 m ρ c main_v28) (ix2 0 q)
      = Ideal.div (asTab S1x128 (V2 m ρ c main_v26_1) (ix2 0 q)) rowCount from V3_v28 m ρ c q]
  exact s1_v34 (W2 m ρ c) q

theorem V3_v35 (c : Dev nD) (q : Fin 128) :
    (V3 m ρ c main_v35 : FVec Ideal S1x128 .f32) (ix2 0 q)
      = (m ((c.tc : Thread nD τ).loc main_arg5) : FVec Ideal S128 .f32) (ix1 q) := by
  have e : (W2 m ρ c (Proc.devRef .tc main_arg5) : FVec Ideal S128 .f32) = m ((c.tc : Thread nD τ).loc main_arg5) :=
    W2_keep m ρ c main_arg5 (by decide) (by decide)
  exact (s1_v35 (W2 m ρ c) q).trans (congrFun e _)

theorem V3_v36 (c : Dev nD) (q : Fin 128) :
    (V3 m ρ c main_v36 : FVec Ideal S1x128 .f32) (ix2 0 q)
      = (m ((c.tc : Thread nD τ).loc main_arg6) : FVec Ideal S128 .f32) (ix1 q) := by
  have e : (W2 m ρ c (Proc.devRef .tc main_arg6) : FVec Ideal S128 .f32) = m ((c.tc : Thread nD τ).loc main_arg6) :=
    W2_keep m ρ c main_arg6 (by decide) (by decide)
  exact (s1_v36 (W2 m ρ c) q).trans (congrFun e _)

end Cert.Sage.Stretch

end
-- ==== Proof.Stretch2.lean ====
/-
  The third stretch of host operations of the kernel program, read at its results.

  Between the second and the third launch the host forms the neighbourhood mean of the second launch's output table,
  from the source and target rows and the in-degree reciprocals the first stretch left, and re-lays the second bias
  vector as a one-row table.
-/
import proofs.«101248_j40450001994225_2_alg».proof.Proof.Gen.KernelIdeal.Frame
import proofs.«101248_j40450001994225_2_alg».proof.Proof.Net
import Idealize.ShloMosaic.Lib.ValueLayout
import Idealize.ShloMosaic.PureOps.Ideal.Laws
import proofs.«101248_j40450001994225_2_alg».proof.Proof.Stretch1

set_option maxRecDepth 16384

noncomputable section

namespace Cert.Sage.Stretch

open Idealize.ShloMosaic Idealize.ShloMosaic.TcCoe Idealize.ShloMosaic.ValueIdx
open Idealize.SL.Sem
open Cert.KernelIdeal Cert.KernelIdeal.Gen

/-- The references stretch 2 writes. -/
def written2 : List (Ref Cert.KernelIdeal.sig .tc) :=
  [main_c_8, main_v38, main_v39, main_c_9, main_v40, main_v41, main_v42, main_v43, main_v44, main_cst_10, main_v45, main_v46,
   main_v47, main_v48, main_v49, main_v50, main_v51]

/-- A buffer stretch 2 does not write keeps its contents. -/
theorem keep2 (Wp : Val0) (b : Ref Cert.KernelIdeal.sig .tc) (hb : b ∉ written2) :
    StableHlo.after (hostOps2 (F := Ideal)) Wp (Proc.devRef .tc b) = Wp (Proc.devRef .tc b) := by
  keeps_of_not_mem hostOps2 hb

/-- The neighbourhood mean of the table at `main_v37`, when the three edge-list buffers hold the source row, the target
    row and the in-degree reciprocals of an edge list `E`. -/
theorem s2_v50 (Wp : Val0) (E : IVec S2x600000 32)
    (h1 : (Wp (Proc.devRef .tc main_v1) : IVec S600000 32) = srcVec E)
    (h3 : (Wp (Proc.devRef .tc main_v3) : IVec S600000 32) = dstVec E)
    (h11 : (Wp (Proc.devRef .tc main_v11) : FVec Ideal S100000 .f32) = invDeg E) :
    (StableHlo.after (hostOps2 (F := Ideal)) Wp (Proc.devRef .tc main_v50) : FVec Ideal S100000x128 .f32)
      = agg128 E (Wp (Proc.devRef .tc main_v37)) := by
  after_results_simp
  rw [h1, h3, h11]
  rfl

/-- The second bias vector as a one-row table, read at an entry. -/
theorem s2_v51 (Wp : Val0) (q : Fin 128) :
    (StableHlo.after (hostOps2 (F := Ideal)) Wp (Proc.devRef .tc main_v51) : FVec Ideal S1x128 .f32) (ix2 0 q)
      = (Wp (Proc.devRef .tc main_arg8) : FVec Ideal S128 .f32) (ix1 q) := by
  after_results_simp
  exact shapeCast_a_1a_apply _ _ 0 q

/-! ## At the program's launch memory -/

variable (m : (ℓ : Loc nD τ Cert.KernelIdeal.sig) → Buf (Elt Ideal) ℓ) (ρ : Dev nD → PrngReg)

/-- A buffer that is no array of the first two launches and that stretches 0 and 1 do not write holds after the
    second launch what it held at the program's launch. -/
theorem W4_keep (c : Dev nD) (b : Ref Cert.KernelIdeal.sig .tc) (h0 : ∀ w, Pipeline.arrRef spec0 w ≠ b)
    (h1 : ∀ w, Pipeline.arrRef spec1 w ≠ b) (hb0 : b ∉ written0) (hb1 : b ∉ written1) :
    W4 m ρ c (Proc.devRef .tc b) = W0 m ρ c (Proc.devRef .tc b) :=
  (W4_of_ne m ρ c b h1).trans ((keep1 (W2 m ρ c) b hb1).trans (W2_keep m ρ c b h0 hb0))

/-- A buffer that is no array of the first two launches and that stretch 1 does not write holds after the second
    launch what stretch 0 left in it. -/
theorem W4_edge (c : Dev nD) (b : Ref Cert.KernelIdeal.sig .tc) (h0 : ∀ w, Pipeline.arrRef spec0 w ≠ b)
    (h1 : ∀ w, Pipeline.arrRef spec1 w ≠ b) (hb1 : b ∉ written1) :
    W4 m ρ c (Proc.devRef .tc b) = W1 m ρ c (Proc.devRef .tc b) :=
  (W4_of_ne m ρ c b h1).trans ((keep1 (W2 m ρ c) b hb1).trans (W2_of_ne m ρ c b h0))

theorem W4_v1 (c : Dev nD) :
    (W4 m ρ c (Proc.devRef .tc main_v1) : IVec S600000 32) = srcVec (m ((c.tc : Thread nD τ).loc main_arg1)) :=
  (W4_edge m ρ c main_v1 (by decide) (by decide) (by decide)).trans (W1_v1 m ρ c)

theorem W4_v3 (c : Dev nD) :
    (W4 m ρ c (Proc.devRef .tc main_v3) : IVec S600000 32) = dstVec (m ((c.tc : Thread nD τ).loc main_arg1)) :=
  (W4_edge m ρ c main_v3 (by decide) (by decide) (by decide)).trans (W1_v3 m ρ c)

theorem W4_v11 (c : Dev nD) :
    (W4 m ρ c (Proc.devRef .tc main_v11) : FVec Ideal S100000 .f32) = invDeg (m ((c.tc : Thread nD τ).loc main_arg1)) :=
  (W4_edge m ρ c main_v11 (by decide) (by decide) (by decide)).trans (W1_v11 m ρ c)

theorem V5_v50 (c : Dev nD) :
    (V5 m ρ c main_v50 : FVec Ideal S100000x128 .f32)
      = agg128 (m ((c.tc : Thread nD τ).loc main_arg1)) (V4 m ρ c main_v37 : FVec Ideal S100000x128 .f32) :=
  s2_v50 (W4 m ρ c) _ (W4_v1 m ρ c) (W4_v3 m ρ c) (W4_v11 m ρ c)

theorem V5_v37 (c : Dev nD) : V5 m ρ c main_v37 = V4 m ρ c main_v37 :=
  keep2 (W4 m ρ c) main_v37 (by decide)

theorem V5_arg7 (c : Dev nD) : V5 m ρ c main_arg7 = m ((c.tc : Thread nD τ).loc main_arg7) :=
  (keep2 (W4 m ρ c) main_arg7 (by decide)).trans (W4_keep m ρ c main_arg7 (by decide) (by decide) (by decide) (by decide))

theorem V5_arg9 (c : Dev nD) : V5 m ρ c main_arg9 = m ((c.tc : Thread nD τ).loc main_arg9) :=
  (keep2 (W4 m ρ c) main_arg9 (by decide)).trans (W4_keep m ρ c main_arg9 (by decide) (by decide) (by decide) (by decide))

theorem V5_v51 (c : Dev nD) (q : Fin 128) :
    (V5 m ρ c main_v51 : FVec Ideal S1x128 .f32) (ix2 0 q)
      = (m ((c.tc : Thread nD τ).loc main_arg8) : FVec Ideal S128 .f32) (ix1 q) := by
  have e : (W4 m ρ c (Proc.devRef .tc main_arg8) : FVec Ideal S128 .f32) = m ((c.tc : Thread nD τ).loc main_arg8) :=
    W4_keep m ρ c main_arg8 (by decide) (by decide) (by decide) (by decide)
  exact (s2_v51 (W4 m ρ c) q).trans (congrFun e _)

end Cert.Sage.Stretch

end
-- ==== Proof.Stretch3.lean ====
/-
  The fourth stretch of host operations of the kernel program, read at its results.

  Between the third and the fourth launch the host divides the column sums and the column sums of squares the third
  launch leaves by the row count, subtracts the squared mean from the mean of squares, cuts the difference off below
  at zero, and re-lays the second scale and shift vectors as one-row tables. Each is read here at an entry.
-/
import proofs.«101248_j40450001994225_2_alg».proof.Proof.Gen.KernelIdeal.Frame
import proofs.«101248_j40450001994225_2_alg».proof.Proof.Net
import Idealize.ShloMosaic.Lib.ValueLayout
import Idealize.ShloMosaic.PureOps.Ideal.Laws
import proofs.«101248_j40450001994225_2_alg».proof.Proof.Stretch2

set_option maxRecDepth 16384

noncomputable section

namespace Cert.Sage.Stretch

open Idealize.ShloMosaic Idealize.ShloMosaic.TcCoe Idealize.ShloMosaic.ValueIdx
open Idealize.SL.Sem
open Cert.KernelIdeal Cert.KernelIdeal.Gen

/-- The references stretch 3 writes. -/
def written3 : List (Ref Cert.KernelIdeal.sig .tc) :=
  [main_cst_11, main_v53, main_v54, main_cst_12, main_v55, main_v56, main_v57, main_v58, main_cst_13, main_v59, main_v60,
   main_v61, main_v62]

/-- A buffer stretch 3 does not write keeps its contents. -/
theorem keep3 (Wp : Val0) (b : Ref Cert.KernelIdeal.sig .tc) (hb : b ∉ written3) :
    StableHlo.after (hostOps3 (F := Ideal)) Wp (Proc.devRef .tc b) = Wp (Proc.devRef .tc b) := by
  keeps_of_not_mem hostOps3 hb

/-- The column means: the column sums divided by the row count. -/
theorem s3_v54 (Wp : Val0) (q : Fin 128) :
    (StableHlo.after (hostOps3 (F := Ideal)) Wp (Proc.devRef .tc main_v54) : FVec Ideal S1x128 .f32) (ix2 0 q)
      = Ideal.div ((Wp (Proc.devRef .tc main_v52_1) : FVec Ideal S1x128 .f32) (ix2 0 q)) rowCount := by
  after_results_simp
  rfl

/-- The column variances: the mean of squares less the squared mean, cut off below at zero. -/
theorem s3_v60 (Wp : Val0) (q : Fin 128) :
    (StableHlo.after (hostOps3 (F := Ideal)) Wp (Proc.devRef .tc main_v60) : FVec Ideal S1x128 .f32) (ix2 0 q)
      = max (Ideal.div ((Wp (Proc.devRef .tc main_v52_2) : FVec Ideal S1x128 .f32) (ix2 0 q)) rowCount
            - Ideal.div ((Wp (Proc.devRef .tc main_v52_1) : FVec Ideal S1x128 .f32) (ix2 0 q)) rowCount
              * Ideal.div ((Wp (Proc.devRef .tc main_v52_1) : FVec Ideal S1x128 .f32) (ix2 0 q)) rowCount) 0 := by
  after_results_simp
  show max _ (Ideal.ofBits .f32 0x00000000#32) = _
  rw [Ideal.ofBits_zero_f32]
  rfl

/-- The second scale vector as a one-row table, read at an entry. -/
theorem s3_v61 (Wp : Val0) (q : Fin 128) :
    (StableHlo.after (hostOps3 (F := Ideal)) Wp (Proc.devRef .tc main_v61) : FVec Ideal S1x128 .f32) (ix2 0 q)
      = (Wp (Proc.devRef .tc main_arg10) : FVec Ideal S128 .f32) (ix1 q) := by
  after_results_simp
  exact shapeCast_a_1a_apply _ _ 0 q

/-- The second shift vector as a one-row table, read at an entry. -/
theorem s3_v62 (Wp : Val0) (q : Fin 128) :
    (StableHlo.after (hostOps3 (F := Ideal)) Wp (Proc.devRef .tc main_v62) : FVec Ideal S1x128 .f32) (ix2 0 q)
      = (Wp (Proc.devRef .tc main_arg11) : FVec Ideal S128 .f32) (ix1 q) := by
  after_results_simp
  exact shapeCast_a_1a_apply _ _ 0 q

/-! ## At the program's launch memory -/

variable (m : (ℓ : Loc nD τ Cert.KernelIdeal.sig) → Buf (Elt Ideal) ℓ) (ρ : Dev nD → PrngReg)

/-- A buffer that is no array of the first three launches and that stretches 0, 1 and 2 do not write holds after the
    third launch what it held at the program's launch. -/
theorem W6_keep (c : Dev nD) (b : Ref Cert.KernelIdeal.sig .tc) (h0 : ∀ w, Pipeline.arrRef spec0 w ≠ b)
    (h1 : ∀ w, Pipeline.arrRef spec1 w ≠ b) (h2 : ∀ w, Pipeline.arrRef spec2 w ≠ b) (hb0 : b ∉ written0)
    (hb1 : b ∉ written1) (hb2 : b ∉ written2) : W6 m ρ c (Proc.devRef .tc b) = W0 m ρ c (Proc.devRef .tc b) :=
  (W6_of_ne m ρ c b h2).trans ((keep2 (W4 m ρ c) b hb2).trans (W4_keep m ρ c b h0 h1 hb0 hb1))

/-- A buffer that is no array of the first three launches and that stretches 1 and 2 do not write holds after the
    third launch what stretch 0 left in it. -/
theorem W6_edge (c : Dev nD) (b : Ref Cert.KernelIdeal.sig .tc) (h0 : ∀ w, Pipeline.arrRef spec0 w ≠ b)
    (h1 : ∀ w, Pipeline.arrRef spec1 w ≠ b) (h2 : ∀ w, Pipeline.arrRef spec2 w ≠ b) (hb1 : b ∉ written1)
    (hb2 : b ∉ written2) : W6 m ρ c (Proc.devRef .tc b) = W1 m ρ c (Proc.devRef .tc b) :=
  (W6_of_ne m ρ c b h2).trans ((keep2 (W4 m ρ c) b hb2).trans (W4_edge m ρ c b h0 h1 hb1))

theorem V7_v52_0 (c : Dev nD) : V7 m ρ c main_v52_0 = V6 m ρ c main_v52_0 :=
  keep3 (W6 m ρ c) main_v52_0 (by decide)

theorem V7_v54 (c : Dev nD) (q : Fin 128) :
    (V7 m ρ c main_v54 : FVec Ideal S1x128 .f32) (ix2 0 q)
      = Ideal.div ((V6 m ρ c main_v52_1 : FVec Ideal S1x128 .f32) (ix2 0 q)) rowCount :=
  s3_v54 (W6 m ρ c) q

theorem V7_v60 (c : Dev nD) (q : Fin 128) :
    (V7 m ρ c main_v60 : FVec Ideal S1x128 .f32) (ix2 0 q)
      = max (Ideal.div ((V6 m ρ c main_v52_2 : FVec Ideal S1x128 .f32) (ix2 0 q)) rowCount
            - Ideal.div ((V6 m ρ c main_v52_1 : FVec Ideal S1x128 .f32) (ix2 0 q)) rowCount
              * Ideal.div ((V6 m ρ c main_v52_1 : FVec Ideal S1x128 .f32) (ix2 0 q)) rowCount) 0 :=
  s3_v60 (W6 m ρ c) q

/-- The same with the mean named by its buffer. -/
theorem V7_v60' (c : Dev nD) (q : Fin 128) :
    asTab S1x128 (V7 m ρ c main_v60) (ix2 0 q)
      = max (Ideal.div (asTab S1x128 (V6 m ρ c main_v52_2) (ix2 0 q)) rowCount
            - asTab S1x128 (V7 m ρ c main_v54) (ix2 0 q) * asTab S1x128 (V7 m ρ c main_v54) (ix2 0 q)) 0 := by
  rw [show asTab S1x128 (V7 m ρ c main_v54) (ix2 0 q)
      = Ideal.div (asTab S1x128 (V6 m ρ c main_v52_1) (ix2 0 q)) rowCount from V7_v54 m ρ c q]
  exact s3_v60 (W6 m ρ c) q

theorem V7_v61 (c : Dev nD) (q : Fin 128) :
    (V7 m ρ c main_v61 : FVec Ideal S1x128 .f32) (ix2 0 q)
      = (m ((c.tc : Thread nD τ).loc main_arg10) : FVec Ideal S128 .f32) (ix1 q) := by
  have e : (W6 m ρ c (Proc.devRef .tc main_arg10) : FVec Ideal S128 .f32) = m ((c.tc : Thread nD τ).loc main_arg10) :=
    W6_keep m ρ c main_arg10 (by decide) (by decide) (by decide) (by decide) (by decide) (by decide)
  exact (s3_v61 (W6 m ρ c) q).trans (congrFun e _)

theorem V7_v62 (c : Dev nD) (q : Fin 128) :
    (V7 m ρ c main_v62 : FVec Ideal S1x128 .f32) (ix2 0 q)
      = (m ((c.tc : Thread nD τ).loc main_arg11) : FVec Ideal S128 .f32) (ix1 q) := by
  have e : (W6 m ρ c (Proc.devRef .tc main_arg11) : FVec Ideal S128 .f32) = m ((c.tc : Thread nD τ).loc main_arg11) :=
    W6_keep m ρ c main_arg11 (by decide) (by decide) (by decide) (by decide) (by decide) (by decide)
  exact (s3_v62 (W6 m ρ c) q).trans (congrFun e _)

end Cert.Sage.Stretch

end
-- ==== Proof.Stretch4.lean ====
/-
  The fifth stretch of host operations of the kernel program, read at its results.

  Between the fourth and the fifth launch the host forms the neighbourhood mean of the fourth launch's output table,
  from the source and target rows and the in-degree reciprocals the first stretch left, and re-lays the one-entry bias
  vector as a one-by-one table.
-/
import proofs.«101248_j40450001994225_2_alg».proof.Proof.Gen.KernelIdeal.Frame
import proofs.«101248_j40450001994225_2_alg».proof.Proof.Net
import Idealize.ShloMosaic.Lib.ValueLayout
import Idealize.ShloMosaic.PureOps.Ideal.Laws
import proofs.«101248_j40450001994225_2_alg».proof.Proof.Stretch3

set_option maxRecDepth 16384

noncomputable section

namespace Cert.Sage.Stretch

open Idealize.ShloMosaic Idealize.ShloMosaic.TcCoe Idealize.ShloMosaic.ValueIdx
open Idealize.SL.Sem
open Cert.KernelIdeal Cert.KernelIdeal.Gen

/-- The references stretch 4 writes. -/
def written4 : List (Ref Cert.KernelIdeal.sig .tc) :=
  [main_c_14, main_v64, main_v65, main_c_15, main_v66, main_v67, main_v68, main_v69, main_v70, main_cst_16, main_v71, main_v72,
   main_v73, main_v74, main_v75, main_v76, main_v77]

/-- A buffer stretch 4 does not write keeps its contents. -/
theorem keep4 (Wp : Val0) (b : Ref Cert.KernelIdeal.sig .tc) (hb : b ∉ written4) :
    StableHlo.after (hostOps4 (F := Ideal)) Wp (Proc.devRef .tc b) = Wp (Proc.devRef .tc b) := by
  keeps_of_not_mem hostOps4 hb

/-- The neighbourhood mean of the table at `main_v63`, when the three edge-list buffers hold the source row, the target
    row and the in-degree reciprocals of an edge list `E`. -/
theorem s4_v76 (Wp : Val0) (E : IVec S2x600000 32)
    (h1 : (Wp (Proc.devRef .tc main_v1) : IVec S600000 32) = srcVec E)
    (h3 : (Wp (Proc.devRef .tc main_v3) : IVec S600000 32) = dstVec E)
    (h11 : (Wp (Proc.devRef .tc main_v11) : FVec Ideal S100000 .f32) = invDeg E) :
    (StableHlo.after (hostOps4 (F := Ideal)) Wp (Proc.devRef .tc main_v76) : FVec Ideal S100000x128 .f32)
      = agg128 E (Wp (Proc.devRef .tc main_v63)) := by
  after_results_simp
  rw [h1, h3, h11]
  rfl

/-- The one-entry bias vector as a one-by-one table, read at its entry. -/
theorem s4_v77 (Wp : Val0) :
    (StableHlo.after (hostOps4 (F := Ideal)) Wp (Proc.devRef .tc main_v77) : FVec Ideal S1x1 .f32) (ix2 0 0)
      = (Wp (Proc.devRef .tc main_arg13) : FVec Ideal S1 .f32) (ix1 0) := by
  after_results_simp
  exact shapeCast_a_1a_apply _ _ 0 0

/-! ## At the program's launch memory -/

variable (m : (ℓ : Loc nD τ Cert.KernelIdeal.sig) → Buf (Elt Ideal) ℓ) (ρ : Dev nD → PrngReg)

/-- A buffer that is no array of the first four launches and that stretches 0 to 3 do not write holds after the
    fourth launch what it held at the program's launch. -/
theorem W8_keep (c : Dev nD) (b : Ref Cert.KernelIdeal.sig .tc) (h0 : ∀ w, Pipeline.arrRef spec0 w ≠ b)
    (h1 : ∀ w, Pipeline.arrRef spec1 w ≠ b) (h2 : ∀ w, Pipeline.arrRef spec2 w ≠ b) (h3 : ∀ w, Pipeline.arrRef spec3 w ≠ b)
    (hb0 : b ∉ written0) (hb1 : b ∉ written1) (hb2 : b ∉ written2) (hb3 : b ∉ written3) :
    W8 m ρ c (Proc.devRef .tc b) = W0 m ρ c (Proc.devRef .tc b) :=
  (W8_of_ne m ρ c b h3).trans ((keep3 (W6 m ρ c) b hb3).trans (W6_keep m ρ c b h0 h1 h2 hb0 hb1 hb2))

/-- A buffer that is no array of the first four launches and that stretches 1 to 3 do not write holds after the
    fourth launch what stretch 0 left in it. -/
theorem W8_edge (c : Dev nD) (b : Ref Cert.KernelIdeal.sig .tc) (h0 : ∀ w, Pipeline.arrRef spec0 w ≠ b)
    (h1 : ∀ w, Pipeline.arrRef spec1 w ≠ b) (h2 : ∀ w, Pipeline.arrRef spec2 w ≠ b) (h3 : ∀ w, Pipeline.arrRef spec3 w ≠ b)
    (hb1 : b ∉ written1) (hb2 : b ∉ written2) (hb3 : b ∉ written3) :
    W8 m ρ c (Proc.devRef .tc b) = W1 m ρ c (Proc.devRef .tc b) :=
  (W8_of_ne m ρ c b h3).trans ((keep3 (W6 m ρ c) b hb3).trans (W6_edge m ρ c b h0 h1 h2 hb1 hb2))

theorem W8_v1 (c : Dev nD) :
    (W8 m ρ c (Proc.devRef .tc main_v1) : IVec S600000 32) = srcVec (m ((c.tc : Thread nD τ).loc main_arg1)) :=
  (W8_edge m ρ c main_v1 (by decide) (by decide) (by decide) (by decide) (by decide) (by decide) (by decide)).trans
    (W1_v1 m ρ c)

theorem W8_v3 (c : Dev nD) :
    (W8 m ρ c (Proc.devRef .tc main_v3) : IVec S600000 32) = dstVec (m ((c.tc : Thread nD τ).loc main_arg1)) :=
  (W8_edge m ρ c main_v3 (by decide) (by decide) (by decide) (by decide) (by decide) (by decide) (by decide)).trans
    (W1_v3 m ρ c)

theorem W8_v11 (c : Dev nD) :
    (W8 m ρ c (Proc.devRef .tc main_v11) : FVec Ideal S100000 .f32) = invDeg (m ((c.tc : Thread nD τ).loc main_arg1)) :=
  (W8_edge m ρ c main_v11 (by decide) (by decide) (by decide) (by decide) (by decide) (by decide) (by decide)).trans
    (W1_v11 m ρ c)

theorem V9_v76 (c : Dev nD) :
    (V9 m ρ c main_v76 : FVec Ideal S100000x128 .f32)
      = agg128 (m ((c.tc : Thread nD τ).loc main_arg1)) (V8 m ρ c main_v63 : FVec Ideal S100000x128 .f32) :=
  s4_v76 (W8 m ρ c) _ (W8_v1 m ρ c) (W8_v3 m ρ c) (W8_v11 m ρ c)

theorem V9_v63 (c : Dev nD) : V9 m ρ c main_v63 = V8 m ρ c main_v63 :=
  keep4 (W8 m ρ c) main_v63 (by decide)

theorem V9_arg12 (c : Dev nD) : V9 m ρ c main_arg12 = m ((c.tc : Thread nD τ).loc main_arg12) :=
  (keep4 (W8 m ρ c) main_arg12 (by decide)).trans
    (W8_keep m ρ c main_arg12 (by decide) (by decide) (by decide) (by decide) (by decide) (by decide) (by decide) (by decide))

theorem V9_arg14 (c : Dev nD) : V9 m ρ c main_arg14 = m ((c.tc : Thread nD τ).loc main_arg14) :=
  (keep4 (W8 m ρ c) main_arg14 (by decide)).trans
    (W8_keep m ρ c main_arg14 (by decide) (by decide) (by decide) (by decide) (by decide) (by decide) (by decide) (by decide))

theorem V9_v77 (c : Dev nD) :
    (V9 m ρ c main_v77 : FVec Ideal S1x1 .f32) (ix2 0 0)
      = (m ((c.tc : Thread nD τ).loc main_arg13) : FVec Ideal S1 .f32) (ix1 0) := by
  have e : (W8 m ρ c (Proc.devRef .tc main_arg13) : FVec Ideal S1 .f32) = m ((c.tc : Thread nD τ).loc main_arg13) :=
    W8_keep m ρ c main_arg13 (by decide) (by decide) (by decide) (by decide) (by decide) (by decide) (by decide) (by decide)
  exact (s4_v77 (W8 m ρ c)).trans (congrFun e _)

/-! ## The last stretch: the one-column result re-laid as a vector -/

/-- The result vector at row `r` is the one-column table's entry `(r, 0)`. -/
theorem s5_v79 (Wp : Val0) (r : Fin 100000) :
    (StableHlo.after (hostOps5 (F := Ideal)) Wp (Proc.devRef .tc main_v79) : FVec Ideal S100000 .f32) (ix1 r)
      = (Wp (Proc.devRef .tc main_v78) : FVec Ideal S100000x1 .f32) (ix2 r 0) := by
  after_results_simp
  refine shapeCast_apply _ _ _ _ ?_
  show ((⟨2, ![100000, 1]⟩ : Shape).rowMajor (ix2 r 0)).val = ((⟨1, ![100000]⟩ : Shape).rowMajor (ix1 r)).val
  rw [Shape.rowMajor_val_two, Shape.rowMajor_val_one]
  show r.val * 1 + 0 = r.val
  omega

theorem W11_v79 (c : Dev nD) (r : Fin 100000) :
    (W11 m ρ c (Proc.devRef .tc main_v79) : FVec Ideal S100000 .f32) (ix1 r)
      = (W10 m ρ c (Proc.devRef .tc main_v78) : FVec Ideal S100000x1 .f32) (ix2 r 0) :=
  s5_v79 (W10 m ρ c) r

end Cert.Sage.Stretch

end
-- ==== Proof.Compose.lean ====
/-
  The kernel program's result as the network of its fifteen arguments.

  The buffers' contents are followed through the program's eleven segments. Stretch 0 forms the neighbourhood
  means of the features; launch 0 leaves the first layer's linear part and its column sums; stretch 1 turns the sums
  into the mean and the variance (mean of squares less squared mean, cut off at 0); launch 1 normalises and cuts off
  at 0. Stretches 2 and 3 and launches 2 and 3 repeat this for the second layer on the first layer's output; stretch 4
  forms the neighbourhood means once more, launch 4 applies the last linear part and the logistic function, and
  stretch 5 re-lays the one-column result as a vector.
-/
import proofs.«101248_j40450001994225_2_alg».proof.Proof.Gen.KernelIdeal.Frame
import proofs.«101248_j40450001994225_2_alg».proof.Proof.Net
import proofs.«101248_j40450001994225_2_alg».proof.Proof.Region0
import proofs.«101248_j40450001994225_2_alg».proof.Proof.Region1
import proofs.«101248_j40450001994225_2_alg».proof.Proof.Region2
import proofs.«101248_j40450001994225_2_alg».proof.Proof.Region3
import proofs.«101248_j40450001994225_2_alg».proof.Proof.Region4
import proofs.«101248_j40450001994225_2_alg».proof.Proof.Stretch4

noncomputable section

open scoped BigOperators

namespace Cert.Sage.Compose

open Idealize.ShloMosaic Idealize.ShloMosaic.TcCoe Idealize.SL.Sem Idealize.ShloMosaic.ValueIdx
open Cert.KernelIdeal Cert.KernelIdeal.Gen

variable (m : (ℓ : Loc nD τ Cert.KernelIdeal.sig) → Buf (Elt Ideal) ℓ) (ρ : Dev nD → PrngReg)

/-! ## The arguments -/

abbrev a0 (c : Dev nD) : FVec Ideal S100000x6 .f32 := m ((c.tc : Thread nD τ).loc main_arg0)
abbrev a1 (c : Dev nD) : IVec S2x600000 32 := m ((c.tc : Thread nD τ).loc main_arg1)
abbrev a2 (c : Dev nD) : FVec Ideal S128x6 .f32 := m ((c.tc : Thread nD τ).loc main_arg2)
abbrev a3 (c : Dev nD) : FVec Ideal S128 .f32 := m ((c.tc : Thread nD τ).loc main_arg3)
abbrev a4 (c : Dev nD) : FVec Ideal S128x6 .f32 := m ((c.tc : Thread nD τ).loc main_arg4)
abbrev a5 (c : Dev nD) : FVec Ideal S128 .f32 := m ((c.tc : Thread nD τ).loc main_arg5)
abbrev a6 (c : Dev nD) : FVec Ideal S128 .f32 := m ((c.tc : Thread nD τ).loc main_arg6)
abbrev a7 (c : Dev nD) : FVec Ideal S128x128 .f32 := m ((c.tc : Thread nD τ).loc main_arg7)
abbrev a8 (c : Dev nD) : FVec Ideal S128 .f32 := m ((c.tc : Thread nD τ).loc main_arg8)
abbrev a9 (c : Dev nD) : FVec Ideal S128x128 .f32 := m ((c.tc : Thread nD τ).loc main_arg9)
abbrev a10 (c : Dev nD) : FVec Ideal S128 .f32 := m ((c.tc : Thread nD τ).loc main_arg10)
abbrev a11 (c : Dev nD) : FVec Ideal S128 .f32 := m ((c.tc : Thread nD τ).loc main_arg11)
abbrev a12 (c : Dev nD) : FVec Ideal S1x128 .f32 := m ((c.tc : Thread nD τ).loc main_arg12)
abbrev a13 (c : Dev nD) : FVec Ideal S1 .f32 := m ((c.tc : Thread nD τ).loc main_arg13)
abbrev a14 (c : Dev nD) : FVec Ideal S1x128 .f32 := m ((c.tc : Thread nD τ).loc main_arg14)

theorem lin_congr {n k c : ℕ} {M M' X X' : Tab n k} {Wl Wl' Wr Wr' : Tab c k} {b b' : Fin c → EReal}
    (h1 : M = M') (h2 : X = X') (h3 : Wl = Wl') (h4 : Wr = Wr') (h5 : b = b') :
    lin M X Wl Wr b = lin M' X' Wl' Wr' b' := by subst h1 h2 h3 h4 h5; rfl

/-! ## After launch 0 -/

/-- A normalised table assembled from its parts is the batch normalisation of the table: the mean and the variance
    the parts carry are the column statistics of the table itself. -/
theorem bn_of_parts {n c : ℕ} (H : Tab n c) (mean var γt βt : Tab 1 c) (L : Tab n c) (γ β : Fin c → EReal)
    (S1 S2 : Tab 1 c) (hH : H = L)
    (hmean : ∀ q, mean (ix2 0 q) = Ideal.div (S1 (ix2 0 q)) rowCount)
    (hvar : ∀ q, var (ix2 0 q) = max (Ideal.div (S2 (ix2 0 q)) rowCount
      - Ideal.div (S1 (ix2 0 q)) rowCount * Ideal.div (S1 (ix2 0 q)) rowCount) 0)
    (hS1 : ∀ q, S1 (ix2 0 q) = colSum L q) (hS2 : ∀ q, S2 (ix2 0 q) = colSumSq L q)
    (hγ : ∀ q, γt (ix2 0 q) = γ q) (hβ : ∀ q, βt (ix2 0 q) = β q) :
    bnTab H mean var γt βt = bn varK L γ β := by
  subst hH
  funext i
  obtain ⟨r, q, rfl⟩ : ∃ (r : Fin n) (q : Fin c), i = ix2 r q := ⟨i 0, i 1, eq_ix2 i⟩
  show bnAt (H (ix2 r q)) (mean (ix2 0 q)) (var (ix2 0 q)) (γt (ix2 0 q)) (βt (ix2 0 q))
    = bnAt (H (ix2 r q)) (meanAt H q) (varK H q) (γ q) (β q)
  rw [hmean, hvar, hS1, hS2, hγ, hβ]
  rfl

theorem G0_eq (c : Dev nD) : Region0.G (V1 m ρ) c = lin0 (a0 m c) (a1 m c) (a2 m c) (a3 m c) (a4 m c) := by
  unfold Region0.G lin0
  exact lin_congr (Stretch.V1_v24 m ρ c) (Stretch.V1_arg0 m ρ c) (Stretch.V1_arg2 m ρ c) (Stretch.V1_arg4 m ρ c)
    (funext fun q => Stretch.V1_v25 m ρ c q)

/-- The first layer's linear part. -/
theorem first_lin (c : Dev nD) :
    (W2 m ρ c (Proc.devRef .tc main_v26_0) : Tab 100000 128) = lin0 (a0 m c) (a1 m c) (a2 m c) (a3 m c) (a4 m c) :=
  (W2_arr m ρ c 5).trans ((Region0.final_lin (V1 m ρ) c).trans (G0_eq m ρ c))

/-- Its column sums. -/
theorem first_sum (c : Dev nD) (q : Fin 128) :
    (W2 m ρ c (Proc.devRef .tc main_v26_1) : Tab 1 128) (ix2 0 q) = colSum (lin0 (a0 m c) (a1 m c) (a2 m c) (a3 m c) (a4 m c)) q := by
  refine (congrFun ((W2_arr m ρ c 6).trans (Region0.final_sum (V1 m ρ) c)) (ix2 0 q)).trans ?_
  show colSum (Region0.G (V1 m ρ) c) q = _
  rw [G0_eq]

/-- The column sums of its squares. -/
theorem first_sumsq (c : Dev nD) (q : Fin 128) :
    (W2 m ρ c (Proc.devRef .tc main_v26_2) : Tab 1 128) (ix2 0 q) = colSumSq (lin0 (a0 m c) (a1 m c) (a2 m c) (a3 m c) (a4 m c)) q := by
  refine (congrFun ((W2_arr m ρ c 7).trans (Region0.final_sumsq (V1 m ρ) c)) (ix2 0 q)).trans ?_
  show colSumSq (Region0.G (V1 m ρ) c) q = _
  rw [G0_eq]

/-! ## After launch 1 -/

/-- The first layer's output. -/
theorem first_hid (c : Dev nD) :
    (W4 m ρ c (Proc.devRef .tc main_v37) : Tab 100000 128) = hid0 varK (a0 m c) (a1 m c) (a2 m c) (a3 m c) (a4 m c) (a5 m c) (a6 m c) := by
  refine (W4_arr m ρ c 5).trans ((Region1.final (V3 m ρ) c).trans ?_)
  unfold Region1.result hid0
  exact bn_of_parts _ _ _ _ _ (lin0 (a0 m c) (a1 m c) (a2 m c) (a3 m c) (a4 m c)) (vec (a5 m c)) (vec (a6 m c))
    (V2 m ρ c main_v26_1) (V2 m ρ c main_v26_2)
    ((Stretch.V3_v26_0 m ρ c).trans (first_lin m ρ c)) (Stretch.V3_v28 m ρ c) (Stretch.V3_v34 m ρ c)
    (first_sum m ρ c) (first_sumsq m ρ c) (Stretch.V3_v35 m ρ c) (Stretch.V3_v36 m ρ c)

/-! ## After launch 2 -/

theorem G2_eq (c : Dev nD) : Region2.G (V5 m ρ) c = lin1 varK (a0 m c) (a1 m c) (a2 m c) (a3 m c) (a4 m c) (a5 m c) (a6 m c) (a7 m c) (a8 m c) (a9 m c) := by
  unfold Region2.G lin1
  exact lin_congr ((Stretch.V5_v50 m ρ c).trans (congrArg (agg128 (a1 m c)) (first_hid m ρ c)))
    ((Stretch.V5_v37 m ρ c).trans (first_hid m ρ c)) (Stretch.V5_arg7 m ρ c) (Stretch.V5_arg9 m ρ c)
    (funext fun q => Stretch.V5_v51 m ρ c q)

/-- The second layer's linear part. -/
theorem second_lin (c : Dev nD) :
    (W6 m ρ c (Proc.devRef .tc main_v52_0) : Tab 100000 128) = lin1 varK (a0 m c) (a1 m c) (a2 m c) (a3 m c) (a4 m c) (a5 m c) (a6 m c) (a7 m c) (a8 m c) (a9 m c) :=
  (W6_arr m ρ c 5).trans ((Region2.final_lin (V5 m ρ) c).trans (G2_eq m ρ c))

/-- Its column sums. -/
theorem second_sum (c : Dev nD) (q : Fin 128) :
    (W6 m ρ c (Proc.devRef .tc main_v52_1) : Tab 1 128) (ix2 0 q) = colSum (lin1 varK (a0 m c) (a1 m c) (a2 m c) (a3 m c) (a4 m c) (a5 m c) (a6 m c) (a7 m c) (a8 m c) (a9 m c)) q := by
  refine (congrFun ((W6_arr m ρ c 6).trans (Region2.final_sum (V5 m ρ) c)) (ix2 0 q)).trans ?_
  show colSum (Region2.G (V5 m ρ) c) q = _
  rw [G2_eq]

/-- The column sums of its squares. -/
theorem second_sumsq (c : Dev nD) (q : Fin 128) :
    (W6 m ρ c (Proc.devRef .tc main_v52_2) : Tab 1 128) (ix2 0 q) = colSumSq (lin1 varK (a0 m c) (a1 m c) (a2 m c) (a3 m c) (a4 m c) (a5 m c) (a6 m c) (a7 m c) (a8 m c) (a9 m c)) q := by
  refine (congrFun ((W6_arr m ρ c 7).trans (Region2.final_sumsq (V5 m ρ) c)) (ix2 0 q)).trans ?_
  show colSumSq (Region2.G (V5 m ρ) c) q = _
  rw [G2_eq]

/-! ## After launch 3 -/

/-- The second layer's output. -/
theorem second_hid (c : Dev nD) :
    (W8 m ρ c (Proc.devRef .tc main_v63) : Tab 100000 128) = hid1 varK (a0 m c) (a1 m c) (a2 m c) (a3 m c) (a4 m c) (a5 m c) (a6 m c) (a7 m c) (a8 m c) (a9 m c) (a10 m c) (a11 m c) := by
  refine (W8_arr m ρ c 5).trans ((Region3.final (V7 m ρ) c).trans ?_)
  unfold Region3.result hid1
  exact bn_of_parts _ _ _ _ _ (lin1 varK (a0 m c) (a1 m c) (a2 m c) (a3 m c) (a4 m c) (a5 m c) (a6 m c) (a7 m c) (a8 m c) (a9 m c)) (vec (a10 m c)) (vec (a11 m c))
    (V6 m ρ c main_v52_1) (V6 m ρ c main_v52_2)
    ((Stretch.V7_v52_0 m ρ c).trans (second_lin m ρ c)) (Stretch.V7_v54 m ρ c) (Stretch.V7_v60 m ρ c)
    (second_sum m ρ c) (second_sumsq m ρ c) (Stretch.V7_v61 m ρ c) (Stretch.V7_v62 m ρ c)

/-! ## After launch 4, and the result -/

/-- The last layer's linear part, from the arrays launch 4 finds. -/
theorem last_lin (c : Dev nD) :
    lin (V9 m ρ c main_v76 : Tab 100000 128) (V9 m ρ c main_v63 : Tab 100000 128) (V9 m ρ c main_arg12 : Tab 1 128)
      (V9 m ρ c main_arg14 : Tab 1 128) (fun z => (V9 m ρ c main_v77 : Tab 1 1) (ix2 0 z))
      = lin2 varK (a0 m c) (a1 m c) (a2 m c) (a3 m c) (a4 m c) (a5 m c) (a6 m c) (a7 m c) (a8 m c) (a9 m c) (a10 m c) (a11 m c) (a12 m c) (a13 m c) (a14 m c) := by
  unfold lin2
  exact lin_congr ((Stretch.V9_v76 m ρ c).trans (congrArg (agg128 (a1 m c)) (second_hid m ρ c)))
    ((Stretch.V9_v63 m ρ c).trans (second_hid m ρ c)) (Stretch.V9_arg12 m ρ c) (Stretch.V9_arg14 m ρ c)
    (funext fun z => by
      obtain rfl : z = 0 := Subsingleton.elim _ _
      exact Stretch.V9_v77 m ρ c)

/-- The one-column result of launch 4 at row r. -/
theorem last_col (c : Dev nD) (r : Fin 100000) :
    (W10 m ρ c (Proc.devRef .tc main_v78) : Tab 100000 1) (ix2 r 0) = sig (lin2 varK (a0 m c) (a1 m c) (a2 m c) (a3 m c) (a4 m c) (a5 m c) (a6 m c) (a7 m c) (a8 m c) (a9 m c) (a10 m c) (a11 m c) (a12 m c) (a13 m c) (a14 m c) (ix2 r 0)) := by
  refine (congrFun ((W10_arr m ρ c 5).trans (Region4.final (V9 m ρ) c)) (ix2 r 0)).trans ?_
  exact congrArg sig (congrFun (last_lin m ρ c) (ix2 r 0))

/-- The program's result array is the network of its arguments, the variance taken as the mean of squares less
    the squared mean. -/
theorem result_eq (c : Dev nD) :
    (W11 m ρ c (Proc.devRef .tc main_v79) : FVec Ideal S100000 .f32) = netK (a0 m c) (a1 m c) (a2 m c) (a3 m c) (a4 m c) (a5 m c) (a6 m c) (a7 m c) (a8 m c) (a9 m c) (a10 m c) (a11 m c) (a12 m c) (a13 m c) (a14 m c) := by
  funext i
  obtain ⟨r, rfl⟩ : ∃ r : Fin 100000, i = ix1 r := ⟨i 0, eq_ix1 i⟩
  exact (Stretch.W11_v79 m ρ c r).trans (last_col m ρ c r)

end Cert.Sage.Compose

end
-- ==== Proof.lean ====
/-
  A three-layer graph network with batch statistics, computed two ways, is one function of its arguments.

  Both programs take a feature table of 100000 rows, an edge list, and per layer two weight tables and a bias; layers
  0 and 1 are followed by batch normalisation over the rows and a cut-off at 0, layer 2 by the logistic function. The
  neighbourhood mean that feeds each layer is formed by the same host operations in both programs. They differ in
  where the arithmetic happens and in how it is arranged: the kernel program computes each layer's linear part block
  by block (5000 rows at a time), accumulates the column sums and the column sums of squares across the 20 blocks, and
  takes the variance as the mean of squares less the squared mean, cut off below at 0; the reference takes the mean of
  the squared deviations from the mean. Over the extended reals a sum may be regrouped and reordered freely, so the
  blockwise sums are the whole sums; the two variances are the same number exactly when the entries are real, which
  the precondition provides for the arguments and which each layer preserves (sums and products of reals, a division
  by a nonzero real, the reciprocal square root of a positive real).

  The kernel program's result array is followed through its eleven segments (`Compose`), the reference's through its
  operations (`RefValue`); the comparison of the two networks on real arguments is `Bridge`; the three frame claims
  are the programs' runs with the results dropped, and the idealization rewrote nothing.
-/
import proofs.«101248_j40450001994225_2_alg».proof.Defs
import proofs.«101248_j40450001994225_2_alg».proof.Proof.Gen.Kernel
import proofs.«101248_j40450001994225_2_alg».proof.Proof.Gen.Kernel.Skeleton
import proofs.«101248_j40450001994225_2_alg».proof.Proof.Gen.Kernel.Launch
import proofs.«101248_j40450001994225_2_alg».proof.Proof.Gen.Kernel.Points
import proofs.«101248_j40450001994225_2_alg».proof.Proof.Gen.Kernel.Frame
import proofs.«101248_j40450001994225_2_alg».proof.Proof.Gen.KernelIdeal
import proofs.«101248_j40450001994225_2_alg».proof.Proof.Gen.KernelIdeal.Skeleton
import proofs.«101248_j40450001994225_2_alg».proof.Proof.Gen.KernelIdeal.Launch
import proofs.«101248_j40450001994225_2_alg».proof.Proof.Gen.KernelIdeal.Points
import proofs.«101248_j40450001994225_2_alg».proof.Proof.Gen.KernelIdeal.Frame
import proofs.«101248_j40450001994225_2_alg».proof.Proof.Gen.ReferenceIdeal
import proofs.«101248_j40450001994225_2_alg».proof.Proof.Gen.ReferenceIdeal.Run
import proofs.«101248_j40450001994225_2_alg».proof.Proof.Gen.ReferenceIdeal.Read
import proofs.«101248_j40450001994225_2_alg».proof.Proof.Gen.Pre_finite_inputs
import proofs.«101248_j40450001994225_2_alg».proof.Proof.Assemble
import proofs.«101248_j40450001994225_2_alg».proof.Proof.Compose
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Sage.Assemble.frame_k, Cert.Sage.Assemble.frame_ki, Cert.Sage.Assemble.frame_ri, Cert.Sage.Assemble.preserves,
    Cert.Sage.Assemble.algebraic_of Cert.Sage.Compose.result_eq⟩

end Cert.Proof

end
